-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v82)) (v2 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_v122) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x2 : Shape := ⟨2, ![256, 2]⟩
abbrev S2 : Shape := ⟨1, ![2]⟩
abbrev S256x6 : Shape := ⟨2, ![256, 6]⟩
abbrev S6 : Shape := ⟨1, ![6]⟩
abbrev S256x21 : Shape := ⟨2, ![256, 21]⟩
abbrev S21 : Shape := ⟨1, ![21]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S256x6 : S_.BroadcastsInDim S256x6 (![] : Fin 0 → Fin S256x6.rank)
  reducesTo_S256x6_S_d0_1 : S256x6.ReducesTo [0, 1] S_
  bcast_S_S6 : S_.BroadcastsInDim S6 (![] : Fin 0 → Fin S6.rank)
  reducesTo_S6_S_d0 : S6.ReducesTo [0] S_
  bcast_S_S256x21 : S_.BroadcastsInDim S256x21 (![] : Fin 0 → Fin S256x21.rank)
  reducesTo_S256x21_S_d0_1 : S256x21.ReducesTo [0, 1] S_
  bcast_S_S21 : S_.BroadcastsInDim S21 (![] : Fin 0 → Fin S21.rank)
  reducesTo_S21_S_d0 : S21.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S6 .f32) (main_arg13 : FVec F S256x21 .f32) (main_arg14 : FVec F S21 .f32) (main_v48 : IVec S_ 1) (main_v49 : FVec F S256x6 .f32) (main_v50 : FVec F S256x6 .f32) : IVec S_ 1 :=
  let main_v51 : IVec S256x6 1 := cmpf .olt main_v49 main_v50
  let main_c_19 : IVec S_ 1 := constantI S_ 1 1#1
  let main_v52 : IVec S_ 1 := (fun x v => Host.reduce IntOp.andi x v reducesTo_S256x6_S_d0_1 h_S_) main_v51 main_c_19
  let main_v53 : IVec S_ 1 := andi main_v48 main_v52
  let main_v54 : FVec F S6 .f32 := Host.absf main_arg12
  let main_cst_20 : FVec F S_ .f32 := constant S_ .f32 0x7F800000#32
  let main_v55 : FVec F S6 .f32 := broadcastInDim S6 ![] bcast_S_S6 main_cst_20
  let main_v56 : IVec S6 1 := cmpf .olt main_v54 main_v55
  let main_c_21 : IVec S_ 1 := constantI S_ 1 1#1
  let main_v57 : IVec S_ 1 := (fun x v => Host.reduce IntOp.andi x v reducesTo_S6_S_d0 h_S_) main_v56 main_c_21
  let main_v58 : IVec S_ 1 := andi main_v53 main_v57
  let main_v59 : FVec F S256x21 .f32 := Host.absf main_arg13
  let main_cst_22 : FVec F S_ .f32 := constant S_ .f32 0x7F800000#32
  let main_v60 : FVec F S256x21 .f32 := broadcastInDim S256x21 ![] bcast_S_S256x21 main_cst_22
  let main_v61 : IVec S256x21 1 := cmpf .olt main_v59 main_v60
  let main_c_23 : IVec S_ 1 := constantI S_ 1 1#1
  let main_v62 : IVec S_ 1 := (fun x v => Host.reduce IntOp.andi x v reducesTo_S256x21_S_d0_1 h_S_) main_v61 main_c_23
  let main_v63 : IVec S_ 1 := andi main_v58 main_v62
  let main_v64 : FVec F S21 .f32 := Host.absf main_arg14
  let main_cst_24 : FVec F S_ .f32 := constant S_ .f32 0x7F800000#32
  let main_v65 : FVec F S21 .f32 := broadcastInDim S21 ![] bcast_S_S21 main_cst_24
  let main_v66 : IVec S21 1 := cmpf .olt main_v64 main_v65
  let main_c_25 : IVec S_ 1 := constantI S_ 1 1#1
  let main_v67 : IVec S_ 1 := (fun x v => Host.reduce IntOp.andi x v reducesTo_S21_S_d0 h_S_) main_v66 main_c_25
  fn_part4 (F := F) main_v63 main_v67

def fn_part2 {F : FTy → Type} [FloatOps F] (main_arg8 : FVec F S3x256 .f32) (main_arg9 : FVec F S256x2 .f32) (main_arg10 : FVec F S2 .f32) (main_arg11 : FVec F S256x6 .f32) (main_arg12 : FVec F S6 .f32) (main_arg13 : FVec F S256x21 .f32) (main_arg14 : FVec F S21 .f32) (main_v33 : IVec S_ 1) : IVec S_ 1 :=
  let main_v34 : FVec F S3x256 .f32 := Host.absf main_arg8
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S256x2 .f32 := Host.absf main_arg9
  let main_cst_14 : FVec F S_ .f32 := constant S_ .f32 0x7F800000#32
  let main_v40 : FVec F S256x2 .f32 := broadcastInDim S256x2 ![] bcast_S_S256x2 main_cst_14
  let main_v41 : IVec S256x2 1 := cmpf .olt main_v39 main_v40
  let main_c_15 : IVec S_ 1 := constantI S_ 1 1#1
  let main_v42 : IVec S_ 1 := (fun x v => Host.reduce IntOp.andi x v reducesTo_S256x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S256x6 .f32 := Host.absf main_arg11
  let main_cst_18 : FVec F S_ .f32 := constant S_ .f32 0x7F800000#32
  let main_v50 : FVec F S256x6 .f32 := broadcastInDim S256x6 ![] bcast_S_S256x6 main_cst_18
  fn_part3 (F := F) main_arg12 main_arg13 main_arg14 main_v48 main_v49 main_v50

def fn_part1 {F : FTy → Type} [FloatOps F] (main_arg5 : FVec F S3x256x256 .f32) (main_arg6 : FVec F S3x256 .f32) (main_arg7 : FVec F S3x256x256 .f32) (main_arg8 : FVec F S3x256 .f32) (main_arg9 : FVec F S256x2 .f32) (main_arg10 : FVec F S2 .f32) (main_arg11 : FVec F S256x6 .f32) (main_arg12 : FVec F S6 .f32) (main_arg13 : FVec F S256x21 .f32) (main_arg14 : FVec F S21 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S3x256x256 .f32 := Host.absf main_arg5
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  let main_v24 : FVec F S3x256 .f32 := Host.absf main_arg6
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256x256 .f32 := Host.absf main_arg7
  let main_cst_10 : FVec F S_ .f32 := constant S_ .f32 0x7F800000#32
  let main_v30 : FVec F S3x256x256 .f32 := broadcastInDim S3x256x256 ![] bcast_S_S3x256x256 main_cst_10
  let main_v31 : IVec S3x256x256 1 := cmpf .olt main_v29 main_v30
  let main_c_11 : IVec S_ 1 := constantI S_ 1 1#1
  let main_v32 : IVec S_ 1 := (fun x v => Host.reduce IntOp.andi x v reducesTo_S3x256x256_S_d0_1_2 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S800000 .f32) (main_arg3 : FVec F S128x256 .f32) (main_arg4 : FVec F S256 .f32) (main_arg5 : FVec F S3x256x256 .f32) (main_arg6 : FVec F S3x256 .f32) (main_arg7 : FVec F S3x256x256 .f32) (main_arg8 : FVec F S3x256 .f32) (main_arg9 : FVec F S256x2 .f32) (main_arg10 : FVec F S2 .f32) (main_arg11 : FVec F S256x6 .f32) (main_arg12 : FVec F S6 .f32) (main_arg13 : FVec F S256x21 .f32) (main_arg14 : FVec F S21 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x2 : Shape := ⟨2, ![256, 2]⟩
abbrev S2 : Shape := ⟨1, ![2]⟩
abbrev S256x6 : Shape := ⟨2, ![256, 6]⟩
abbrev S6 : Shape := ⟨1, ![6]⟩
abbrev S256x21 : Shape := ⟨2, ![256, 21]⟩
abbrev S21 : Shape := ⟨1, ![21]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S1x800000 : Shape := ⟨2, ![1, 800000]⟩
abbrev S_ : Shape := ⟨0, ![]⟩
abbrev S800000x1 : Shape := ⟨2, ![800000, 1]⟩
abbrev S800000x256 : Shape := ⟨2, ![800000, 256]⟩
abbrev S256x128 : Shape := ⟨2, ![256, 128]⟩
abbrev S1 : Shape := ⟨1, ![1]⟩
abbrev S128 : Shape := ⟨1, ![128]⟩
abbrev S1x256x256 : Shape := ⟨3, ![1, 256, 256]⟩
abbrev S256x256 : Shape := ⟨2, ![256, 256]⟩
abbrev S1x128 : Shape := ⟨2, ![1, 128]⟩
abbrev S50000x2 : Shape := ⟨2, ![50000, 2]⟩
abbrev S50000x6 : Shape := ⟨2, ![50000, 6]⟩
abbrev S50000x21 : Shape := ⟨2, ![50000, 21]⟩

abbrev nBuf : Space → Nat
  | .hbm => 162
  | .vmem => 42
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x256, .f32⟩
  | 4 => ⟨S256, .f32⟩
  | 5 => ⟨S3x256x256, .f32⟩
  | 6 => ⟨S3x256, .f32⟩
  | 7 => ⟨S3x256x256, .f32⟩
  | 8 => ⟨S3x256, .f32⟩
  | 9 => ⟨S256x2, .f32⟩
  | 10 => ⟨S2, .f32⟩
  | 11 => ⟨S256x6, .f32⟩
  | 12 => ⟨S6, .f32⟩
  | 13 => ⟨S256x21, .f32⟩
  | 14 => ⟨S21, .f32⟩
  | 15 => ⟨S128x256, .bf16⟩
  | 16 => ⟨S1x256, .f32⟩
  | 17 => ⟨S50000x256, .bf16⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x256, .bf16⟩
  | 31 => ⟨S800000x256, .f32⟩
  | 32 => ⟨S800000x1, .f32⟩
  | 33 => ⟨S800000x256, .f32⟩
  | 34 => ⟨S800000x256, .f32⟩
  | 35 => ⟨S_, .f32⟩
  | 36 => ⟨S50000x256, .f32⟩
  | 37 => ⟨S800000x1, .i32⟩
  | 38 => ⟨S50000x256, .f32⟩
  | 39 => ⟨S_, .f32⟩
  | 40 => ⟨S256x128, .f32⟩
  | 41 => ⟨S_, .i32⟩
  | 42 => ⟨S1, .i32⟩
  | 43 => ⟨S256x128, .f32⟩
  | 44 => ⟨S_, .f32⟩
  | 45 => ⟨S128, .f32⟩
  | 46 => ⟨S_, .i32⟩
  | 47 => ⟨S1, .i32⟩
  | 48 => ⟨S128, .f32⟩
  | 49 => ⟨S1x256x256, .f32⟩
  | 50 => ⟨S256x256, .f32⟩
  | 51 => ⟨S1x256, .f32⟩
  | 52 => ⟨S256, .f32⟩
  | 53 => ⟨S1x256x256, .f32⟩
  | 54 => ⟨S256x256, .f32⟩
  | 55 => ⟨S1x256, .f32⟩
  | 56 => ⟨S256, .f32⟩
  | 57 => ⟨S256x256, .bf16⟩
  | 58 => ⟨S256x256, .bf16⟩
  | 59 => ⟨S256x128, .bf16⟩
  | 60 => ⟨S1x256, .f32⟩
  | 61 => ⟨S1x256, .f32⟩
  | 62 => ⟨S1x128, .f32⟩
  | 63 => ⟨S50000x256, .bf16⟩
  | 64 => ⟨S50000x128, .f32⟩
  | 65 => ⟨S50000x2, .f32⟩
  | 66 => ⟨S1x800000, .i32⟩
  | 67 => ⟨S800000, .i32⟩
  | 68 => ⟨S1x800000, .i32⟩
  | 69 => ⟨S800000, .i32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x256, .bf16⟩
  | 79 => ⟨S800000x256, .f32⟩
  | 80 => ⟨S800000x1, .f32⟩
  | 81 => ⟨S800000x256, .f32⟩
  | 82 => ⟨S800000x256, .f32⟩
  | 83 => ⟨S_, .f32⟩
  | 84 => ⟨S50000x256, .f32⟩
  | 85 => ⟨S800000x1, .i32⟩
  | 86 => ⟨S50000x256, .f32⟩
  | 87 => ⟨S_, .f32⟩
  | 88 => ⟨S256x128, .f32⟩
  | 89 => ⟨S_, .i32⟩
  | 90 => ⟨S1, .i32⟩
  | 91 => ⟨S256x128, .f32⟩
  | 92 => ⟨S_, .f32⟩
  | 93 => ⟨S128, .f32⟩
  | 94 => ⟨S_, .i32⟩
  | 95 => ⟨S1, .i32⟩
  | 96 => ⟨S128, .f32⟩
  | 97 => ⟨S1x256x256, .f32⟩
  | 98 => ⟨S256x256, .f32⟩
  | 99 => ⟨S1x256, .f32⟩
  | 100 => ⟨S256, .f32⟩
  | 101 => ⟨S1x256x256, .f32⟩
  | 102 => ⟨S256x256, .f32⟩
  | 103 => ⟨S1x256, .f32⟩
  | 104 => ⟨S256, .f32⟩
  | 105 => ⟨S256x256, .bf16⟩
  | 106 => ⟨S256x256, .bf16⟩
  | 107 => ⟨S256x128, .bf16⟩
  | 108 => ⟨S1x256, .f32⟩
  | 109 => ⟨S1x256, .f32⟩
  | 110 => ⟨S1x128, .f32⟩
  | 111 => ⟨S50000x256, .bf16⟩
  | 112 => ⟨S50000x128, .f32⟩
  | 113 => ⟨S50000x6, .f32⟩
  | 114 => ⟨S1x800000, .i32⟩
  | 115 => ⟨S800000, .i32⟩
  | 116 => ⟨S1x800000, .i32⟩
  | 117 => ⟨S800000, .i32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x256, .bf16⟩
  | 127 => ⟨S800000x256, .f32⟩
  | _ => ⟨S50000x128, .f32⟩

abbrev hbmTy0_1 (i : Nat) : BufTy := match i % 128 with
  | 0 => ⟨S800000x1, .f32⟩
  | 1 => ⟨S800000x256, .f32⟩
  | 2 => ⟨S800000x256, .f32⟩
  | 3 => ⟨S_, .f32⟩
  | 4 => ⟨S50000x256, .f32⟩
  | 5 => ⟨S800000x1, .i32⟩
  | 6 => ⟨S50000x256, .f32⟩
  | 7 => ⟨S_, .f32⟩
  | 8 => ⟨S256x128, .f32⟩
  | 9 => ⟨S_, .i32⟩
  | 10 => ⟨S1, .i32⟩
  | 11 => ⟨S256x128, .f32⟩
  | 12 => ⟨S_, .f32⟩
  | 13 => ⟨S128, .f32⟩
  | 14 => ⟨S_, .i32⟩
  | 15 => ⟨S1, .i32⟩
  | 16 => ⟨S128, .f32⟩
  | 17 => ⟨S1x256x256, .f32⟩
  | 18 => ⟨S256x256, .f32⟩
  | 19 => ⟨S1x256, .f32⟩
  | 20 => ⟨S256, .f32⟩
  | 21 => ⟨S1x256x256, .f32⟩
  | 22 => ⟨S256x256, .f32⟩
  | 23 => ⟨S1x256, .f32⟩
  | 24 => ⟨S256, .f32⟩
  | 25 => ⟨S256x256, .bf16⟩
  | 26 => ⟨S256x256, .bf16⟩
  | 27 => ⟨S256x128, .bf16⟩
  | 28 => ⟨S1x256, .f32⟩
  | 29 => ⟨S1x256, .f32⟩
  | 30 => ⟨S1x128, .f32⟩
  | 31 => ⟨S50000x256, .bf16⟩
  | 32 => ⟨S50000x128, .f32⟩
  | 33 => ⟨S50000x21, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .bf16⟩
  | .local _ .vmem, ⟨3, _⟩ => ⟨S1x256, .f32⟩
  | .local _ .vmem, ⟨4, _⟩ => ⟨S2000x256, .bf16⟩
  | .local _ .vmem, ⟨5, _⟩ => ⟨S2000x256, .bf16⟩
  | .local _ .vmem, ⟨6, _⟩ => ⟨S2000x256, .f32⟩
  | .local _ .vmem, ⟨7, _⟩ => ⟨S2000x256, .f32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x128, .bf16⟩
  | .local _ .vmem, ⟨13, _⟩ => ⟨S1x128, .f32⟩
  | .local _ .vmem, ⟨14, _⟩ => ⟨S2000x256, .bf16⟩
  | .local _ .vmem, ⟨15, _⟩ => ⟨S2000x256, .bf16⟩
  | .local _ .vmem, ⟨16, _⟩ => ⟨S2000x128, .f32⟩
  | .local _ .vmem, ⟨17, _⟩ => ⟨S2000x128, .f32⟩
  | .local _ .vmem, ⟨18, _⟩ => ⟨S2000x256, .f32⟩
  | .local _ .vmem, ⟨19, _⟩ => ⟨S2000x256, .f32⟩
  | .local _ .vmem, ⟨20, _⟩ => ⟨S256x256, .bf16⟩
  | .local _ .vmem, ⟨21, _⟩ => ⟨S1x256, .f32⟩
  | .local _ .vmem, ⟨22, _⟩ => ⟨S256x256, .bf16⟩
  | .local _ .vmem, ⟨23, _⟩ => ⟨S1x256, .f32⟩
  | .local _ .vmem, ⟨24, _⟩ => ⟨S256x128, .bf16⟩
  | .local _ .vmem, ⟨25, _⟩ => ⟨S1x128, .f32⟩
  | .local _ .vmem, ⟨26, _⟩ => ⟨S2000x256, .bf16⟩
  | .local _ .vmem, ⟨27, _⟩ => ⟨S2000x256, .bf16⟩
  | .local _ .vmem, ⟨28, _⟩ => ⟨S2000x128, .f32⟩
  | .local _ .vmem, ⟨29, _⟩ => ⟨S2000x128, .f32⟩
  | .local _ .vmem, ⟨30, _⟩ => ⟨S2000x256, .f32⟩
  | .local _ .vmem, ⟨31, _⟩ => ⟨S2000x256, .f32⟩
  | .local _ .vmem, ⟨32, _⟩ => ⟨S256x256, .bf16⟩
  | .local _ .vmem, ⟨33, _⟩ => ⟨S1x256, .f32⟩
  | .local _ .vmem, ⟨34, _⟩ => ⟨S256x256, .bf16⟩
  | .local _ .vmem, ⟨35, _⟩ => ⟨S1x256, .f32⟩
  | .local _ .vmem, ⟨36, _⟩ => ⟨S256x128, .bf16⟩
  | .local _ .vmem, ⟨37, _⟩ => ⟨S1x128, .f32⟩
  | .local _ .vmem, ⟨38, _⟩ => ⟨S2000x256, .bf16⟩
  | .local _ .vmem, ⟨39, _⟩ => ⟨S2000x256, .bf16⟩
  | .local _ .vmem, ⟨40, _⟩ => ⟨S2000x128, .f32⟩
  | .local _ .vmem, ⟨41, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_5 : Ref sig .tc := ⟨.hbm, 70, rfl⟩
abbrev main_v47 : Ref sig .tc := ⟨.hbm, 71, rfl⟩
abbrev main_v48 : Ref sig .tc := ⟨.hbm, 72, rfl⟩
abbrev main_c_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_7 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_c_9 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81_0 : Ref sig .tc := ⟨.hbm, 111, rfl⟩
abbrev main_v81_1 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_12 : Ref sig .tc := ⟨.hbm, 118, rfl⟩
abbrev main_v87 : Ref sig .tc := ⟨.hbm, 119, rfl⟩
abbrev main_v88 : Ref sig .tc := ⟨.hbm, 120, rfl⟩
abbrev main_c_13 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_14 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_15 : Ref sig .tc := ⟨.hbm, 135, rfl⟩
abbrev main_v101 : Ref sig .tc := ⟨.hbm, 136, rfl⟩
abbrev main_c_16 : Ref sig .tc := ⟨.hbm, 137, rfl⟩
abbrev main_v102 : Ref sig .tc := ⟨.hbm, 138, rfl⟩
abbrev main_v103 : Ref sig .tc := ⟨.hbm, 139, rfl⟩
abbrev main_cst_17 : Ref sig .tc := ⟨.hbm, 140, rfl⟩
abbrev main_v104 : Ref sig .tc := ⟨.hbm, 141, rfl⟩
abbrev main_c_18 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121_0 : Ref sig .tc := ⟨.hbm, 159, rfl⟩
abbrev main_v121_1 : Ref sig .tc := ⟨.hbm, 160, rfl⟩
abbrev main_v122 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc3_sem8_0 : DmaSem sig := 40
abbrev cc3_sem8_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S_S256x128 : S_.BroadcastsInDim S256x128 (![] : Fin 0 → Fin S256x128.rank)
  bcast_S_S1 : S_.BroadcastsInDim S1 (![] : Fin 0 → Fin S1.rank)
  bcast_S_S128 : S_.BroadcastsInDim S128 (![] : Fin 0 → Fin S128.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  shapeCasts_S128_S1x128 : S128.ShapeCasts S1x128
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S50000x128_S50000x2_0_0 : S50000x128.Slices ![0, 0] S50000x2
  slices_S3x256x256_S1x256x256_1_0_0 : S3x256x256.Slices ![1, 0, 0] S1x256x256
  slices_S3x256_S1x256_1_0 : S3x256.Slices ![1, 0] S1x256
  slices_S50000x128_S50000x6_0_0 : S50000x128.Slices ![0, 0] S50000x6
  slices_S3x256x256_S1x256x256_2_0_0 : S3x256x256.Slices ![2, 0, 0] S1x256x256
  slices_S3x256_S1x256_2_0 : S3x256.Slices ![2, 0] S1x256
  slices_S50000x128_S50000x21_0_0 : S50000x128.Slices ![0, 0] S50000x21
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S256x128_S1_S256x2_01_n_1_0_wf : ScatterDims.WF S256x128 S1 S256x2 [0, 1] [] [1] 0
  scatter_S128_S1_S2_0_n_0_0_wf : ScatterDims.WF S128 S1 S2 [0] [] [0] 0
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  scatter_S256x128_S1_S256x6_01_n_1_0_wf : ScatterDims.WF S256x128 S1 S256x6 [0, 1] [] [1] 0
  scatter_S128_S1_S6_0_n_0_0_wf : ScatterDims.WF S128 S1 S6 [0] [] [0] 0
  scatter_S256x128_S1_S256x21_01_n_1_0_wf : ScatterDims.WF S256x128 S1 S256x21 [0, 1] [] [1] 0
  scatter_S128_S1_S21_0_n_0_0_wf : ScatterDims.WF S128 S1 S21 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .bf16 = 32 ∨ (Rect.block (s := S50000x256) S2000x256.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .bf16 = 32 ∨ (Rect.block (s := S256x128) S256x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S50000x256.size a
  hwx2_7 : ∀ i : grid2.Coords, EltTy.bits .bf16 = 32 ∨ (Rect.block (s := S50000x256) S2000x256.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .bf16 = 32 ∨ (Rect.block (s := S256x256) S256x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .bf16 = 32 ∨ (Rect.block (s := S256x128) S256x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S50000x256.size a
  hwx3_7 : ∀ i : grid3.Coords, EltTy.bits .bf16 = 32 ∨ (Rect.block (s := S50000x256) S2000x256.size (cc3_transform_7 i) (hinb3_7 i)).WholeWords (EltTy.packing .bf16)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S256x128_S1_S256x2_01_n_1_0 : ScatterDims S256x128 S1 S256x2 where
  updateWindowDims := [0, 1]
  insertedWindowDims := []
  scatterDimsToOperandDims := [1]
  indexVectorDim := 0
  wf := scatter_S256x128_S1_S256x2_01_n_1_0_wf
def scatter_S128_S1_S2_0_n_0_0 : ScatterDims S128 S1 S2 where
  updateWindowDims := [0]
  insertedWindowDims := []
  scatterDimsToOperandDims := [0]
  indexVectorDim := 0
  wf := scatter_S128_S1_S2_0_n_0_0_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S256x128_S1_S256x6_01_n_1_0 : ScatterDims S256x128 S1 S256x6 where
  updateWindowDims := [0, 1]
  insertedWindowDims := []
  scatterDimsToOperandDims := [1]
  indexVectorDim := 0
  wf := scatter_S256x128_S1_S256x6_01_n_1_0_wf
def scatter_S128_S1_S6_0_n_0_0 : ScatterDims S128 S1 S6 where
  updateWindowDims := [0]
  insertedWindowDims := []
  scatterDimsToOperandDims := [0]
  indexVectorDim := 0
  wf := scatter_S128_S1_S6_0_n_0_0_wf
def scatter_S256x128_S1_S256x21_01_n_1_0 : ScatterDims S256x128 S1 S256x21 where
  updateWindowDims := [0, 1]
  insertedWindowDims := []
  scatterDimsToOperandDims := [1]
  indexVectorDim := 0
  wf := scatter_S256x128_S1_S256x21_01_n_1_0_wf
def scatter_S128_S1_S21_0_n_0_0 : ScatterDims S128 S1 S21 where
  updateWindowDims := [0]
  insertedWindowDims := []
  scatterDimsToOperandDims := [0]
  indexVectorDim := 0
  wf := scatter_S128_S1_S21_0_n_0_0_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41_0) S2000x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v41_1) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v60) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v81_0) S2000x256.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v81_1) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v100) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v115) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v118) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v116) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v119) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v117) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v120) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v121_0) S2000x256.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v121_1) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x2 : Shape := ⟨2, ![256, 2]⟩
abbrev S2 : Shape := ⟨1, ![2]⟩
abbrev S256x6 : Shape := ⟨2, ![256, 6]⟩
abbrev S6 : Shape := ⟨1, ![6]⟩
abbrev S256x21 : Shape := ⟨2, ![256, 21]⟩
abbrev S21 : Shape := ⟨1, ![21]⟩
abbrev S50000x256 : Shape := ⟨2, ![50000, 256]⟩
abbrev S1x256 : Shape := ⟨2, ![1, 256]⟩
abbrev S_ : Shape := ⟨0, ![]⟩
abbrev S1x800000 : Shape := ⟨2, ![1, 800000]⟩
abbrev S800000x1 : Shape := ⟨2, ![800000, 1]⟩
abbrev S800000x256 : Shape := ⟨2, ![800000, 256]⟩
abbrev S1x256x256 : Shape := ⟨3, ![1, 256, 256]⟩
abbrev S256x256 : Shape := ⟨2, ![256, 256]⟩
abbrev S50000x2 : Shape := ⟨2, ![50000, 2]⟩
abbrev S1x2 : Shape := ⟨2, ![1, 2]⟩
abbrev S50000x6 : Shape := ⟨2, ![50000, 6]⟩
abbrev S1x6 : Shape := ⟨2, ![1, 6]⟩
abbrev S50000x21 : Shape := ⟨2, ![50000, 21]⟩
abbrev S1x21 : Shape := ⟨2, ![1, 21]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x256, .f32⟩
  | 4 => ⟨S256, .f32⟩
  | 5 => ⟨S3x256x256, .f32⟩
  | 6 => ⟨S3x256, .f32⟩
  | 7 => ⟨S3x256x256, .f32⟩
  | 8 => ⟨S3x256, .f32⟩
  | 9 => ⟨S256x2, .f32⟩
  | 10 => ⟨S2, .f32⟩
  | 11 => ⟨S256x6, .f32⟩
  | 12 => ⟨S6, .f32⟩
  | 13 => ⟨S256x21, .f32⟩
  | 14 => ⟨S21, .f32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S50000x256, .f32⟩
  | 21 => ⟨S50000x256, .f32⟩
  | 22 => ⟨S1x800000, .i32⟩
  | 23 => ⟨S800000, .i32⟩
  | 24 => ⟨S1x800000, .i32⟩
  | 25 => ⟨S800000, .i32⟩
  | 26 => ⟨S800000x1, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x256, .f32⟩
  | 36 => ⟨S800000x256, .f32⟩
  | 37 => ⟨S800000x256, .f32⟩
  | 38 => ⟨S_, .f32⟩
  | 39 => ⟨S50000x256, .f32⟩
  | 40 => ⟨S800000x1, .i32⟩
  | 41 => ⟨S50000x256, .f32⟩
  | 42 => ⟨S1x256x256, .f32⟩
  | 43 => ⟨S256x256, .f32⟩
  | 44 => ⟨S50000x256, .f32⟩
  | 45 => ⟨S1x256, .f32⟩
  | 46 => ⟨S256, .f32⟩
  | 47 => ⟨S1x256, .f32⟩
  | 48 => ⟨S50000x256, .f32⟩
  | 49 => ⟨S50000x256, .f32⟩
  | 50 => ⟨S_, .f32⟩
  | 51 => ⟨S50000x256, .f32⟩
  | 52 => ⟨S50000x256, .f32⟩
  | 53 => ⟨S1x256x256, .f32⟩
  | 54 => ⟨S256x256, .f32⟩
  | 55 => ⟨S50000x256, .f32⟩
  | 56 => ⟨S1x256, .f32⟩
  | 57 => ⟨S256, .f32⟩
  | 58 => ⟨S1x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S50000x2, .f32⟩
  | 65 => ⟨S1x2, .f32⟩
  | 66 => ⟨S50000x2, .f32⟩
  | 67 => ⟨S50000x2, .f32⟩
  | 68 => ⟨S1x800000, .i32⟩
  | 69 => ⟨S800000, .i32⟩
  | 70 => ⟨S1x800000, .i32⟩
  | 71 => ⟨S800000, .i32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x256, .f32⟩
  | 82 => ⟨S800000x256, .f32⟩
  | 83 => ⟨S800000x256, .f32⟩
  | 84 => ⟨S_, .f32⟩
  | 85 => ⟨S50000x256, .f32⟩
  | 86 => ⟨S800000x1, .i32⟩
  | 87 => ⟨S50000x256, .f32⟩
  | 88 => ⟨S1x256x256, .f32⟩
  | 89 => ⟨S256x256, .f32⟩
  | 90 => ⟨S50000x256, .f32⟩
  | 91 => ⟨S1x256, .f32⟩
  | 92 => ⟨S256, .f32⟩
  | 93 => ⟨S1x256, .f32⟩
  | 94 => ⟨S50000x256, .f32⟩
  | 95 => ⟨S50000x256, .f32⟩
  | 96 => ⟨S_, .f32⟩
  | 97 => ⟨S50000x256, .f32⟩
  | 98 => ⟨S50000x256, .f32⟩
  | 99 => ⟨S1x256x256, .f32⟩
  | 100 => ⟨S256x256, .f32⟩
  | 101 => ⟨S50000x256, .f32⟩
  | 102 => ⟨S1x256, .f32⟩
  | 103 => ⟨S256, .f32⟩
  | 104 => ⟨S1x256, .f32⟩
  | 105 => ⟨S50000x256, .f32⟩
  | 106 => ⟨S50000x256, .f32⟩
  | 107 => ⟨S_, .f32⟩
  | 108 => ⟨S50000x256, .f32⟩
  | 109 => ⟨S50000x256, .f32⟩
  | 110 => ⟨S50000x6, .f32⟩
  | 111 => ⟨S1x6, .f32⟩
  | 112 => ⟨S50000x6, .f32⟩
  | 113 => ⟨S50000x6, .f32⟩
  | 114 => ⟨S1x800000, .i32⟩
  | 115 => ⟨S800000, .i32⟩
  | 116 => ⟨S1x800000, .i32⟩
  | 117 => ⟨S800000, .i32⟩
  | 118 => ⟨S800000x1, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x256, .f32⟩
  | _ => ⟨S50000x128, .f32⟩

abbrev hbmTy0_1 (i : Nat) : BufTy := match i % 128 with
  | 0 => ⟨S800000x256, .f32⟩
  | 1 => ⟨S800000x256, .f32⟩
  | 2 => ⟨S_, .f32⟩
  | 3 => ⟨S50000x256, .f32⟩
  | 4 => ⟨S800000x1, .i32⟩
  | 5 => ⟨S50000x256, .f32⟩
  | 6 => ⟨S1x256x256, .f32⟩
  | 7 => ⟨S256x256, .f32⟩
  | 8 => ⟨S50000x256, .f32⟩
  | 9 => ⟨S1x256, .f32⟩
  | 10 => ⟨S256, .f32⟩
  | 11 => ⟨S1x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S1x256x256, .f32⟩
  | 18 => ⟨S256x256, .f32⟩
  | 19 => ⟨S50000x256, .f32⟩
  | 20 => ⟨S1x256, .f32⟩
  | 21 => ⟨S256, .f32⟩
  | 22 => ⟨S1x256, .f32⟩
  | 23 => ⟨S50000x256, .f32⟩
  | 24 => ⟨S50000x256, .f32⟩
  | 25 => ⟨S_, .f32⟩
  | 26 => ⟨S50000x256, .f32⟩
  | 27 => ⟨S50000x256, .f32⟩
  | 28 => ⟨S50000x21, .f32⟩
  | 29 => ⟨S1x21, .f32⟩
  | 30 => ⟨S50000x21, .f32⟩
  | 31 => ⟨S50000x21, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_cst : Ref sig .tc := ⟨.hbm, 50, rfl⟩
abbrev main_call1_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call2_cst : Ref sig .tc := ⟨.hbm, 61, rfl⟩
abbrev main_call2_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_1 : Ref sig .tc := ⟨.hbm, 73, rfl⟩
abbrev main_v49 : Ref sig .tc := ⟨.hbm, 74, rfl⟩
abbrev main_v50 : Ref sig .tc := ⟨.hbm, 75, rfl⟩
abbrev main_c_2 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_3 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call3_cst : Ref sig .tc := ⟨.hbm, 96, rfl⟩
abbrev main_call3_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call4_cst : Ref sig .tc := ⟨.hbm, 107, rfl⟩
abbrev main_call4_v0 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_4 : Ref sig .tc := ⟨.hbm, 119, rfl⟩
abbrev main_v88 : Ref sig .tc := ⟨.hbm, 120, rfl⟩
abbrev main_v89 : Ref sig .tc := ⟨.hbm, 121, rfl⟩
abbrev main_c_5 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_6 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_call5_cst : Ref sig .tc := ⟨.hbm, 142, rfl⟩
abbrev main_call5_v0 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_call6_cst : Ref sig .tc := ⟨.hbm, 153, rfl⟩
abbrev main_call6_v0 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  slices_S3x256x256_S1x256x256_1_0_0 : S3x256x256.Slices ![1, 0, 0] S1x256x256
  slices_S3x256_S1x256_1_0 : S3x256.Slices ![1, 0] S1x256
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  slices_S3x256x256_S1x256x256_2_0_0 : S3x256x256.Slices ![2, 0, 0] S1x256x256
  slices_S3x256_S1x256_2_0 : S3x256.Slices ![2, 0] S1x256
  bcast_S21_S1x21_1 : S21.BroadcastsInDim S1x21 (![1] : Fin 1 → Fin S1x21.rank)
  bcast_S1x21_S50000x21_0_1 : S1x21.BroadcastsInDim S50000x21 (![0, 1] : Fin 2 → Fin S50000x21.rank)
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []
  dot_S50000x256_S256x6_S50000x6_1_0_0_1_n_n_wf : DotDims.WF S50000x256 S256x6 S50000x6 [1] [0] [0] [1] [] []
  dot_S50000x256_S256x21_S50000x21_1_0_0_1_n_n_wf : DotDims.WF S50000x256 S256x21 S50000x21 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf
def dot_S50000x256_S256x6_S50000x6_1_0_0_1_n_n : DotDims S50000x256 S256x6 S50000x6 where
  lhsContracting := [1]
  rhsContracting := [0]
  lhsNonContracting := [0]
  rhsNonContracting := [1]
  lhsBatch := []
  rhsBatch := []
  wf := dot_S50000x256_S256x6_S50000x6_1_0_0_1_n_n_wf
def dot_S50000x256_S256x21_S50000x21_1_0_0_1_n_n : DotDims S50000x256 S256x21 S50000x21 where
  lhsContracting := [1]
  rhsContracting := [0]
  lhsNonContracting := [0]
  rhsNonContracting := [1]
  lhsBatch := []
  rhsBatch := []
  wf := dot_S50000x256_S256x21_S50000x21_1_0_0_1_n_n_wf

class Facts : Prop extends Facts₀ where

variable [Facts]
-- ==== Proof.KRun.lean ====
/-
  The idealized kernel's run, with every buffer named.

  @main is four pipelined regions among five stretches of host operations.  Its frame certificate follows the
  buffer contents through that chain: `W0` is the launch memory, each host stretch maps the contents by its
  operations (`StableHlo.after`), each region replaces its windows' arrays by what the pipeline's write-backs
  leave and keeps every other buffer, and `W9` is what the last stretch leaves.  The launch theorem for such a
  chain of segments proves more than the frame claim uses: in every final state EVERY unscoped buffer of every
  TensorCore holds `W9` there.  This module states that stronger post; the three results are read off it later.
-/
import proofs.«124818_j45870250721840_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main from `m` terminates without a fault, and in its final state every
    unscoped buffer `b` of every TensorCore `c` holds `W9 m ρ c b`: the contents the chain of host stretches and
    regions leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Whole

end
-- ==== Proof.Spec.lean ====
/-
  The two dense stages of the network, as functions of arrays of extended reals, entry by entry.

  `affine x w b` is the matrix product of x : [M, K] with w : [K, N] plus the row b : [1, N] added to every row;
  `denseRelu x w b` is that, clamped below at zero (the rectifier).  Every stage of the graph network between two
  neighbourhood sums is one of these: the input layer and each layer's two hidden linears are `denseRelu`, each
  layer's head is `affine`.
-/
import Idealize.ShloMosaic.PureOps.Ideal
import Idealize.ShloMosaic.Lib.ValueIdx

noncomputable section

open scoped BigOperators

namespace Gcn

open Idealize.ShloMosaic Idealize.ShloMosaic.ValueIdx

/-- `x · w + b` at entry (p, q): the sum over k of x[p, k] · w[k, q], plus b[0, q]. -/
def affine {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (ix2 (i 0) k) * w (ix2 k (i 1))) + b (ix2 (0 : Fin 1) (i 1))

/-- `max (x · w + b) 0` at entry (p, q). -/
def denseRelu {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max (affine x w b i) 0

/-- A vector b : [N] as the row [1, N] that is added to every row of a product. -/
def row1 {N : Nat} (b : (⟨1, ![N]⟩ : Shape).Idx → EReal) : (⟨2, ![1, N]⟩ : Shape).Idx → EReal :=
  fun i => b (ix1 (i 1))

/-- Row `l` of a stack b : [L, N] of bias vectors, as the row [1, N]. -/
def row2 {L N : Nat} (b : (⟨2, ![L, N]⟩ : Shape).Idx → EReal) (l : Fin L) : (⟨2, ![1, N]⟩ : Shape).Idx → EReal :=
  fun i => b (ix2 l (i 1))

/-- Matrix `l` of a stack w : [L, K, N] of weight matrices. -/
def mat3 {L K N : Nat} (w : (⟨3, ![L, K, N]⟩ : Shape).Idx → EReal) (l : Fin L) : (⟨2, ![K, N]⟩ : Shape).Idx → EReal :=
  fun i => w (ix3 l (i 0) (i 1))

theorem affine_ix2 {M K N : Nat} (x : (⟨2, ![M, K]⟩ : Shape).Idx → EReal) (w : (⟨2, ![K, N]⟩ : Shape).Idx → EReal)
    (b : (⟨2, ![1, N]⟩ : Shape).Idx → EReal) (p : Fin M) (q : Fin N) :
    affine x w b (ix2 p q) = (∑ k : Fin K, x (ix2 p k) * w (ix2 k q)) + b (ix2 (0 : Fin 1) q) := rfl

theorem denseRelu_ix2 {M K N : Nat} (x : (⟨2, ![M, K]⟩ : Shape).Idx → EReal) (w : (⟨2, ![K, N]⟩ : Shape).Idx → EReal)
    (b : (⟨2, ![1, N]⟩ : Shape).Idx → EReal) (p : Fin M) (q : Fin N) :
    denseRelu x w b (ix2 p q) = max ((∑ k : Fin K, x (ix2 p k) * w (ix2 k q)) + b (ix2 (0 : Fin 1) q)) 0 := rfl

end Gcn

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.Pay.lean ====
/-
  What each kernel body stores, read at an entry, at the ideal instance.

  The input layer's body stores `max (x · w + b) 0` of its row tile x : [2000, 128], the weights w : [128, 256] and
  the bias row b : [1, 256]; the changes of float format around the product are the identity on extended reals, and
  the product into a zero accumulator is the plain sum over the shared axis.  A layer's body stores two things:
  `y = max (a · wg + bg) 0` of its tile a : [2000, 256], and the head `max (y · w1 + b1) 0 · w2 + b2` with
  w2 : [256, 128].
-/
import proofs.«124818_j45870250721840_2_alg».proof.Proof.Gen.KernelIdeal.Skeleton
import proofs.«124818_j45870250721840_2_alg».proof.Proof.Spec
import proofs.«124818_j45870250721840_2_alg».proof.Proof.LibMatDot
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The three matrix products' operand index maps -/

section dots

variable (i : S2000x256.Idx)

theorem dA_l0 (j : S2000x256.Idx) (c : dot_S2000x128_S128x256_S2000x256_1_0_0_1_n_n.contr.Idx) :
    (dot_S2000x128_S128x256_S2000x256_1_0_0_1_n_n.lhsIdx j c 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem dA_r1 (j : S2000x256.Idx) (c : dot_S2000x128_S128x256_S2000x256_1_0_0_1_n_n.contr.Idx) :
    (dot_S2000x128_S128x256_S2000x256_1_0_0_1_n_n.rhsIdx j c 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem dB_l0 (j : S2000x256.Idx) (c : dot_S2000x256_S256x256_S2000x256_1_0_0_1_n_n.contr.Idx) :
    (dot_S2000x256_S256x256_S2000x256_1_0_0_1_n_n.lhsIdx j c 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dB_r1 (j : S2000x256.Idx) (c : dot_S2000x256_S256x256_S2000x256_1_0_0_1_n_n.contr.Idx) :
    (dot_S2000x256_S256x256_S2000x256_1_0_0_1_n_n.rhsIdx j c 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem dC_l0 (j : S2000x128.Idx) (c : dot_S2000x256_S256x128_S2000x128_1_0_0_1_n_n.contr.Idx) :
    (dot_S2000x256_S256x128_S2000x128_1_0_0_1_n_n.lhsIdx j c 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dC_r1 (j : S2000x128.Idx) (c : dot_S2000x256_S256x128_S2000x128_1_0_0_1_n_n.contr.Idx) :
    (dot_S2000x256_S256x128_S2000x128_1_0_0_1_n_n.rhsIdx j c 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

end dots

/-- [2000, 128] · [128, 256] into zeros, at an entry. -/
theorem dotA (l : FVec Ideal S2000x128 .bf16) (r : FVec Ideal S128x256 .bf16) (p : Fin 2000) (q : Fin 256) :
    FloatOps.matmul dot_S2000x128_S128x256_S2000x256_1_0_0_1_n_n none l r (constant (F := Ideal) S2000x256 .f32 0x00000000#32) (ix2 p q)
      = ∑ k : Fin 128, l (ix2 p k) * r (ix2 k q) :=
  mat_dot_zero dot_S2000x128_S128x256_S2000x256_1_0_0_1_n_n none rfl rfl dA_l0
    (fun j c => dot_S2000x128_S128x256_S2000x256_1_0_0_1_n_n.lhsIdx_val_of_single rfl j c)
    (fun j c => dot_S2000x128_S128x256_S2000x256_1_0_0_1_n_n.rhsIdx_val_of_single rfl j c) dA_r1 l r p q

/-- [2000, 256] · [256, 256] into zeros, at an entry. -/
theorem dotB (l : FVec Ideal S2000x256 .bf16) (r : FVec Ideal S256x256 .bf16) (p : Fin 2000) (q : Fin 256) :
    FloatOps.matmul dot_S2000x256_S256x256_S2000x256_1_0_0_1_n_n none l r (constant (F := Ideal) S2000x256 .f32 0x00000000#32) (ix2 p q)
      = ∑ k : Fin 256, l (ix2 p k) * r (ix2 k q) :=
  mat_dot_zero dot_S2000x256_S256x256_S2000x256_1_0_0_1_n_n none rfl rfl dB_l0
    (fun j c => dot_S2000x256_S256x256_S2000x256_1_0_0_1_n_n.lhsIdx_val_of_single rfl j c)
    (fun j c => dot_S2000x256_S256x256_S2000x256_1_0_0_1_n_n.rhsIdx_val_of_single rfl j c) dB_r1 l r p q

/-- [2000, 256] · [256, 128] into zeros, at an entry. -/
theorem dotC (l : FVec Ideal S2000x256 .bf16) (r : FVec Ideal S256x128 .bf16) (p : Fin 2000) (q : Fin 128) :
    FloatOps.matmul dot_S2000x256_S256x128_S2000x128_1_0_0_1_n_n none l r (constant (F := Ideal) S2000x128 .f32 0x00000000#32) (ix2 p q)
      = ∑ k : Fin 256, l (ix2 p k) * r (ix2 k q) :=
  mat_dot_zero dot_S2000x256_S256x128_S2000x128_1_0_0_1_n_n none rfl rfl dC_l0
    (fun j c => dot_S2000x256_S256x128_S2000x128_1_0_0_1_n_n.lhsIdx_val_of_single rfl j c)
    (fun j c => dot_S2000x256_S256x128_S2000x128_1_0_0_1_n_n.rhsIdx_val_of_single rfl j c) dC_r1 l r p q

/-! ## The payloads -/

/-- The input layer's store, at entry (p, q) of the tile. -/
theorem pay0 (x0 : Vec Ideal S2000x128 .f32) (x1 : Vec Ideal S128x256 .bf16) (x2 : Vec Ideal S1x256 .f32) (p : Fin 2000) (q : Fin 256) :
    k0_pay1 (F := Ideal) x0 x1 x2 (ix2 p q) = Gcn.denseRelu x0 x1 x2 (ix2 p q) := by
  unfold k0_pay1
  rw [Gcn.denseRelu_ix2]
  show max (FloatOps.matmul dot_S2000x128_S128x256_S2000x256_1_0_0_1_n_n none (truncf .bf16 x0 bitsLt_bf16_f32) (shapeCast S128x256 x1 shapeCasts_S128x256_S128x256) (constant (F := Ideal) S2000x256 .f32 0x00000000#32) (ix2 p q)
      + broadcastTo S2000x256 (shapeCast S1x256 x2 shapeCasts_S1x256_S1x256) broadcasts_S1x256_S2000x256 (ix2 p q)) (Ideal.ofBits .f32 0x00000000#32) = _
  rw [dotA, shapeCast_self, shapeCast_self, broadcastTo_1b_ab_apply, Ideal.ofBits_zero_f32]
  rfl

end Cert.KernelIdeal.Pay

end
-- ==== Proof.Region0.lean ====
/-
  The input layer's region: its output array after the run, as one function of the arrays it finds.

  The region runs the body at 25 grid points.  Point t reads rows [2000 t, 2000 t + 2000) of the feature array
  x : [50000, 128], the whole weight matrix w : [128, 256] and the whole bias row b : [1, 256], and writes back rows
  [2000 t, 2000 t + 2000) of the output.  The body's store at entry (p, q) of the tile is `max (x·w + b) 0` at row
  2000 t + p and column q, which depends on row 2000 t + p of x only: so every block written back is the
  restriction of ONE array, `Gcn.denseRelu x w b`, and the 25 blocks cover all 50000 rows.
-/
import proofs.«124818_j45870250721840_2_alg».proof.Proof.Gen.KernelIdeal.Frame
import proofs.«124818_j45870250721840_2_alg».proof.Proof.Pay
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature tile and the output tile are block (t, 0); the weights and
    the bias row are block (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array the region leaves in its output window. -/
abbrev G (c : Dev nD) : S50000x256.Idx → EReal :=
  Gcn.denseRelu (V c (Pipeline.arrRef spec0 0) : S50000x128.Idx → EReal) (V c (Pipeline.arrRef spec0 1) : S128x256.Idx → EReal)
    (V c (Pipeline.arrRef spec0 2) : S1x256.Idx → EReal)

/-- What point `t` writes back is block `t` of `G`. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S128x256) hz, View.ld_unit_zero (S := S1x256) hz]
  obtain ⟨e00, e01, e10, e11, e20, e21, e30, e31⟩ := idx_facts t
  funext j
  obtain ⟨p, q, rfl⟩ : ∃ (p : Fin 2000) (q : Fin 256), j = ix2 p q := ⟨j 0, j 1, eq_ix2 j⟩
  refine (Pay.pay0 (iblk0 V c 0 t) (iblk0 V c 1 t) (iblk0 V c 2 t) p q).trans ?_
  show Gcn.denseRelu (iblk0 V c 0 t) (iblk0 V c 1 t) (iblk0 V c 2 t) (ix2 p q)
    = G V c (((cfg0.win 3).blk t).view.emb (ix2 p q))
  have hrow : ((((cfg0.win 3).blk t).view.emb (ix2 p q)) 0).val = t.val * 2000 + p.val := by
    show win0_3.index t (0 : Fin 2) * 2000 + 1 * p.val = _; omega
  have hcol : ((((cfg0.win 3).blk t).view.emb (ix2 p q)) 1).val = q.val := by
    show win0_3.index t (1 : Fin 2) * 256 + 1 * q.val = _; omega
  have h0 : ∀ k : Fin 128, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 2000 + 1 * p.val = _; rw [hrow]; omega
    | ⟨1, _⟩ => show win0_0.index t (1 : Fin 2) * 128 + 1 * k.val = k.val; omega
  have h1 : ∀ k : Fin 128, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 256 + 1 * q.val = _; rw [hcol]; omega
  have h2 : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 256 + 1 * q.val = _; rw [hcol]; omega
  unfold Gcn.denseRelu Gcn.affine
  refine congrArg (fun z => max z (0 : EReal)) (congrArg₂ (· + ·) (Finset.sum_congr rfl fun k _ => congrArg₂ (· * ·) ?_ ?_) ?_)
  · exact congrArg (V c (Pipeline.arrRef spec0 0)) (h0 k)
  · exact congrArg (V c (Pipeline.arrRef spec0 1)) (h1 k)
  · exact congrArg (V c (Pipeline.arrRef spec0 2)) h2

/-- An index of the array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v2).slice (win0_3.rect t)).set ↔ _
  rw [View.set_slice_whole, Rect.mem_set_unit]
  exact Iff.rfl

/-- Every row is in some point's block: row r is in block r / 2000. -/
theorem cover (i : S50000x256.Idx) : ∃ t : Fin cfg0.N, (cfg0.win 3).flush t = true ∧ i ∈ ((cfg0.win 3).blk t).view.set := by
  have hN : cfg0.N = 25 := N_0
  have hi0 : (i 0).val < 50000 := (i 0).isLt
  have hi1 : (i 1).val < 256 := (i 1).isLt
  refine ⟨⟨(i 0).val / 2000, by rw [hN]; omega⟩, flush0_3 _, ?_⟩
  rw [mem_blk]
  obtain ⟨-, -, -, -, -, -, e30, e31⟩ := idx_facts ⟨(i 0).val / 2000, by rw [hN]; omega⟩
  intro a
  match a with
  | ⟨0, _⟩ => show win0_3.index _ (0 : Fin 2) * 2000 ≤ (i 0).val ∧ (i 0).val < win0_3.index _ (0 : Fin 2) * 2000 + 2000; rw [e30]; dsimp only; omega
  | ⟨1, _⟩ => show win0_3.index _ (1 : Fin 2) * 256 ≤ (i 1).val ∧ (i 1).val < win0_3.index _ (1 : Fin 2) * 256 + 256; rw [e31]; omega

/-- THE ARRAY after the region: `relu (x·w + b)` of the arrays the region found. -/
theorem final (c : Dev nD) : (dat0 (F := Ideal) V c).arrAt 3 cfg0.N = G V c :=
  (dat0 (F := Ideal) V c).arrAt_eq_of_cover 3 (G V c) (fun t _ => flushed_eq V c t) cover

end Cert.KernelIdeal.Region0

end
-- ==== Proof.Fold0.lean ====
/-
  The input layer inside the run.

  Before the first region the host converts the weights W1 to the kernel's float format (the identity on extended
  reals) and reshapes the bias b1 : [256] to the row [1, 256].  So the region finds the features, W1 and the row of
  b1, and leaves `relu (features · W1 + b1)` in its output array.
-/
import proofs.«124818_j45870250721840_2_alg».proof.Proof.KRun
import proofs.«124818_j45870250721840_2_alg».proof.Proof.Region0
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Whole

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-- The fifteen argument arrays, as the launch memory holds them on core `c`. -/
abbrev a0 (c : Dev nD) : S50000x128.Idx → EReal := m ((c : Thread nD τ).loc main_arg0)
abbrev a1 (c : Dev nD) : S2x800000.Idx → BitVec 32 := m ((c : Thread nD τ).loc main_arg1)
abbrev a2 (c : Dev nD) : S800000.Idx → EReal := m ((c : Thread nD τ).loc main_arg2)
abbrev a3 (c : Dev nD) : S128x256.Idx → EReal := m ((c : Thread nD τ).loc main_arg3)
abbrev a4 (c : Dev nD) : S256.Idx → EReal := m ((c : Thread nD τ).loc main_arg4)
abbrev a5 (c : Dev nD) : S3x256x256.Idx → EReal := m ((c : Thread nD τ).loc main_arg5)
abbrev a6 (c : Dev nD) : S3x256.Idx → EReal := m ((c : Thread nD τ).loc main_arg6)
abbrev a7 (c : Dev nD) : S3x256x256.Idx → EReal := m ((c : Thread nD τ).loc main_arg7)
abbrev a8 (c : Dev nD) : S3x256.Idx → EReal := m ((c : Thread nD τ).loc main_arg8)
abbrev a9 (c : Dev nD) : S256x2.Idx → EReal := m ((c : Thread nD τ).loc main_arg9)
abbrev a10 (c : Dev nD) : S2.Idx → EReal := m ((c : Thread nD τ).loc main_arg10)
abbrev a11 (c : Dev nD) : S256x6.Idx → EReal := m ((c : Thread nD τ).loc main_arg11)
abbrev a12 (c : Dev nD) : S6.Idx → EReal := m ((c : Thread nD τ).loc main_arg12)
abbrev a13 (c : Dev nD) : S256x21.Idx → EReal := m ((c : Thread nD τ).loc main_arg13)
abbrev a14 (c : Dev nD) : S21.Idx → EReal := m ((c : Thread nD τ).loc main_arg14)

/-- A vector [N] reshaped to [1, N] is the row `Gcn.row1`. -/
theorem reshape_row {N : Nat} (v : (⟨1, ![N]⟩ : Shape).Idx → EReal) (h : (⟨1, ![N]⟩ : Shape).ShapeCasts ⟨2, ![1, N]⟩) :
    shapeCast ⟨2, ![1, N]⟩ v h = Gcn.row1 v := by
  funext i
  refine shapeCast_apply v h i (ix1 (i 1)) ?_
  have h0 : (i 0).val = 0 := by have := (i 0).isLt; simp only [Matrix.cons_val_zero] at this; omega
  simp only [Shape.rowMajor_val_one, Shape.rowMajor_val_two]
  show (i 1).val = (i 0).val * N + (i 1).val
  rw [h0]; omega

/-- Region 0 finds the features in its first window. -/
theorem V1_0 (c : Dev nD) : (V1 m ρ c (Pipeline.arrRef spec0 0) : S50000x128.Idx → EReal) = a0 m c := by
  show W1 m ρ c (Proc.devRef .tc main_arg0) = _
  dsimp only [W1, hostOps0]
  after_results

/-- Region 0 finds W1 in its second window. -/
theorem V1_1 (c : Dev nD) : (V1 m ρ c (Pipeline.arrRef spec0 1) : S128x256.Idx → EReal) = a3 m c := by
  show W1 m ρ c (Proc.devRef .tc main_v0) = _
  dsimp only [W1, hostOps0]
  after_results
  rfl

/-- Region 0 finds the row of b1 in its third window. -/
theorem V1_2 (c : Dev nD) : (V1 m ρ c (Pipeline.arrRef spec0 2) : S1x256.Idx → EReal) = Gcn.row1 (a4 m c) := by
  show W1 m ρ c (Proc.devRef .tc main_v1) = _
  dsimp only [W1, hostOps0]
  after_results
  exact reshape_row (a4 m c) shapeCasts_S256_S1x256

/-- What region 0 leaves: the first hidden array. -/
theorem H0_eq (c : Dev nD) :
    (W2 m ρ c (Proc.devRef .tc main_v2) : S50000x256.Idx → EReal) = Gcn.denseRelu (a0 m c) (a3 m c) (Gcn.row1 (a4 m c)) := by
  refine (W2_arr m ρ c 3).trans ((Region0.final (V1 m ρ) c).trans ?_)
  unfold Region0.G
  rw [V1_0, V1_1, V1_2]

end Cert.KernelIdeal.Whole

end
-- ==== Proof.Keep.lean ====
/-
  The argument arrays inside the run.

  No host operation and no region writes an argument array, so at every boundary of the chain of stretches and
  regions each argument array still holds what the launch memory held.  Stated here for the boundaries after
  regions 0, 1 and 2 and for the arguments the following stretch reads.
-/
import proofs.«124818_j45870250721840_2_alg».proof.Proof.Fold0
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Whole

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

theorem W2_arg1 (c : Dev nD) : W2 m ρ c (Proc.devRef .tc main_arg1) = a1 m c :=
  (W2_of_ne m ρ c main_arg1 (by decide)).trans (by dsimp only [W1, hostOps0]; after_results)

theorem W2_arg2 (c : Dev nD) : W2 m ρ c (Proc.devRef .tc main_arg2) = a2 m c :=
  (W2_of_ne m ρ c main_arg2 (by decide)).trans (by dsimp only [W1, hostOps0]; after_results)

theorem W2_arg5 (c : Dev nD) : W2 m ρ c (Proc.devRef .tc main_arg5) = a5 m c :=
  (W2_of_ne m ρ c main_arg5 (by decide)).trans (by dsimp only [W1, hostOps0]; after_results)

theorem W2_arg6 (c : Dev nD) : W2 m ρ c (Proc.devRef .tc main_arg6) = a6 m c :=
  (W2_of_ne m ρ c main_arg6 (by decide)).trans (by dsimp only [W1, hostOps0]; after_results)

theorem W2_arg7 (c : Dev nD) : W2 m ρ c (Proc.devRef .tc main_arg7) = a7 m c :=
  (W2_of_ne m ρ c main_arg7 (by decide)).trans (by dsimp only [W1, hostOps0]; after_results)

theorem W2_arg8 (c : Dev nD) : W2 m ρ c (Proc.devRef .tc main_arg8) = a8 m c :=
  (W2_of_ne m ρ c main_arg8 (by decide)).trans (by dsimp only [W1, hostOps0]; after_results)

theorem W2_arg9 (c : Dev nD) : W2 m ρ c (Proc.devRef .tc main_arg9) = a9 m c :=
  (W2_of_ne m ρ c main_arg9 (by decide)).trans (by dsimp only [W1, hostOps0]; after_results)

theorem W2_arg10 (c : Dev nD) : W2 m ρ c (Proc.devRef .tc main_arg10) = a10 m c :=
  (W2_of_ne m ρ c main_arg10 (by decide)).trans (by dsimp only [W1, hostOps0]; after_results)

theorem W2_arg11 (c : Dev nD) : W2 m ρ c (Proc.devRef .tc main_arg11) = a11 m c :=
  (W2_of_ne m ρ c main_arg11 (by decide)).trans (by dsimp only [W1, hostOps0]; after_results)

theorem W2_arg12 (c : Dev nD) : W2 m ρ c (Proc.devRef .tc main_arg12) = a12 m c :=
  (W2_of_ne m ρ c main_arg12 (by decide)).trans (by dsimp only [W1, hostOps0]; after_results)

theorem W2_arg13 (c : Dev nD) : W2 m ρ c (Proc.devRef .tc main_arg13) = a13 m c :=
  (W2_of_ne m ρ c main_arg13 (by decide)).trans (by dsimp only [W1, hostOps0]; after_results)

theorem W2_arg14 (c : Dev nD) : W2 m ρ c (Proc.devRef .tc main_arg14) = a14 m c :=
  (W2_of_ne m ρ c main_arg14 (by decide)).trans (by dsimp only [W1, hostOps0]; after_results)

theorem W4_arg1 (c : Dev nD) : W4 m ρ c (Proc.devRef .tc main_arg1) = a1 m c :=
  (W4_of_ne m ρ c main_arg1 (by decide)).trans
    ((by dsimp only [W3, hostOps1]; after_results : W3 m ρ c (Proc.devRef .tc main_arg1) = W2 m ρ c (Proc.devRef .tc main_arg1)).trans (W2_arg1 m ρ c))

theorem W4_arg2 (c : Dev nD) : W4 m ρ c (Proc.devRef .tc main_arg2) = a2 m c :=
  (W4_of_ne m ρ c main_arg2 (by decide)).trans
    ((by dsimp only [W3, hostOps1]; after_results : W3 m ρ c (Proc.devRef .tc main_arg2) = W2 m ρ c (Proc.devRef .tc main_arg2)).trans (W2_arg2 m ρ c))

theorem W4_arg5 (c : Dev nD) : W4 m ρ c (Proc.devRef .tc main_arg5) = a5 m c :=
  (W4_of_ne m ρ c main_arg5 (by decide)).trans
    ((by dsimp only [W3, hostOps1]; after_results : W3 m ρ c (Proc.devRef .tc main_arg5) = W2 m ρ c (Proc.devRef .tc main_arg5)).trans (W2_arg5 m ρ c))

theorem W4_arg6 (c : Dev nD) : W4 m ρ c (Proc.devRef .tc main_arg6) = a6 m c :=
  (W4_of_ne m ρ c main_arg6 (by decide)).trans
    ((by dsimp only [W3, hostOps1]; after_results : W3 m ρ c (Proc.devRef .tc main_arg6) = W2 m ρ c (Proc.devRef .tc main_arg6)).trans (W2_arg6 m ρ c))

theorem W4_arg7 (c : Dev nD) : W4 m ρ c (Proc.devRef .tc main_arg7) = a7 m c :=
  (W4_of_ne m ρ c main_arg7 (by decide)).trans
    ((by dsimp only [W3, hostOps1]; after_results : W3 m ρ c (Proc.devRef .tc main_arg7) = W2 m ρ c (Proc.devRef .tc main_arg7)).trans (W2_arg7 m ρ c))

theorem W4_arg8 (c : Dev nD) : W4 m ρ c (Proc.devRef .tc main_arg8) = a8 m c :=
  (W4_of_ne m ρ c main_arg8 (by decide)).trans
    ((by dsimp only [W3, hostOps1]; after_results : W3 m ρ c (Proc.devRef .tc main_arg8) = W2 m ρ c (Proc.devRef .tc main_arg8)).trans (W2_arg8 m ρ c))

theorem W4_arg11 (c : Dev nD) : W4 m ρ c (Proc.devRef .tc main_arg11) = a11 m c :=
  (W4_of_ne m ρ c main_arg11 (by decide)).trans
    ((by dsimp only [W3, hostOps1]; after_results : W3 m ρ c (Proc.devRef .tc main_arg11) = W2 m ρ c (Proc.devRef .tc main_arg11)).trans (W2_arg11 m ρ c))

theorem W4_arg12 (c : Dev nD) : W4 m ρ c (Proc.devRef .tc main_arg12) = a12 m c :=
  (W4_of_ne m ρ c main_arg12 (by decide)).trans
    ((by dsimp only [W3, hostOps1]; after_results : W3 m ρ c (Proc.devRef .tc main_arg12) = W2 m ρ c (Proc.devRef .tc main_arg12)).trans (W2_arg12 m ρ c))

theorem W4_arg13 (c : Dev nD) : W4 m ρ c (Proc.devRef .tc main_arg13) = a13 m c :=
  (W4_of_ne m ρ c main_arg13 (by decide)).trans
    ((by dsimp only [W3, hostOps1]; after_results : W3 m ρ c (Proc.devRef .tc main_arg13) = W2 m ρ c (Proc.devRef .tc main_arg13)).trans (W2_arg13 m ρ c))

theorem W4_arg14 (c : Dev nD) : W4 m ρ c (Proc.devRef .tc main_arg14) = a14 m c :=
  (W4_of_ne m ρ c main_arg14 (by decide)).trans
    ((by dsimp only [W3, hostOps1]; after_results : W3 m ρ c (Proc.devRef .tc main_arg14) = W2 m ρ c (Proc.devRef .tc main_arg14)).trans (W2_arg14 m ρ c))

theorem W6_arg1 (c : Dev nD) : W6 m ρ c (Proc.devRef .tc main_arg1) = a1 m c :=
  (W6_of_ne m ρ c main_arg1 (by decide)).trans
    ((by dsimp only [W5, hostOps2]; after_results : W5 m ρ c (Proc.devRef .tc main_arg1) = W4 m ρ c (Proc.devRef .tc main_arg1)).trans (W4_arg1 m ρ c))

theorem W6_arg2 (c : Dev nD) : W6 m ρ c (Proc.devRef .tc main_arg2) = a2 m c :=
  (W6_of_ne m ρ c main_arg2 (by decide)).trans
    ((by dsimp only [W5, hostOps2]; after_results : W5 m ρ c (Proc.devRef .tc main_arg2) = W4 m ρ c (Proc.devRef .tc main_arg2)).trans (W4_arg2 m ρ c))

theorem W6_arg5 (c : Dev nD) : W6 m ρ c (Proc.devRef .tc main_arg5) = a5 m c :=
  (W6_of_ne m ρ c main_arg5 (by decide)).trans
    ((by dsimp only [W5, hostOps2]; after_results : W5 m ρ c (Proc.devRef .tc main_arg5) = W4 m ρ c (Proc.devRef .tc main_arg5)).trans (W4_arg5 m ρ c))

theorem W6_arg6 (c : Dev nD) : W6 m ρ c (Proc.devRef .tc main_arg6) = a6 m c :=
  (W6_of_ne m ρ c main_arg6 (by decide)).trans
    ((by dsimp only [W5, hostOps2]; after_results : W5 m ρ c (Proc.devRef .tc main_arg6) = W4 m ρ c (Proc.devRef .tc main_arg6)).trans (W4_arg6 m ρ c))

theorem W6_arg7 (c : Dev nD) : W6 m ρ c (Proc.devRef .tc main_arg7) = a7 m c :=
  (W6_of_ne m ρ c main_arg7 (by decide)).trans
    ((by dsimp only [W5, hostOps2]; after_results : W5 m ρ c (Proc.devRef .tc main_arg7) = W4 m ρ c (Proc.devRef .tc main_arg7)).trans (W4_arg7 m ρ c))

theorem W6_arg8 (c : Dev nD) : W6 m ρ c (Proc.devRef .tc main_arg8) = a8 m c :=
  (W6_of_ne m ρ c main_arg8 (by decide)).trans
    ((by dsimp only [W5, hostOps2]; after_results : W5 m ρ c (Proc.devRef .tc main_arg8) = W4 m ρ c (Proc.devRef .tc main_arg8)).trans (W4_arg8 m ρ c))

theorem W6_arg13 (c : Dev nD) : W6 m ρ c (Proc.devRef .tc main_arg13) = a13 m c :=
  (W6_of_ne m ρ c main_arg13 (by decide)).trans
    ((by dsimp only [W5, hostOps2]; after_results : W5 m ρ c (Proc.devRef .tc main_arg13) = W4 m ρ c (Proc.devRef .tc main_arg13)).trans (W4_arg13 m ρ c))

theorem W6_arg14 (c : Dev nD) : W6 m ρ c (Proc.devRef .tc main_arg14) = a14 m c :=
  (W6_of_ne m ρ c main_arg14 (by decide)).trans
    ((by dsimp only [W5, hostOps2]; after_results : W5 m ρ c (Proc.devRef .tc main_arg14) = W4 m ρ c (Proc.devRef .tc main_arg14)).trans (W4_arg14 m ρ c))

end Cert.KernelIdeal.Whole

end
-- ==== Proof.PayLayer.lean ====
/-
  What a layer's body stores, read at an entry, at the ideal instance.

  From its tile a : [2000, 256] of neighbourhood sums the body forms `y = max (a · wg + bg) 0` and stores it; then
  `h = max (y · w1 + b1) 0` and stores `h · w2 + b2` with w2 : [256, 128], b2 : [1, 128].  The three layers' bodies
  are the same text, so the three statements differ only in the payload's name.
-/
import proofs.«124818_j45870250721840_2_alg».proof.Proof.Pay

noncomputable section

open scoped BigOperators

namespace Cert.KernelIdeal.Pay

open Cert.KernelIdeal Cert.KernelIdeal.Gen Idealize.ShloMosaic Idealize.ShloMosaic.ValueIdx

/-- A hidden linear with its rectifier, as the body spells it, at an entry. -/
theorem hidden (y : FVec Ideal S2000x256 .bf16) (w : FVec Ideal S256x256 .bf16) (b : FVec Ideal S1x256 .f32) (p : Fin 2000) (q : Fin 256) :
    max (FloatOps.matmul dot_S2000x256_S256x256_S2000x256_1_0_0_1_n_n none y (shapeCast S256x256 w shapeCasts_S256x256_S256x256) (constant (F := Ideal) S2000x256 .f32 0x00000000#32) (ix2 p q)
      + broadcastTo S2000x256 (shapeCast S1x256 b shapeCasts_S1x256_S1x256) broadcasts_S1x256_S2000x256 (ix2 p q)) (Ideal.ofBits .f32 0x00000000#32)
    = Gcn.denseRelu y w b (ix2 p q) := by
  rw [Gcn.denseRelu_ix2, dotB, shapeCast_self, shapeCast_self, broadcastTo_1b_ab_apply, Ideal.ofBits_zero_f32]

/-- The same, as a whole tile. -/
theorem hidden_fun (y : FVec Ideal S2000x256 .bf16) (w : FVec Ideal S256x256 .bf16) (b : FVec Ideal S1x256 .f32) :
    (fun i => max (FloatOps.matmul dot_S2000x256_S256x256_S2000x256_1_0_0_1_n_n none y (shapeCast S256x256 w shapeCasts_S256x256_S256x256) (constant (F := Ideal) S2000x256 .f32 0x00000000#32) i
      + broadcastTo S2000x256 (shapeCast S1x256 b shapeCasts_S1x256_S1x256) broadcasts_S1x256_S2000x256 i) (Ideal.ofBits .f32 0x00000000#32))
    = Gcn.denseRelu y w b := by
  funext j
  obtain ⟨p, q, rfl⟩ : ∃ (p : Fin 2000) (q : Fin 256), j = ix2 p q := ⟨j 0, j 1, eq_ix2 j⟩
  exact hidden y w b p q

/-- The head's linear, as the body spells it, at an entry. -/
theorem head (h : FVec Ideal S2000x256 .bf16) (w : FVec Ideal S256x128 .bf16) (b : FVec Ideal S1x128 .f32) (p : Fin 2000) (q : Fin 128) :
    FloatOps.matmul dot_S2000x256_S256x128_S2000x128_1_0_0_1_n_n none h (shapeCast S256x128 w shapeCasts_S256x128_S256x128) (constant (F := Ideal) S2000x128 .f32 0x00000000#32) (ix2 p q)
      + broadcastTo S2000x128 (shapeCast S1x128 b shapeCasts_S1x128_S1x128) broadcasts_S1x128_S2000x128 (ix2 p q)
    = Gcn.affine h w b (ix2 p q) := by
  rw [Gcn.affine_ix2, dotC, shapeCast_self, shapeCast_self, broadcastTo_1b_ab_apply]

/-- Layer 1's first store, at entry (p, q) of the tile. -/
theorem pay1_1 (x0 : Vec Ideal S2000x256 .f32) (x3 : Vec Ideal S256x256 .bf16) (x6 : Vec Ideal S1x256 .f32) (p : Fin 2000) (q : Fin 256) :
    k1_pay1 (F := Ideal) x0 x3 x6 (ix2 p q) = Gcn.denseRelu x0 x3 x6 (ix2 p q) := by
  unfold k1_pay1
  rw [shapeCast_self x0]
  exact hidden x0 x3 x6 p q

/-- The same, as a whole tile. -/
theorem pay1_1_fun (x0 : Vec Ideal S2000x256 .f32) (x3 : Vec Ideal S256x256 .bf16) (x6 : Vec Ideal S1x256 .f32) :
    k1_pay1 (F := Ideal) x0 x3 x6 = Gcn.denseRelu x0 x3 x6 := by
  funext j
  obtain ⟨p, q, rfl⟩ : ∃ (p : Fin 2000) (q : Fin 256), j = ix2 p q := ⟨j 0, j 1, eq_ix2 j⟩
  exact pay1_1 x0 x3 x6 p q

/-- Layer 1's second store, at entry (p, q) of the tile: the head through the two hidden stages. -/
theorem pay1_2 (x0 : Vec Ideal S2000x256 .f32) (x3 : Vec Ideal S256x256 .bf16) (x6 : Vec Ideal S1x256 .f32)
    (x14 : Vec Ideal S256x256 .bf16) (x17 : Vec Ideal S1x256 .f32) (x24 : Vec Ideal S256x128 .bf16) (x27 : Vec Ideal S1x128 .f32)
    (p : Fin 2000) (q : Fin 128) :
    k1_pay2 (F := Ideal) x0 x3 x6 x14 x17 x24 x27 (ix2 p q)
      = Gcn.affine (Gcn.denseRelu (Gcn.denseRelu x0 x3 x6) x14 x17) x24 x27 (ix2 p q) := by
  unfold k1_pay2
  refine (head _ x24 x27 p q).trans ?_
  show Gcn.affine (fun i => max (FloatOps.matmul dot_S2000x256_S256x256_S2000x256_1_0_0_1_n_n none (k1_pay1 (F := Ideal) x0 x3 x6) (shapeCast S256x256 x14 shapeCasts_S256x256_S256x256) (constant (F := Ideal) S2000x256 .f32 0x00000000#32) i
      + broadcastTo S2000x256 (shapeCast S1x256 x17 shapeCasts_S1x256_S1x256) broadcasts_S1x256_S2000x256 i) (Ideal.ofBits .f32 0x00000000#32)) x24 x27 (ix2 p q) = _
  rw [hidden_fun (k1_pay1 (F := Ideal) x0 x3 x6) x14 x17, pay1_1_fun]

/-- Layers 2 and 3 store what layer 1 stores: their bodies are the same operations, so the two statements above
    hold of their payloads as they stand. -/
theorem pay2_1 (x0 : Vec Ideal S2000x256 .f32) (x3 : Vec Ideal S256x256 .bf16) (x6 : Vec Ideal S1x256 .f32) (p : Fin 2000) (q : Fin 256) :
    k2_pay1 (F := Ideal) x0 x3 x6 (ix2 p q) = Gcn.denseRelu x0 x3 x6 (ix2 p q) := pay1_1 x0 x3 x6 p q
theorem pay2_2 (x0 : Vec Ideal S2000x256 .f32) (x3 : Vec Ideal S256x256 .bf16) (x6 : Vec Ideal S1x256 .f32)
    (x14 : Vec Ideal S256x256 .bf16) (x17 : Vec Ideal S1x256 .f32) (x24 : Vec Ideal S256x128 .bf16) (x27 : Vec Ideal S1x128 .f32)
    (p : Fin 2000) (q : Fin 128) :
    k2_pay2 (F := Ideal) x0 x3 x6 x14 x17 x24 x27 (ix2 p q)
      = Gcn.affine (Gcn.denseRelu (Gcn.denseRelu x0 x3 x6) x14 x17) x24 x27 (ix2 p q) := pay1_2 x0 x3 x6 x14 x17 x24 x27 p q
theorem pay3_1 (x0 : Vec Ideal S2000x256 .f32) (x3 : Vec Ideal S256x256 .bf16) (x6 : Vec Ideal S1x256 .f32) (p : Fin 2000) (q : Fin 256) :
    k3_pay1 (F := Ideal) x0 x3 x6 (ix2 p q) = Gcn.denseRelu x0 x3 x6 (ix2 p q) := pay1_1 x0 x3 x6 p q
theorem pay3_2 (x0 : Vec Ideal S2000x256 .f32) (x3 : Vec Ideal S256x256 .bf16) (x6 : Vec Ideal S1x256 .f32)
    (x14 : Vec Ideal S256x256 .bf16) (x17 : Vec Ideal S1x256 .f32) (x24 : Vec Ideal S256x128 .bf16) (x27 : Vec Ideal S1x128 .f32)
    (p : Fin 2000) (q : Fin 128) :
    k3_pay2 (F := Ideal) x0 x3 x6 x14 x17 x24 x27 (ix2 p q)
      = Gcn.affine (Gcn.denseRelu (Gcn.denseRelu x0 x3 x6) x14 x17) x24 x27 (ix2 p q) := pay1_2 x0 x3 x6 x14 x17 x24 x27 p q

end Cert.KernelIdeal.Pay

end
-- ==== Proof.SpecCongr.lean ====
/-
  A dense stage's entry (p, q) depends on row p of its input only.

  So if row p of x and row p' of x' agree, `x·w + b` at (p, q) and `x'·w + b` at (p', q) agree, and likewise with
  the rectifier: this is what lets a row tile of an array stand for the array's rows.
-/
import proofs.«124818_j45870250721840_2_alg».proof.Proof.Spec

noncomputable section

open scoped BigOperators

namespace Gcn

open Idealize.ShloMosaic Idealize.ShloMosaic.ValueIdx

theorem affine_congr_row {M M' K N : Nat} (x : (⟨2, ![M, K]⟩ : Shape).Idx → EReal) (x' : (⟨2, ![M', K]⟩ : Shape).Idx → EReal)
    (w : (⟨2, ![K, N]⟩ : Shape).Idx → EReal) (b : (⟨2, ![1, N]⟩ : Shape).Idx → EReal) (p : Fin M) (p' : Fin M') (q : Fin N)
    (h : ∀ k : Fin K, x (ix2 p k) = x' (ix2 p' k)) : affine x w b (ix2 p q) = affine x' w b (ix2 p' q) := by
  rw [affine_ix2, affine_ix2]
  exact congrArg (· + b (ix2 (0 : Fin 1) q)) (Finset.sum_congr rfl fun k _ => by rw [h k])

theorem denseRelu_congr_row {M M' K N : Nat} (x : (⟨2, ![M, K]⟩ : Shape).Idx → EReal) (x' : (⟨2, ![M', K]⟩ : Shape).Idx → EReal)
    (w : (⟨2, ![K, N]⟩ : Shape).Idx → EReal) (b : (⟨2, ![1, N]⟩ : Shape).Idx → EReal) (p : Fin M) (p' : Fin M') (q : Fin N)
    (h : ∀ k : Fin K, x (ix2 p k) = x' (ix2 p' k)) : denseRelu x w b (ix2 p q) = denseRelu x' w b (ix2 p' q) :=
  congrArg (fun z => max z (0 : EReal)) (affine_congr_row x x' w b p p' q h)

end Gcn

end
-- ==== Proof.Region1.lean ====
/-
  Layer 1's region: its two output arrays after the run, as functions of the arrays it finds.

  The region runs the body at 25 grid points.  Point t reads rows [2000 t, 2000 t + 2000) of the neighbourhood sums
  a : [50000, 256] and the whole of the six weight and bias arrays, and writes back rows [2000 t, 2000 t + 2000) of
  both outputs.  Each stored entry depends on one row of a only, so the blocks written back are restrictions of
  two whole arrays: `y = relu (a·wg + bg)` and `relu (y·w1 + b1)·w2 + b2`; the 25 blocks cover all 50000 rows.
-/
import proofs.«124818_j45870250721840_2_alg».proof.Proof.Gen.KernelIdeal.Frame
import proofs.«124818_j45870250721840_2_alg».proof.Proof.PayLayer
import proofs.«124818_j45870250721840_2_alg».proof.Proof.SpecCongr
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the tile of sums and both output tiles are block (t, 0); the six weight
    and bias arrays are block (0, 0) at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The hidden array the region leaves in its first output window. -/
abbrev Y (c : Dev nD) : S50000x256.Idx → EReal :=
  Gcn.denseRelu (V c (Pipeline.arrRef spec1 0) : S50000x256.Idx → EReal) (V c (Pipeline.arrRef spec1 1) : S256x256.Idx → EReal)
    (V c (Pipeline.arrRef spec1 2) : S1x256.Idx → EReal)

/-- The head array the region leaves in its second output window. -/
abbrev Hd (c : Dev nD) : S50000x128.Idx → EReal :=
  Gcn.affine (Gcn.denseRelu (Y V c) (V c (Pipeline.arrRef spec1 3) : S256x256.Idx → EReal) (V c (Pipeline.arrRef spec1 4) : S1x256.Idx → EReal))
    (V c (Pipeline.arrRef spec1 5) : S256x128.Idx → EReal) (V c (Pipeline.arrRef spec1 6) : S1x128.Idx → EReal)

section point

variable (c : Dev nD) (t : Fin cfg1.N)

/-- The tile of sums at point t, row p, is row 2000 t + p of the array. -/
theorem blk0 (p : Fin 2000) (k : Fin 256) (r : Fin 50000) (hr : r.val = t.val * 2000 + p.val) :
    ((cfg1.win 0).blk t).view.emb (ix2 p k) = (ix2 r k : S50000x256.Idx) := by
  obtain ⟨e00, e01, -⟩ := idx_facts t
  funext a; apply Fin.ext
  match a with
  | ⟨0, _⟩ => show win1_0.index t (0 : Fin 2) * 2000 + 1 * p.val = r.val; omega
  | ⟨1, _⟩ => show win1_0.index t (1 : Fin 2) * 256 + 1 * k.val = k.val; omega

theorem blk1 (i : S256x256.Idx) : ((cfg1.win 1).blk t).view.emb i = i := by
  obtain ⟨-, -, e10, e11, -⟩ := idx_facts t
  funext a; apply Fin.ext
  match a with
  | ⟨0, _⟩ => show win1_1.index t (0 : Fin 2) * 256 + 1 * (i 0).val = (i 0).val; omega
  | ⟨1, _⟩ => show win1_1.index t (1 : Fin 2) * 256 + 1 * (i 1).val = (i 1).val; omega

theorem blk2 (i : S1x256.Idx) : ((cfg1.win 2).blk t).view.emb i = i := by
  obtain ⟨-, -, -, -, e20, e21, -⟩ := idx_facts t
  funext a; apply Fin.ext
  match a with
  | ⟨0, _⟩ => show win1_2.index t (0 : Fin 2) * 1 + 1 * (i 0).val = (i 0).val; omega
  | ⟨1, _⟩ => show win1_2.index t (1 : Fin 2) * 256 + 1 * (i 1).val = (i 1).val; omega

theorem blk3 (i : S256x256.Idx) : ((cfg1.win 3).blk t).view.emb i = i := by
  obtain ⟨-, -, -, -, -, -, e30, e31, -⟩ := idx_facts t
  funext a; apply Fin.ext
  match a with
  | ⟨0, _⟩ => show win1_3.index t (0 : Fin 2) * 256 + 1 * (i 0).val = (i 0).val; omega
  | ⟨1, _⟩ => show win1_3.index t (1 : Fin 2) * 256 + 1 * (i 1).val = (i 1).val; omega

theorem blk4 (i : S1x256.Idx) : ((cfg1.win 4).blk t).view.emb i = i := by
  obtain ⟨-, -, -, -, -, -, -, -, e40, e41, -⟩ := idx_facts t
  funext a; apply Fin.ext
  match a with
  | ⟨0, _⟩ => show win1_4.index t (0 : Fin 2) * 1 + 1 * (i 0).val = (i 0).val; omega
  | ⟨1, _⟩ => show win1_4.index t (1 : Fin 2) * 256 + 1 * (i 1).val = (i 1).val; omega

theorem blk5 (i : S256x128.Idx) : ((cfg1.win 5).blk t).view.emb i = i := by
  obtain ⟨-, -, -, -, -, -, -, -, -, -, e50, e51, -⟩ := idx_facts t
  funext a; apply Fin.ext
  match a with
  | ⟨0, _⟩ => show win1_5.index t (0 : Fin 2) * 256 + 1 * (i 0).val = (i 0).val; omega
  | ⟨1, _⟩ => show win1_5.index t (1 : Fin 2) * 128 + 1 * (i 1).val = (i 1).val; omega

theorem blk6 (i : S1x128.Idx) : ((cfg1.win 6).blk t).view.emb i = i := by
  obtain ⟨-, -, -, -, -, -, -, -, -, -, -, -, e60, e61, -⟩ := idx_facts t
  funext a; apply Fin.ext
  match a with
  | ⟨0, _⟩ => show win1_6.index t (0 : Fin 2) * 1 + 1 * (i 0).val = (i 0).val; omega
  | ⟨1, _⟩ => show win1_6.index t (1 : Fin 2) * 128 + 1 * (i 1).val = (i 1).val; omega

/-- The blocks of the six weight and bias arrays are the arrays themselves. -/
theorem iblk_w1 : iblk1 V c 1 t = (V c (Pipeline.arrRef spec1 1) : S256x256.Idx → EReal) :=
  funext fun i => congrArg (V c (Pipeline.arrRef spec1 1)) (blk1 t i)
theorem iblk_w2 : iblk1 V c 2 t = (V c (Pipeline.arrRef spec1 2) : S1x256.Idx → EReal) :=
  funext fun i => congrArg (V c (Pipeline.arrRef spec1 2)) (blk2 t i)
theorem iblk_w3 : iblk1 V c 3 t = (V c (Pipeline.arrRef spec1 3) : S256x256.Idx → EReal) :=
  funext fun i => congrArg (V c (Pipeline.arrRef spec1 3)) (blk3 t i)
theorem iblk_w4 : iblk1 V c 4 t = (V c (Pipeline.arrRef spec1 4) : S1x256.Idx → EReal) :=
  funext fun i => congrArg (V c (Pipeline.arrRef spec1 4)) (blk4 t i)
theorem iblk_w5 : iblk1 V c 5 t = (V c (Pipeline.arrRef spec1 5) : S256x128.Idx → EReal) :=
  funext fun i => congrArg (V c (Pipeline.arrRef spec1 5)) (blk5 t i)
theorem iblk_w6 : iblk1 V c 6 t = (V c (Pipeline.arrRef spec1 6) : S1x128.Idx → EReal) :=
  funext fun i => congrArg (V c (Pipeline.arrRef spec1 6)) (blk6 t i)

/-- The hidden tile at point t, row p, is row 2000 t + p of the hidden array. -/
theorem y_tile (p : Fin 2000) (q : Fin 256) (r : Fin 50000) (hr : r.val = t.val * 2000 + p.val) :
    Gcn.denseRelu (iblk1 V c 0 t) (V c (Pipeline.arrRef spec1 1) : S256x256.Idx → EReal) (V c (Pipeline.arrRef spec1 2) : S1x256.Idx → EReal) (ix2 p q)
      = Y V c (ix2 r q) := by
  exact Gcn.denseRelu_congr_row _ _ _ _ p r q (fun k => congrArg (V c (Pipeline.arrRef spec1 0)) (blk0 t p k r hr))

end point

set_option maxHeartbeats 1000000 in
/-- What point `t` writes back through the first output window is block `t` of `Y`. -/
theorem flushed7_eq (c : Dev nD) (t : Fin cfg1.N) :
    (dat1 (F := Ideal) V c).flushed 7 t = ((cfg1.win 7).blk t).view.read (Elt Ideal) (Y V c) := by
  show (cfg1.win 7).cut (grid1.coords t) ((dat1 (F := Ideal) V c).after 7 t) = _
  rw [after1_7]
  unfold out1_7
  rw [View.canon_unit_zero hz]
  simp only [View.ld_unit_zero (S := S2000x256) hz, View.ld_unit_zero (S := S256x256) hz, View.ld_unit_zero (S := S1x256) hz]
  obtain ⟨-, -, -, -, -, -, -, -, -, -, -, -, -, -, e70, e71, -⟩ := idx_facts t
  funext j
  obtain ⟨p, q, rfl⟩ : ∃ (p : Fin 2000) (q : Fin 256), j = ix2 p q := ⟨j 0, j 1, eq_ix2 j⟩
  have hlt : t.val * 2000 + p.val < 50000 := by have := t.isLt; have hN : cfg1.N = 25 := N_1; have := p.isLt; omega
  have he : ((cfg1.win 7).blk t).view.emb (ix2 p q) = (ix2 (⟨t.val * 2000 + p.val, hlt⟩ : Fin 50000) q : S50000x256.Idx) := by
    funext a; apply Fin.ext
    match a with
    | ⟨0, _⟩ => show win1_7.index t (0 : Fin 2) * 2000 + 1 * p.val = t.val * 2000 + p.val; omega
    | ⟨1, _⟩ => show win1_7.index t (1 : Fin 2) * 256 + 1 * q.val = q.val; omega
  refine (Pay.pay1_1 (iblk1 V c 0 t) (iblk1 V c 1 t) (iblk1 V c 2 t) p q).trans ?_
  rw [iblk_w1 V c t, iblk_w2 V c t]
  show _ = Y V c (((cfg1.win 7).blk t).view.emb (ix2 p q))
  rw [he]
  exact y_tile V c t p q _ rfl

set_option maxHeartbeats 1000000 in
/-- What point `t` writes back through the second output window is block `t` of `Hd`. -/
theorem flushed8_eq (c : Dev nD) (t : Fin cfg1.N) :
    (dat1 (F := Ideal) V c).flushed 8 t = ((cfg1.win 8).blk t).view.read (Elt Ideal) (Hd V c) := by
  show (cfg1.win 8).cut (grid1.coords t) ((dat1 (F := Ideal) V c).after 8 t) = _
  rw [after1_8]
  unfold out1_8
  rw [View.canon_unit_zero hz]
  simp only [View.ld_unit_zero (S := S2000x256) hz, View.ld_unit_zero (S := S256x256) hz, View.ld_unit_zero (S := S1x256) hz,
    View.ld_unit_zero (S := S256x128) hz, View.ld_unit_zero (S := S1x128) hz]
  obtain ⟨-, -, -, -, -, -, -, -, -, -, -, -, -, -, -, -, e80, e81⟩ := idx_facts t
  funext j
  obtain ⟨p, q, rfl⟩ : ∃ (p : Fin 2000) (q : Fin 128), j = ix2 p q := ⟨j 0, j 1, eq_ix2 j⟩
  have hlt : t.val * 2000 + p.val < 50000 := by have := t.isLt; have hN : cfg1.N = 25 := N_1; have := p.isLt; omega
  have he : ((cfg1.win 8).blk t).view.emb (ix2 p q) = (ix2 (⟨t.val * 2000 + p.val, hlt⟩ : Fin 50000) q : S50000x128.Idx) := by
    funext a; apply Fin.ext
    match a with
    | ⟨0, _⟩ => show win1_8.index t (0 : Fin 2) * 2000 + 1 * p.val = t.val * 2000 + p.val; omega
    | ⟨1, _⟩ => show win1_8.index t (1 : Fin 2) * 128 + 1 * q.val = q.val; omega
  refine (Pay.pay1_2 (iblk1 V c 0 t) (iblk1 V c 1 t) (iblk1 V c 2 t) (iblk1 V c 3 t) (iblk1 V c 4 t) (iblk1 V c 5 t) (iblk1 V c 6 t) p q).trans ?_
  rw [iblk_w1 V c t, iblk_w2 V c t, iblk_w3 V c t, iblk_w4 V c t, iblk_w5 V c t, iblk_w6 V c t]
  show _ = Hd V c (((cfg1.win 8).blk t).view.emb (ix2 p q))
  rw [he]
  exact Gcn.affine_congr_row _ _ _ _ p _ q (fun k => Gcn.denseRelu_congr_row _ _ _ _ p _ k (fun k' => y_tile V c t p k' _ rfl))

/-- An index of the first output array is in point `t`'s block iff each coordinate is in the block's range. -/
theorem mem_blk7 (t : Fin cfg1.N) (i : S50000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v41_0).slice (win1_7.rect t)).set ↔ _
  rw [View.set_slice_whole, Rect.mem_set_unit]
  exact Iff.rfl

/-- The same for the second output array. -/
theorem mem_blk8 (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v41_1).slice (win1_8.rect t)).set ↔ _
  rw [View.set_slice_whole, Rect.mem_set_unit]
  exact Iff.rfl

/-- Every row of the first output is in some point's block: row r is in block r / 2000. -/
theorem cover7 (i : S50000x256.Idx) : ∃ t : Fin cfg1.N, (cfg1.win 7).flush t = true ∧ i ∈ ((cfg1.win 7).blk t).view.set := by
  have hN : cfg1.N = 25 := N_1
  have hi0 : (i 0).val < 50000 := (i 0).isLt
  have hi1 : (i 1).val < 256 := (i 1).isLt
  refine ⟨⟨(i 0).val / 2000, by rw [hN]; omega⟩, flush1_7 _, ?_⟩
  rw [mem_blk7]
  obtain ⟨-, -, -, -, -, -, -, -, -, -, -, -, -, -, e70, e71, -⟩ := idx_facts ⟨(i 0).val / 2000, by rw [hN]; omega⟩
  intro a
  match a with
  | ⟨0, _⟩ => show win1_7.index _ (0 : Fin 2) * 2000 ≤ (i 0).val ∧ (i 0).val < win1_7.index _ (0 : Fin 2) * 2000 + 2000; rw [e70]; dsimp only; omega
  | ⟨1, _⟩ => show win1_7.index _ (1 : Fin 2) * 256 ≤ (i 1).val ∧ (i 1).val < win1_7.index _ (1 : Fin 2) * 256 + 256; rw [e71]; omega

/-- The same for the second output. -/
theorem cover8 (i : S50000x128.Idx) : ∃ t : Fin cfg1.N, (cfg1.win 8).flush t = true ∧ i ∈ ((cfg1.win 8).blk t).view.set := by
  have hN : cfg1.N = 25 := N_1
  have hi0 : (i 0).val < 50000 := (i 0).isLt
  have hi1 : (i 1).val < 128 := (i 1).isLt
  refine ⟨⟨(i 0).val / 2000, by rw [hN]; omega⟩, flush1_8 _, ?_⟩
  rw [mem_blk8]
  obtain ⟨-, -, -, -, -, -, -, -, -, -, -, -, -, -, -, -, e80, e81⟩ := idx_facts ⟨(i 0).val / 2000, by rw [hN]; omega⟩
  intro a
  match a with
  | ⟨0, _⟩ => show win1_8.index _ (0 : Fin 2) * 2000 ≤ (i 0).val ∧ (i 0).val < win1_8.index _ (0 : Fin 2) * 2000 + 2000; rw [e80]; dsimp only; omega
  | ⟨1, _⟩ => show win1_8.index _ (1 : Fin 2) * 128 ≤ (i 1).val ∧ (i 1).val < win1_8.index _ (1 : Fin 2) * 128 + 128; rw [e81]; omega

/-- THE ARRAYS after the region: the hidden array and the head array of the arrays the region found. -/
theorem final7 (c : Dev nD) : (dat1 (F := Ideal) V c).arrAt 7 cfg1.N = Y V c :=
  (dat1 (F := Ideal) V c).arrAt_eq_of_cover 7 (Y V c) (fun t _ => flushed7_eq V c t) cover7

theorem final8 (c : Dev nD) : (dat1 (F := Ideal) V c).arrAt 8 cfg1.N = Hd V c :=
  (dat1 (F := Ideal) V c).arrAt_eq_of_cover 8 (Hd V c) (fun t _ => flushed8_eq V c t) cover8

end Cert.KernelIdeal.Region1

end
-- ==== Proof.Region2.lean ====
/-
  Layer 2's region: its two output arrays after the run, as functions of the arrays it finds.

  The region runs the body at 25 grid points.  Point t reads rows [2000 t, 2000 t + 2000) of the neighbourhood sums
  a : [50000, 256] and the whole of the six weight and bias arrays, and writes back rows [2000 t, 2000 t + 2000) of
  both outputs.  Each stored entry depends on one row of a only, so the blocks written back are restrictions of
  two whole arrays: `y = relu (a·wg + bg)` and `relu (y·w1 + b1)·w2 + b2`; the 25 blocks cover all 50000 rows.
-/
import proofs.«124818_j45870250721840_2_alg».proof.Proof.Gen.KernelIdeal.Frame
import proofs.«124818_j45870250721840_2_alg».proof.Proof.PayLayer
import proofs.«124818_j45870250721840_2_alg».proof.Proof.SpecCongr
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the tile of sums and both output tiles are block (t, 0); the six weight
    and bias arrays are block (0, 0) at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The hidden array the region leaves in its first output window. -/
abbrev Y (c : Dev nD) : S50000x256.Idx → EReal :=
  Gcn.denseRelu (V c (Pipeline.arrRef spec2 0) : S50000x256.Idx → EReal) (V c (Pipeline.arrRef spec2 1) : S256x256.Idx → EReal)
    (V c (Pipeline.arrRef spec2 2) : S1x256.Idx → EReal)

/-- The head array the region leaves in its second output window. -/
abbrev Hd (c : Dev nD) : S50000x128.Idx → EReal :=
  Gcn.affine (Gcn.denseRelu (Y V c) (V c (Pipeline.arrRef spec2 3) : S256x256.Idx → EReal) (V c (Pipeline.arrRef spec2 4) : S1x256.Idx → EReal))
    (V c (Pipeline.arrRef spec2 5) : S256x128.Idx → EReal) (V c (Pipeline.arrRef spec2 6) : S1x128.Idx → EReal)

section point

variable (c : Dev nD) (t : Fin cfg2.N)

/-- The tile of sums at point t, row p, is row 2000 t + p of the array. -/
theorem blk0 (p : Fin 2000) (k : Fin 256) (r : Fin 50000) (hr : r.val = t.val * 2000 + p.val) :
    ((cfg2.win 0).blk t).view.emb (ix2 p k) = (ix2 r k : S50000x256.Idx) := by
  obtain ⟨e00, e01, -⟩ := idx_facts t
  funext a; apply Fin.ext
  match a with
  | ⟨0, _⟩ => show win2_0.index t (0 : Fin 2) * 2000 + 1 * p.val = r.val; omega
  | ⟨1, _⟩ => show win2_0.index t (1 : Fin 2) * 256 + 1 * k.val = k.val; omega

theorem blk1 (i : S256x256.Idx) : ((cfg2.win 1).blk t).view.emb i = i := by
  obtain ⟨-, -, e10, e11, -⟩ := idx_facts t
  funext a; apply Fin.ext
  match a with
  | ⟨0, _⟩ => show win2_1.index t (0 : Fin 2) * 256 + 1 * (i 0).val = (i 0).val; omega
  | ⟨1, _⟩ => show win2_1.index t (1 : Fin 2) * 256 + 1 * (i 1).val = (i 1).val; omega

theorem blk2 (i : S1x256.Idx) : ((cfg2.win 2).blk t).view.emb i = i := by
  obtain ⟨-, -, -, -, e20, e21, -⟩ := idx_facts t
  funext a; apply Fin.ext
  match a with
  | ⟨0, _⟩ => show win2_2.index t (0 : Fin 2) * 1 + 1 * (i 0).val = (i 0).val; omega
  | ⟨1, _⟩ => show win2_2.index t (1 : Fin 2) * 256 + 1 * (i 1).val = (i 1).val; omega

theorem blk3 (i : S256x256.Idx) : ((cfg2.win 3).blk t).view.emb i = i := by
  obtain ⟨-, -, -, -, -, -, e30, e31, -⟩ := idx_facts t
  funext a; apply Fin.ext
  match a with
  | ⟨0, _⟩ => show win2_3.index t (0 : Fin 2) * 256 + 1 * (i 0).val = (i 0).val; omega
  | ⟨1, _⟩ => show win2_3.index t (1 : Fin 2) * 256 + 1 * (i 1).val = (i 1).val; omega

theorem blk4 (i : S1x256.Idx) : ((cfg2.win 4).blk t).view.emb i = i := by
  obtain ⟨-, -, -, -, -, -, -, -, e40, e41, -⟩ := idx_facts t
  funext a; apply Fin.ext
  match a with
  | ⟨0, _⟩ => show win2_4.index t (0 : Fin 2) * 1 + 1 * (i 0).val = (i 0).val; omega
  | ⟨1, _⟩ => show win2_4.index t (1 : Fin 2) * 256 + 1 * (i 1).val = (i 1).val; omega

theorem blk5 (i : S256x128.Idx) : ((cfg2.win 5).blk t).view.emb i = i := by
  obtain ⟨-, -, -, -, -, -, -, -, -, -, e50, e51, -⟩ := idx_facts t
  funext a; apply Fin.ext
  match a with
  | ⟨0, _⟩ => show win2_5.index t (0 : Fin 2) * 256 + 1 * (i 0).val = (i 0).val; omega
  | ⟨1, _⟩ => show win2_5.index t (1 : Fin 2) * 128 + 1 * (i 1).val = (i 1).val; omega

theorem blk6 (i : S1x128.Idx) : ((cfg2.win 6).blk t).view.emb i = i := by
  obtain ⟨-, -, -, -, -, -, -, -, -, -, -, -, e60, e61, -⟩ := idx_facts t
  funext a; apply Fin.ext
  match a with
  | ⟨0, _⟩ => show win2_6.index t (0 : Fin 2) * 1 + 1 * (i 0).val = (i 0).val; omega
  | ⟨1, _⟩ => show win2_6.index t (1 : Fin 2) * 128 + 1 * (i 1).val = (i 1).val; omega

/-- The blocks of the six weight and bias arrays are the arrays themselves. -/
theorem iblk_w1 : iblk2 V c 1 t = (V c (Pipeline.arrRef spec2 1) : S256x256.Idx → EReal) :=
  funext fun i => congrArg (V c (Pipeline.arrRef spec2 1)) (blk1 t i)
theorem iblk_w2 : iblk2 V c 2 t = (V c (Pipeline.arrRef spec2 2) : S1x256.Idx → EReal) :=
  funext fun i => congrArg (V c (Pipeline.arrRef spec2 2)) (blk2 t i)
theorem iblk_w3 : iblk2 V c 3 t = (V c (Pipeline.arrRef spec2 3) : S256x256.Idx → EReal) :=
  funext fun i => congrArg (V c (Pipeline.arrRef spec2 3)) (blk3 t i)
theorem iblk_w4 : iblk2 V c 4 t = (V c (Pipeline.arrRef spec2 4) : S1x256.Idx → EReal) :=
  funext fun i => congrArg (V c (Pipeline.arrRef spec2 4)) (blk4 t i)
theorem iblk_w5 : iblk2 V c 5 t = (V c (Pipeline.arrRef spec2 5) : S256x128.Idx → EReal) :=
  funext fun i => congrArg (V c (Pipeline.arrRef spec2 5)) (blk5 t i)
theorem iblk_w6 : iblk2 V c 6 t = (V c (Pipeline.arrRef spec2 6) : S1x128.Idx → EReal) :=
  funext fun i => congrArg (V c (Pipeline.arrRef spec2 6)) (blk6 t i)

/-- The hidden tile at point t, row p, is row 2000 t + p of the hidden array. -/
theorem y_tile (p : Fin 2000) (q : Fin 256) (r : Fin 50000) (hr : r.val = t.val * 2000 + p.val) :
    Gcn.denseRelu (iblk2 V c 0 t) (V c (Pipeline.arrRef spec2 1) : S256x256.Idx → EReal) (V c (Pipeline.arrRef spec2 2) : S1x256.Idx → EReal) (ix2 p q)
      = Y V c (ix2 r q) := by
  exact Gcn.denseRelu_congr_row _ _ _ _ p r q (fun k => congrArg (V c (Pipeline.arrRef spec2 0)) (blk0 t p k r hr))

end point

set_option maxHeartbeats 1000000 in
/-- What point `t` writes back through the first output window is block `t` of `Y`. -/
theorem flushed7_eq (c : Dev nD) (t : Fin cfg2.N) :
    (dat2 (F := Ideal) V c).flushed 7 t = ((cfg2.win 7).blk t).view.read (Elt Ideal) (Y V c) := by
  show (cfg2.win 7).cut (grid2.coords t) ((dat2 (F := Ideal) V c).after 7 t) = _
  rw [after2_7]
  unfold out2_7
  rw [View.canon_unit_zero hz]
  simp only [View.ld_unit_zero (S := S2000x256) hz, View.ld_unit_zero (S := S256x256) hz, View.ld_unit_zero (S := S1x256) hz]
  obtain ⟨-, -, -, -, -, -, -, -, -, -, -, -, -, -, e70, e71, -⟩ := idx_facts t
  funext j
  obtain ⟨p, q, rfl⟩ : ∃ (p : Fin 2000) (q : Fin 256), j = ix2 p q := ⟨j 0, j 1, eq_ix2 j⟩
  have hlt : t.val * 2000 + p.val < 50000 := by have := t.isLt; have hN : cfg2.N = 25 := N_2; have := p.isLt; omega
  have he : ((cfg2.win 7).blk t).view.emb (ix2 p q) = (ix2 (⟨t.val * 2000 + p.val, hlt⟩ : Fin 50000) q : S50000x256.Idx) := by
    funext a; apply Fin.ext
    match a with
    | ⟨0, _⟩ => show win2_7.index t (0 : Fin 2) * 2000 + 1 * p.val = t.val * 2000 + p.val; omega
    | ⟨1, _⟩ => show win2_7.index t (1 : Fin 2) * 256 + 1 * q.val = q.val; omega
  refine (Pay.pay2_1 (iblk2 V c 0 t) (iblk2 V c 1 t) (iblk2 V c 2 t) p q).trans ?_
  rw [iblk_w1 V c t, iblk_w2 V c t]
  show _ = Y V c (((cfg2.win 7).blk t).view.emb (ix2 p q))
  rw [he]
  exact y_tile V c t p q _ rfl

set_option maxHeartbeats 1000000 in
/-- What point `t` writes back through the second output window is block `t` of `Hd`. -/
theorem flushed8_eq (c : Dev nD) (t : Fin cfg2.N) :
    (dat2 (F := Ideal) V c).flushed 8 t = ((cfg2.win 8).blk t).view.read (Elt Ideal) (Hd V c) := by
  show (cfg2.win 8).cut (grid2.coords t) ((dat2 (F := Ideal) V c).after 8 t) = _
  rw [after2_8]
  unfold out2_8
  rw [View.canon_unit_zero hz]
  simp only [View.ld_unit_zero (S := S2000x256) hz, View.ld_unit_zero (S := S256x256) hz, View.ld_unit_zero (S := S1x256) hz,
    View.ld_unit_zero (S := S256x128) hz, View.ld_unit_zero (S := S1x128) hz]
  obtain ⟨-, -, -, -, -, -, -, -, -, -, -, -, -, -, -, -, e80, e81⟩ := idx_facts t
  funext j
  obtain ⟨p, q, rfl⟩ : ∃ (p : Fin 2000) (q : Fin 128), j = ix2 p q := ⟨j 0, j 1, eq_ix2 j⟩
  have hlt : t.val * 2000 + p.val < 50000 := by have := t.isLt; have hN : cfg2.N = 25 := N_2; have := p.isLt; omega
  have he : ((cfg2.win 8).blk t).view.emb (ix2 p q) = (ix2 (⟨t.val * 2000 + p.val, hlt⟩ : Fin 50000) q : S50000x128.Idx) := by
    funext a; apply Fin.ext
    match a with
    | ⟨0, _⟩ => show win2_8.index t (0 : Fin 2) * 2000 + 1 * p.val = t.val * 2000 + p.val; omega
    | ⟨1, _⟩ => show win2_8.index t (1 : Fin 2) * 128 + 1 * q.val = q.val; omega
  refine (Pay.pay2_2 (iblk2 V c 0 t) (iblk2 V c 1 t) (iblk2 V c 2 t) (iblk2 V c 3 t) (iblk2 V c 4 t) (iblk2 V c 5 t) (iblk2 V c 6 t) p q).trans ?_
  rw [iblk_w1 V c t, iblk_w2 V c t, iblk_w3 V c t, iblk_w4 V c t, iblk_w5 V c t, iblk_w6 V c t]
  show _ = Hd V c (((cfg2.win 8).blk t).view.emb (ix2 p q))
  rw [he]
  exact Gcn.affine_congr_row _ _ _ _ p _ q (fun k => Gcn.denseRelu_congr_row _ _ _ _ p _ k (fun k' => y_tile V c t p k' _ rfl))

/-- An index of the first output array is in point `t`'s block iff each coordinate is in the block's range. -/
theorem mem_blk7 (t : Fin cfg2.N) (i : S50000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole main_v81_0).slice (win2_7.rect t)).set ↔ _
  rw [View.set_slice_whole, Rect.mem_set_unit]
  exact Iff.rfl

/-- The same for the second output array. -/
theorem mem_blk8 (t : Fin cfg2.N) (i : S50000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v81_1).slice (win2_8.rect t)).set ↔ _
  rw [View.set_slice_whole, Rect.mem_set_unit]
  exact Iff.rfl

/-- Every row of the first output is in some point's block: row r is in block r / 2000. -/
theorem cover7 (i : S50000x256.Idx) : ∃ t : Fin cfg2.N, (cfg2.win 7).flush t = true ∧ i ∈ ((cfg2.win 7).blk t).view.set := by
  have hN : cfg2.N = 25 := N_2
  have hi0 : (i 0).val < 50000 := (i 0).isLt
  have hi1 : (i 1).val < 256 := (i 1).isLt
  refine ⟨⟨(i 0).val / 2000, by rw [hN]; omega⟩, flush2_7 _, ?_⟩
  rw [mem_blk7]
  obtain ⟨-, -, -, -, -, -, -, -, -, -, -, -, -, -, e70, e71, -⟩ := idx_facts ⟨(i 0).val / 2000, by rw [hN]; omega⟩
  intro a
  match a with
  | ⟨0, _⟩ => show win2_7.index _ (0 : Fin 2) * 2000 ≤ (i 0).val ∧ (i 0).val < win2_7.index _ (0 : Fin 2) * 2000 + 2000; rw [e70]; dsimp only; omega
  | ⟨1, _⟩ => show win2_7.index _ (1 : Fin 2) * 256 ≤ (i 1).val ∧ (i 1).val < win2_7.index _ (1 : Fin 2) * 256 + 256; rw [e71]; omega

/-- The same for the second output. -/
theorem cover8 (i : S50000x128.Idx) : ∃ t : Fin cfg2.N, (cfg2.win 8).flush t = true ∧ i ∈ ((cfg2.win 8).blk t).view.set := by
  have hN : cfg2.N = 25 := N_2
  have hi0 : (i 0).val < 50000 := (i 0).isLt
  have hi1 : (i 1).val < 128 := (i 1).isLt
  refine ⟨⟨(i 0).val / 2000, by rw [hN]; omega⟩, flush2_8 _, ?_⟩
  rw [mem_blk8]
  obtain ⟨-, -, -, -, -, -, -, -, -, -, -, -, -, -, -, -, e80, e81⟩ := idx_facts ⟨(i 0).val / 2000, by rw [hN]; omega⟩
  intro a
  match a with
  | ⟨0, _⟩ => show win2_8.index _ (0 : Fin 2) * 2000 ≤ (i 0).val ∧ (i 0).val < win2_8.index _ (0 : Fin 2) * 2000 + 2000; rw [e80]; dsimp only; omega
  | ⟨1, _⟩ => show win2_8.index _ (1 : Fin 2) * 128 ≤ (i 1).val ∧ (i 1).val < win2_8.index _ (1 : Fin 2) * 128 + 128; rw [e81]; omega

/-- THE ARRAYS after the region: the hidden array and the head array of the arrays the region found. -/
theorem final7 (c : Dev nD) : (dat2 (F := Ideal) V c).arrAt 7 cfg2.N = Y V c :=
  (dat2 (F := Ideal) V c).arrAt_eq_of_cover 7 (Y V c) (fun t _ => flushed7_eq V c t) cover7

theorem final8 (c : Dev nD) : (dat2 (F := Ideal) V c).arrAt 8 cfg2.N = Hd V c :=
  (dat2 (F := Ideal) V c).arrAt_eq_of_cover 8 (Hd V c) (fun t _ => flushed8_eq V c t) cover8

end Cert.KernelIdeal.Region2

end
-- ==== Proof.Region3.lean ====
/-
  Layer 3's region: its two output arrays after the run, as functions of the arrays it finds.

  The region runs the body at 25 grid points.  Point t reads rows [2000 t, 2000 t + 2000) of the neighbourhood sums
  a : [50000, 256] and the whole of the six weight and bias arrays, and writes back rows [2000 t, 2000 t + 2000) of
  both outputs.  Each stored entry depends on one row of a only, so the blocks written back are restrictions of
  two whole arrays: `y = relu (a·wg + bg)` and `relu (y·w1 + b1)·w2 + b2`; the 25 blocks cover all 50000 rows.
-/
import proofs.«124818_j45870250721840_2_alg».proof.Proof.Gen.KernelIdeal.Frame
import proofs.«124818_j45870250721840_2_alg».proof.Proof.PayLayer
import proofs.«124818_j45870250721840_2_alg».proof.Proof.SpecCongr
import Idealize.ShloMosaic.Lib.Pipeline.Value

set_option maxRecDepth 16384

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the tile of sums and both output tiles are block (t, 0); the six weight
    and bias arrays are block (0, 0) at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

/-- The hidden array the region leaves in its first output window. -/
abbrev Y (c : Dev nD) : S50000x256.Idx → EReal :=
  Gcn.denseRelu (V c (Pipeline.arrRef spec3 0) : S50000x256.Idx → EReal) (V c (Pipeline.arrRef spec3 1) : S256x256.Idx → EReal)
    (V c (Pipeline.arrRef spec3 2) : S1x256.Idx → EReal)

/-- The head array the region leaves in its second output window. -/
abbrev Hd (c : Dev nD) : S50000x128.Idx → EReal :=
  Gcn.affine (Gcn.denseRelu (Y V c) (V c (Pipeline.arrRef spec3 3) : S256x256.Idx → EReal) (V c (Pipeline.arrRef spec3 4) : S1x256.Idx → EReal))
    (V c (Pipeline.arrRef spec3 5) : S256x128.Idx → EReal) (V c (Pipeline.arrRef spec3 6) : S1x128.Idx → EReal)

section point

variable (c : Dev nD) (t : Fin cfg3.N)

/-- The tile of sums at point t, row p, is row 2000 t + p of the array. -/
theorem blk0 (p : Fin 2000) (k : Fin 256) (r : Fin 50000) (hr : r.val = t.val * 2000 + p.val) :
    ((cfg3.win 0).blk t).view.emb (ix2 p k) = (ix2 r k : S50000x256.Idx) := by
  obtain ⟨e00, e01, -⟩ := idx_facts t
  funext a; apply Fin.ext
  match a with
  | ⟨0, _⟩ => show win3_0.index t (0 : Fin 2) * 2000 + 1 * p.val = r.val; omega
  | ⟨1, _⟩ => show win3_0.index t (1 : Fin 2) * 256 + 1 * k.val = k.val; omega

theorem blk1 (i : S256x256.Idx) : ((cfg3.win 1).blk t).view.emb i = i := by
  obtain ⟨-, -, e10, e11, -⟩ := idx_facts t
  funext a; apply Fin.ext
  match a with
  | ⟨0, _⟩ => show win3_1.index t (0 : Fin 2) * 256 + 1 * (i 0).val = (i 0).val; omega
  | ⟨1, _⟩ => show win3_1.index t (1 : Fin 2) * 256 + 1 * (i 1).val = (i 1).val; omega

theorem blk2 (i : S1x256.Idx) : ((cfg3.win 2).blk t).view.emb i = i := by
  obtain ⟨-, -, -, -, e20, e21, -⟩ := idx_facts t
  funext a; apply Fin.ext
  match a with
  | ⟨0, _⟩ => show win3_2.index t (0 : Fin 2) * 1 + 1 * (i 0).val = (i 0).val; omega
  | ⟨1, _⟩ => show win3_2.index t (1 : Fin 2) * 256 + 1 * (i 1).val = (i 1).val; omega

theorem blk3 (i : S256x256.Idx) : ((cfg3.win 3).blk t).view.emb i = i := by
  obtain ⟨-, -, -, -, -, -, e30, e31, -⟩ := idx_facts t
  funext a; apply Fin.ext
  match a with
  | ⟨0, _⟩ => show win3_3.index t (0 : Fin 2) * 256 + 1 * (i 0).val = (i 0).val; omega
  | ⟨1, _⟩ => show win3_3.index t (1 : Fin 2) * 256 + 1 * (i 1).val = (i 1).val; omega

theorem blk4 (i : S1x256.Idx) : ((cfg3.win 4).blk t).view.emb i = i := by
  obtain ⟨-, -, -, -, -, -, -, -, e40, e41, -⟩ := idx_facts t
  funext a; apply Fin.ext
  match a with
  | ⟨0, _⟩ => show win3_4.index t (0 : Fin 2) * 1 + 1 * (i 0).val = (i 0).val; omega
  | ⟨1, _⟩ => show win3_4.index t (1 : Fin 2) * 256 + 1 * (i 1).val = (i 1).val; omega

theorem blk5 (i : S256x128.Idx) : ((cfg3.win 5).blk t).view.emb i = i := by
  obtain ⟨-, -, -, -, -, -, -, -, -, -, e50, e51, -⟩ := idx_facts t
  funext a; apply Fin.ext
  match a with
  | ⟨0, _⟩ => show win3_5.index t (0 : Fin 2) * 256 + 1 * (i 0).val = (i 0).val; omega
  | ⟨1, _⟩ => show win3_5.index t (1 : Fin 2) * 128 + 1 * (i 1).val = (i 1).val; omega

theorem blk6 (i : S1x128.Idx) : ((cfg3.win 6).blk t).view.emb i = i := by
  obtain ⟨-, -, -, -, -, -, -, -, -, -, -, -, e60, e61, -⟩ := idx_facts t
  funext a; apply Fin.ext
  match a with
  | ⟨0, _⟩ => show win3_6.index t (0 : Fin 2) * 1 + 1 * (i 0).val = (i 0).val; omega
  | ⟨1, _⟩ => show win3_6.index t (1 : Fin 2) * 128 + 1 * (i 1).val = (i 1).val; omega

/-- The blocks of the six weight and bias arrays are the arrays themselves. -/
theorem iblk_w1 : iblk3 V c 1 t = (V c (Pipeline.arrRef spec3 1) : S256x256.Idx → EReal) :=
  funext fun i => congrArg (V c (Pipeline.arrRef spec3 1)) (blk1 t i)
theorem iblk_w2 : iblk3 V c 2 t = (V c (Pipeline.arrRef spec3 2) : S1x256.Idx → EReal) :=
  funext fun i => congrArg (V c (Pipeline.arrRef spec3 2)) (blk2 t i)
theorem iblk_w3 : iblk3 V c 3 t = (V c (Pipeline.arrRef spec3 3) : S256x256.Idx → EReal) :=
  funext fun i => congrArg (V c (Pipeline.arrRef spec3 3)) (blk3 t i)
theorem iblk_w4 : iblk3 V c 4 t = (V c (Pipeline.arrRef spec3 4) : S1x256.Idx → EReal) :=
  funext fun i => congrArg (V c (Pipeline.arrRef spec3 4)) (blk4 t i)
theorem iblk_w5 : iblk3 V c 5 t = (V c (Pipeline.arrRef spec3 5) : S256x128.Idx → EReal) :=
  funext fun i => congrArg (V c (Pipeline.arrRef spec3 5)) (blk5 t i)
theorem iblk_w6 : iblk3 V c 6 t = (V c (Pipeline.arrRef spec3 6) : S1x128.Idx → EReal) :=
  funext fun i => congrArg (V c (Pipeline.arrRef spec3 6)) (blk6 t i)

/-- The hidden tile at point t, row p, is row 2000 t + p of the hidden array. -/
theorem y_tile (p : Fin 2000) (q : Fin 256) (r : Fin 50000) (hr : r.val = t.val * 2000 + p.val) :
    Gcn.denseRelu (iblk3 V c 0 t) (V c (Pipeline.arrRef spec3 1) : S256x256.Idx → EReal) (V c (Pipeline.arrRef spec3 2) : S1x256.Idx → EReal) (ix2 p q)
      = Y V c (ix2 r q) := by
  exact Gcn.denseRelu_congr_row _ _ _ _ p r q (fun k => congrArg (V c (Pipeline.arrRef spec3 0)) (blk0 t p k r hr))

end point

set_option maxHeartbeats 1000000 in
/-- What point `t` writes back through the first output window is block `t` of `Y`. -/
theorem flushed7_eq (c : Dev nD) (t : Fin cfg3.N) :
    (dat3 (F := Ideal) V c).flushed 7 t = ((cfg3.win 7).blk t).view.read (Elt Ideal) (Y V c) := by
  show (cfg3.win 7).cut (grid3.coords t) ((dat3 (F := Ideal) V c).after 7 t) = _
  rw [after3_7]
  unfold out3_7
  rw [View.canon_unit_zero hz]
  simp only [View.ld_unit_zero (S := S2000x256) hz, View.ld_unit_zero (S := S256x256) hz, View.ld_unit_zero (S := S1x256) hz]
  obtain ⟨-, -, -, -, -, -, -, -, -, -, -, -, -, -, e70, e71, -⟩ := idx_facts t
  funext j
  obtain ⟨p, q, rfl⟩ : ∃ (p : Fin 2000) (q : Fin 256), j = ix2 p q := ⟨j 0, j 1, eq_ix2 j⟩
  have hlt : t.val * 2000 + p.val < 50000 := by have := t.isLt; have hN : cfg3.N = 25 := N_3; have := p.isLt; omega
  have he : ((cfg3.win 7).blk t).view.emb (ix2 p q) = (ix2 (⟨t.val * 2000 + p.val, hlt⟩ : Fin 50000) q : S50000x256.Idx) := by
    funext a; apply Fin.ext
    match a with
    | ⟨0, _⟩ => show win3_7.index t (0 : Fin 2) * 2000 + 1 * p.val = t.val * 2000 + p.val; omega
    | ⟨1, _⟩ => show win3_7.index t (1 : Fin 2) * 256 + 1 * q.val = q.val; omega
  refine (Pay.pay3_1 (iblk3 V c 0 t) (iblk3 V c 1 t) (iblk3 V c 2 t) p q).trans ?_
  rw [iblk_w1 V c t, iblk_w2 V c t]
  show _ = Y V c (((cfg3.win 7).blk t).view.emb (ix2 p q))
  rw [he]
  exact y_tile V c t p q _ rfl

set_option maxHeartbeats 1000000 in
/-- What point `t` writes back through the second output window is block `t` of `Hd`. -/
theorem flushed8_eq (c : Dev nD) (t : Fin cfg3.N) :
    (dat3 (F := Ideal) V c).flushed 8 t = ((cfg3.win 8).blk t).view.read (Elt Ideal) (Hd V c) := by
  show (cfg3.win 8).cut (grid3.coords t) ((dat3 (F := Ideal) V c).after 8 t) = _
  rw [after3_8]
  unfold out3_8
  rw [View.canon_unit_zero hz]
  simp only [View.ld_unit_zero (S := S2000x256) hz, View.ld_unit_zero (S := S256x256) hz, View.ld_unit_zero (S := S1x256) hz,
    View.ld_unit_zero (S := S256x128) hz, View.ld_unit_zero (S := S1x128) hz]
  obtain ⟨-, -, -, -, -, -, -, -, -, -, -, -, -, -, -, -, e80, e81⟩ := idx_facts t
  funext j
  obtain ⟨p, q, rfl⟩ : ∃ (p : Fin 2000) (q : Fin 128), j = ix2 p q := ⟨j 0, j 1, eq_ix2 j⟩
  have hlt : t.val * 2000 + p.val < 50000 := by have := t.isLt; have hN : cfg3.N = 25 := N_3; have := p.isLt; omega
  have he : ((cfg3.win 8).blk t).view.emb (ix2 p q) = (ix2 (⟨t.val * 2000 + p.val, hlt⟩ : Fin 50000) q : S50000x128.Idx) := by
    funext a; apply Fin.ext
    match a with
    | ⟨0, _⟩ => show win3_8.index t (0 : Fin 2) * 2000 + 1 * p.val = t.val * 2000 + p.val; omega
    | ⟨1, _⟩ => show win3_8.index t (1 : Fin 2) * 128 + 1 * q.val = q.val; omega
  refine (Pay.pay3_2 (iblk3 V c 0 t) (iblk3 V c 1 t) (iblk3 V c 2 t) (iblk3 V c 3 t) (iblk3 V c 4 t) (iblk3 V c 5 t) (iblk3 V c 6 t) p q).trans ?_
  rw [iblk_w1 V c t, iblk_w2 V c t, iblk_w3 V c t, iblk_w4 V c t, iblk_w5 V c t, iblk_w6 V c t]
  show _ = Hd V c (((cfg3.win 8).blk t).view.emb (ix2 p q))
  rw [he]
  exact Gcn.affine_congr_row _ _ _ _ p _ q (fun k => Gcn.denseRelu_congr_row _ _ _ _ p _ k (fun k' => y_tile V c t p k' _ rfl))

/-- An index of the first output array is in point `t`'s block iff each coordinate is in the block's range. -/
theorem mem_blk7 (t : Fin cfg3.N) (i : S50000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v121_0).slice (win3_7.rect t)).set ↔ _
  rw [View.set_slice_whole, Rect.mem_set_unit]
  exact Iff.rfl

/-- The same for the second output array. -/
theorem mem_blk8 (t : Fin cfg3.N) (i : S50000x128.Idx) :
    i ∈ ((cfg3.win 8).blk t).view.set ↔ ∀ a : Fin 2, win3_8.index t a * S2000x128.size a ≤ (i a).val ∧ (i a).val < win3_8.index t a * S2000x128.size a + S2000x128.size a := by
  show i ∈ ((View.whole main_v121_1).slice (win3_8.rect t)).set ↔ _
  rw [View.set_slice_whole, Rect.mem_set_unit]
  exact Iff.rfl

/-- Every row of the first output is in some point's block: row r is in block r / 2000. -/
theorem cover7 (i : S50000x256.Idx) : ∃ t : Fin cfg3.N, (cfg3.win 7).flush t = true ∧ i ∈ ((cfg3.win 7).blk t).view.set := by
  have hN : cfg3.N = 25 := N_3
  have hi0 : (i 0).val < 50000 := (i 0).isLt
  have hi1 : (i 1).val < 256 := (i 1).isLt
  refine ⟨⟨(i 0).val / 2000, by rw [hN]; omega⟩, flush3_7 _, ?_⟩
  rw [mem_blk7]
  obtain ⟨-, -, -, -, -, -, -, -, -, -, -, -, -, -, e70, e71, -⟩ := idx_facts ⟨(i 0).val / 2000, by rw [hN]; omega⟩
  intro a
  match a with
  | ⟨0, _⟩ => show win3_7.index _ (0 : Fin 2) * 2000 ≤ (i 0).val ∧ (i 0).val < win3_7.index _ (0 : Fin 2) * 2000 + 2000; rw [e70]; dsimp only; omega
  | ⟨1, _⟩ => show win3_7.index _ (1 : Fin 2) * 256 ≤ (i 1).val ∧ (i 1).val < win3_7.index _ (1 : Fin 2) * 256 + 256; rw [e71]; omega

/-- The same for the second output. -/
theorem cover8 (i : S50000x128.Idx) : ∃ t : Fin cfg3.N, (cfg3.win 8).flush t = true ∧ i ∈ ((cfg3.win 8).blk t).view.set := by
  have hN : cfg3.N = 25 := N_3
  have hi0 : (i 0).val < 50000 := (i 0).isLt
  have hi1 : (i 1).val < 128 := (i 1).isLt
  refine ⟨⟨(i 0).val / 2000, by rw [hN]; omega⟩, flush3_8 _, ?_⟩
  rw [mem_blk8]
  obtain ⟨-, -, -, -, -, -, -, -, -, -, -, -, -, -, -, -, e80, e81⟩ := idx_facts ⟨(i 0).val / 2000, by rw [hN]; omega⟩
  intro a
  match a with
  | ⟨0, _⟩ => show win3_8.index _ (0 : Fin 2) * 2000 ≤ (i 0).val ∧ (i 0).val < win3_8.index _ (0 : Fin 2) * 2000 + 2000; rw [e80]; dsimp only; omega
  | ⟨1, _⟩ => show win3_8.index _ (1 : Fin 2) * 128 ≤ (i 1).val ∧ (i 1).val < win3_8.index _ (1 : Fin 2) * 128 + 128; rw [e81]; omega

/-- THE ARRAYS after the region: the hidden array and the head array of the arrays the region found. -/
theorem final7 (c : Dev nD) : (dat3 (F := Ideal) V c).arrAt 7 cfg3.N = Y V c :=
  (dat3 (F := Ideal) V c).arrAt_eq_of_cover 7 (Y V c) (fun t _ => flushed7_eq V c t) cover7

theorem final8 (c : Dev nD) : (dat3 (F := Ideal) V c).arrAt 8 cfg3.N = Hd V c :=
  (dat3 (F := Ideal) V c).arrAt_eq_of_cover 8 (Hd V c) (fun t _ => flushed8_eq V c t) cover8

end Cert.KernelIdeal.Region3

end
-- ==== Proof.Spmm.lean ====
/-
  The neighbourhood sum, as one function.

  `out[d] = Σ over edges e with dst[e] = d of weight[e] · h[src[e]]`: the host code takes the two rows of the edge
  list, wraps negative source indices around by the number of nodes, gathers the rows of `h` at the sources,
  scales each gathered row by its edge's weight and scatter-adds the rows at the destinations into zeros.  Both
  programs apply these same operations to the same edge list and weights; they are never opened here: it is enough
  that equal hidden arrays `h` give equal sums.
-/
import proofs.«124818_j45870250721840_2_alg».proof.KernelIdeal
import Idealize.ShloMosaic.PureOps.Ideal

noncomputable section

namespace Cert.KernelIdeal

open Idealize.ShloMosaic

variable [Facts₀]
open Facts₀

/-- The source row of the edge list, flattened. -/
def edgeSrc (e : S2x800000.Idx → BitVec 32) : S800000.Idx → BitVec 32 :=
  shapeCast S800000 (extractStridedSlice S1x800000 ![1, 0] e slices_S2x800000_S1x800000_1_0) shapeCasts_S1x800000_S800000

/-- The neighbourhood sum of the rows of `h` over the edge list `e` with edge weights `w`. -/
def spmmK (e : S2x800000.Idx → BitVec 32) (w : S800000.Idx → EReal) (h : S50000x256.Idx → EReal) : S50000x256.Idx → EReal :=
  Host.scatterAdd (F := Ideal) (φ := .f32) scatter_S50000x256_S800000x1_S800000x256_1_0_0_1
    (broadcastInDim S50000x256 ![] bcast_S_S50000x256 (constant (F := Ideal) S_ .f32 0x00000000#32))
    (broadcastInDim S800000x1 ![0] bcast_S800000_S800000x1_0
      (shapeCast S800000 (extractStridedSlice S1x800000 ![0, 0] e slices_S2x800000_S1x800000_0_0) shapeCasts_S1x800000_S800000))
    (mulf (F := Ideal) (φ := .f32)
      (broadcastInDim S800000x256 ![0, 1] bcast_S800000x1_S800000x256_0_1 (broadcastInDim S800000x1 ![0] bcast_S800000_S800000x1_0 w))
      (Host.gather gather_S50000x256_S800000x1_S800000x256_1_0_n_n_0_1_1256 h
        (broadcastInDim S800000x1 ![0] bcast_S800000_S800000x1_0
          (select (cmpi .slt (edgeSrc e) (broadcastInDim S800000 ![] bcast_S_S800000 (constantI S_ 32 0#32)))
            (addi (edgeSrc e) (broadcastInDim S800000 ![] bcast_S_S800000 (constantI S_ 32 50000#32))) (edgeSrc e)))))

end Cert.KernelIdeal

end
-- ==== Proof.Slices.lean ====
/-
  The host's slices and reshapes around the layer regions, read entry by entry.

  Layer l's weights are matrix l of a stack [3, 256, 256] (a slice [l : l+1] reshaped to [256, 256]), its biases row
  l of a stack [3, 256] (a slice reshaped to [256] and again to the row [1, 256]); each head's result is the first n
  columns of the region's [50000, 128] output.
-/
import proofs.«124818_j45870250721840_2_alg».proof.KernelIdeal
import proofs.«124818_j45870250721840_2_alg».proof.Proof.Spec
import Idealize.ShloMosaic.Lib.Pipeline.Value
import Idealize.ShloMosaic.Lib.ValueIdx

noncomputable section

namespace Cert.KernelIdeal.Slices

open Cert.KernelIdeal Idealize.ShloMosaic Idealize.ShloMosaic.ValueIdx

/-- Matrix `l` of a stack of three, sliced out and reshaped. -/
theorem slice_mat (w : S3x256x256.Idx → EReal) (l : Nat) (hl : l < 3) (h : S3x256x256.Slices ![l, 0, 0] S1x256x256)
    (h' : S1x256x256.ShapeCasts S256x256) :
    shapeCast S256x256 (extractStridedSlice S1x256x256 ![l, 0, 0] w h) h' = Gcn.mat3 w ⟨l, hl⟩ := by
  funext i
  have h0 : (i 0).val < 256 := (i 0).isLt
  have h1 : (i 1).val < 256 := (i 1).isLt
  refine (shapeCast_apply _ h' i (ix3 (0 : Fin 1) (i 0) (i 1)) (by
    rewrite [Shape.rowMajor_val_three, Shape.rowMajor_val_two]
    show (0 * 256 + (i 0).val) * 256 + (i 1).val = (i 0).val * 256 + (i 1).val; omega)).trans ?_
  exact extractStridedSlice_apply ![l, 0, 0] w h _ (ix3 (⟨l, hl⟩ : Fin 3) (i 0) (i 1)) (fun a => match a with
    | ⟨0, _⟩ => by show l = l + 0; omega
    | ⟨1, _⟩ => by show (i 0).val = 0 + (i 0).val; omega
    | ⟨2, _⟩ => by show (i 1).val = 0 + (i 1).val; omega)

/-- Row `l` of a stack of three bias vectors, sliced out, flattened, and made a row again. -/
theorem slice_row (b : S3x256.Idx → EReal) (l : Nat) (hl : l < 3) (h : S3x256.Slices ![l, 0] S1x256)
    (h1 : S1x256.ShapeCasts S256) (h2 : S256.ShapeCasts S1x256) :
    shapeCast S1x256 (shapeCast S256 (extractStridedSlice S1x256 ![l, 0] b h) h1) h2 = Gcn.row2 b ⟨l, hl⟩ := by
  rw [shapeCast_shapeCast]
  funext i
  have h0 : (i 0).val = 0 := by have h : (i 0).val < 1 := (i 0).isLt; omega
  exact extractStridedSlice_apply ![l, 0] b h i (ix2 (⟨l, hl⟩ : Fin 3) (i 1)) (fun a => match a with
    | ⟨0, _⟩ => by show l = l + (i 0).val; omega
    | ⟨1, _⟩ => by show (i 1).val = 0 + (i 1).val; omega)

/-- The first `n` columns of a [50000, 128] array, at an entry. -/
theorem head_cols {n : Nat} (hn : n ≤ 128) (x : S50000x128.Idx → EReal) (h : S50000x128.Slices ![0, 0] ⟨2, ![50000, n]⟩)
    (r : Fin 50000) (j : Fin n) :
    extractStridedSlice ⟨2, ![50000, n]⟩ ![0, 0] x h (ix2 r j) = x (ix2 r (Fin.castLE hn j)) :=
  extractStridedSlice_apply ![0, 0] x h (ix2 r j) (ix2 r (Fin.castLE hn j)) (fun a => match a with
    | ⟨0, _⟩ => by show r.val = 0 + r.val; omega
    | ⟨1, _⟩ => by show j.val = 0 + j.val; omega)

end Cert.KernelIdeal.Slices

end
-- ==== Proof.LibScatterSet.lean ====
/-
  A `stablehlo.scatter` whose body returns the update, read at an operand index that exactly one
  update index lands at: the value there is that update.  The scatter is a left fold over the update
  indices; a step that does not land at `i` leaves the value at `i` alone, and the step that lands
  there overwrites it with its update, so the last (here: the only) lander decides the value.
  Then the case every padding scatter is: all start indices zero, so that update index `j` lands at
  its own window coordinates.
-/
import Idealize.ShloMosaic.PureOps.ShapeOps

namespace ScatterSet

open Idealize.ShloMosaic

variable {s si u : Shape} {α : Type} {w : Nat}

/-- One step of the scatter's fold, for the update index numbered `n` in row-major order: when that
    update lands at `i`, position `i` becomes `f (old) (update)`; when it lands nowhere, nothing changes. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- `Host.scatter` is the left fold of `step` over the update indices in row-major order. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land at `i` leaves the value at `i` unchanged. -/
theorem step_of_ne (d : ScatterDims s si u) (f : α → α → α) (idx : IVec si w) (upd : u.Idx → α)
    (r : s.Idx → α) (n : Fin u.numel) (i : s.Idx)
    (h : d.resultIdx? (u.rowMajor.symm n) idx ≠ some i) : step d f idx upd r n i = r i := by
  unfold step
  cases hr : d.resultIdx? (u.rowMajor.symm n) idx with
  | none => rfl
  | some i' =>
    have hne : i ≠ i' := fun e => h (by rw [hr, e])
    dsimp only
    rw [if_neg hne]

/-- A step whose update lands at `i` puts `f (old value at i) (that update)` at `i`. -/
theorem step_of_eq (d : ScatterDims s si u) (f : α → α → α) (idx : IVec si w) (upd : u.Idx → α)
    (r : s.Idx → α) (n : Fin u.numel) (i : s.Idx)
    (h : d.resultIdx? (u.rowMajor.symm n) idx = some i) :
    step d f idx upd r n i = f (r i) (upd (u.rowMajor.symm n)) := by
  unfold step
  rw [h]
  simp only [if_true]

/-- Folding the steps of a list of update indices none of which lands at `i` leaves the value at `i` unchanged. -/
theorem foldl_miss (d : ScatterDims s si u) (f : α → α → α) (idx : IVec si w) (upd : u.Idx → α) (i : s.Idx) :
    ∀ (l : List (Fin u.numel)) (x : s.Idx → α),
      (∀ n ∈ l, d.resultIdx? (u.rowMajor.symm n) idx ≠ some i) → l.foldl (step d f idx upd) x i = x i
  | [], _, _ => rfl
  | n :: l, x, h => by
    rw [List.foldl_cons, foldl_miss d f idx upd i l _ (fun m hm => h m (List.mem_cons_of_mem _ hm))]
    exact step_of_ne d f idx upd x n i (h n (List.mem_cons_self ..))

/-- Folding the steps of a list of update indices in which `n0` occurs, lands at `i`, and is the only
    member that lands at `i`, with the body "return the update": the value at `i` is `n0`'s update. -/
theorem foldl_hit (d : ScatterDims s si u) (idx : IVec si w) (upd : u.Idx → α) (i : s.Idx) (n0 : Fin u.numel)
    (h0 : d.resultIdx? (u.rowMajor.symm n0) idx = some i) :
    ∀ (l : List (Fin u.numel)) (x : s.Idx → α), n0 ∈ l →
      (∀ n ∈ l, d.resultIdx? (u.rowMajor.symm n) idx = some i → n = n0) →
      l.foldl (step d (fun _ b => b) idx upd) x i = upd (u.rowMajor.symm n0)
  | [], _, hm, _ => absurd hm (List.not_mem_nil)
  | n :: l, x, hm, hu => by
    rw [List.foldl_cons]
    by_cases hl : n0 ∈ l
    · exact foldl_hit d idx upd i n0 h0 l _ hl (fun m hm' => hu m (List.mem_cons_of_mem _ hm'))
    · have hn : n0 = n := by
        rcases List.mem_cons.1 hm with e | e
        · exact e
        · exact absurd e hl
      subst hn
      rw [foldl_miss d _ idx upd i l _ (fun m hm' e => hl (hu m (List.mem_cons_of_mem _ hm') e ▸ hm'))]
      exact step_of_eq d _ idx upd x n0 i h0

/-- THE GENERAL FACT.  For any scatter dimension numbers, operand, scatter indices and updates: if
    update index `j0` lands at operand index `i`, and every update index that lands at `i` is `j0`,
    then the scatter whose body returns the update has, at `i`, the update at `j0`. -/
theorem scatter_set_apply (d : ScatterDims s si u) (x : s.Idx → α) (idx : IVec si w) (upd : u.Idx → α)
    (j0 : u.Idx) (i : s.Idx) (h0 : d.resultIdx? j0 idx = some i)
    (huniq : ∀ j, d.resultIdx? j idx = some i → j = j0) :
    Host.scatter d (fun _ b => b) x idx upd i = upd j0 := by
  rw [scatter_eq_foldl]
  have h0' : d.resultIdx? (u.rowMajor.symm (u.rowMajor j0)) idx = some i := by
    rw [Equiv.symm_apply_apply]; exact h0
  have := foldl_hit d idx upd i (u.rowMajor j0) h0' (List.finRange u.numel) x (List.mem_finRange _)
    (fun n _ hn => by
      have := huniq _ hn
      rw [← this, Equiv.apply_symm_apply])
  rw [this, Equiv.symm_apply_apply]

/-- With every scatter index zero, the window of every update starts at `0` on every operand axis. -/
theorem start_eq_zero (d : ScatterDims s si u) (idx : IVec si w) (hidx : ∀ q, idx q = 0#w) (j : u.Idx)
    (a : Fin s.rank) : d.start j idx a = 0 := by
  unfold ScatterDims.start
  split
  · rw [hidx]; exact BitVec.toInt_zero
  · rfl

/-- With every scatter index zero, an update index `j` whose window coordinates are the coordinates of
    the operand index `g j` lands at `g j`. -/
theorem resultIdx?_of_zero (d : ScatterDims s si u) (idx : IVec si w) (hidx : ∀ q, idx q = 0#w)
    (g : u.Idx → s.Idx) (hg : ∀ j a, d.window j a = (g j a).val) (j : u.Idx) :
    d.resultIdx? j idx = some (g j) := by
  have hval : ∀ a, d.start j idx a + (d.window j a : Int) = ((g j a).val : Int) := fun a => by
    rw [start_eq_zero d idx hidx j a, hg j a, Int.zero_add]
  unfold ScatterDims.resultIdx?
  rw [dif_pos (fun a => by
    rw [hval a]
    exact ⟨Int.natCast_nonneg _, by exact_mod_cast (g j a).isLt⟩)]
  congr 1
  funext a
  apply Fin.ext
  show (d.start j idx a + (d.window j a : Int)).toNat = (g j a).val
  rw [hval a, Int.toNat_natCast]

/-- PADDING BY A SCATTER.  Every scatter index zero, the body returning the update, and the window
    coordinates of update index `j` the coordinates of `g j` with `g` injective (the update is laid
    into the corner of the operand): the result read at `g j` is the update at `j`, whatever the operand was. -/
theorem scatter_pad_apply (d : ScatterDims s si u) (x : s.Idx → α) (idx : IVec si w) (hidx : ∀ q, idx q = 0#w)
    (upd : u.Idx → α) (g : u.Idx → s.Idx) (hg : ∀ j a, d.window j a = (g j a).val)
    (hinj : Function.Injective g) (j : u.Idx) :
    Host.scatter d (fun _ b => b) x idx upd (g j) = upd j :=
  scatter_set_apply d x idx upd j (g j) (resultIdx?_of_zero d idx hidx g hg j) (fun j' hj' => by
    rw [resultIdx?_of_zero d idx hidx g hg j'] at hj'
    exact hinj (Option.some.inj hj'))

end ScatterSet
-- ==== Proof.PadRead.lean ====
/-
  The host program pads each output layer's weights `W : [256, n]` into a `[256, 128]` matrix and its bias
  `b : [n]` into a length-128 vector (`n = 2, 6, 21`) by a scatter, whose body returns the update, at the
  one start index `0`.  Read at a covered index the padded array is the update there: update `(k, j)` lands
  at `(k, j)` — the start is `0` on every axis and the window coordinate is the update's own coordinate —
  and no other update lands there, whatever the array scattered into held.
-/
import proofs.«124818_j45870250721840_2_alg».proof.KernelIdeal
import proofs.«124818_j45870250721840_2_alg».proof.Proof.LibScatterSet
import Idealize.ShloMosaic.Lib.ValueIdx

namespace Cert.KernelIdeal.Pad

open Idealize.ShloMosaic Idealize.ShloMosaic.ValueIdx

variable [Facts₀] {α : Type}

/-- Where the entry `(k, c)` of a `[256, n]` matrix lands in the `[256, 128]` one it is laid into the
    left columns of (`n ≤ 128`): at `(k, c)`. -/
def gW {n : Nat} (hn : n ≤ 128) (j : (⟨2, ![256, n]⟩ : Shape).Idx) : (⟨2, ![256, 128]⟩ : Shape).Idx :=
  ix2 (n0 := 256) (n1 := 128) (j 0) (Fin.castLE hn (j 1))

/-- Where the entry `c` of a length-`n` vector lands in the length-128 one it is laid into the front of: at `c`. -/
def gB {n : Nat} (hn : n ≤ 128) (j : (⟨1, ![n]⟩ : Shape).Idx) : (⟨1, ![128]⟩ : Shape).Idx :=
  ix1 (n := 128) (Fin.castLE hn (j 0))

/-- Distinct matrix entries land at distinct places: the landing place has the same two coordinates. -/
theorem gW_injective {n : Nat} (hn : n ≤ 128) : Function.Injective (gW hn) := by
  intro j1 j2 h
  have h0 : j1 0 = j2 0 := congrFun h 0
  have h1 : Fin.castLE hn (j1 1) = Fin.castLE hn (j2 1) := congrFun h 1
  funext a
  match a with
  | ⟨0, _⟩ => exact h0
  | ⟨1, _⟩ => exact Fin.castLE_injective hn h1

/-- Distinct vector entries land at distinct places. -/
theorem gB_injective {n : Nat} (hn : n ≤ 128) : Function.Injective (gB hn) := by
  intro j1 j2 h
  have h0 : Fin.castLE hn (j1 0) = Fin.castLE hn (j2 0) := congrFun h 0
  funext a
  match a with
  | ⟨0, _⟩ => exact Fin.castLE_injective hn h0

/-! ## The padded weights: any array `x` scattered into, every start index `0` -/

section W
variable (x : S256x128.Idx → α) (idx : IVec S1 32) (hidx : ∀ q, idx q = 0#32)
include hidx

/-- The `[256, 2]` weights laid into a `[256, 128]` matrix, read at row `k` and a column `j < 2`: the weight `(k, j)`. -/
theorem padW2 (upd : S256x2.Idx → α) (k : Fin 256) (j : Fin 2) :
    Host.scatter scatter_S256x128_S1_S256x2_01_n_1_0 (fun _ b => b) x idx upd (ix2 k (Fin.castLE (by decide) j))
      = upd (ix2 k j) :=
  ScatterSet.scatter_pad_apply scatter_S256x128_S1_S256x2_01_n_1_0 x idx hidx upd (gW (by decide))
    (fun j' a => by match a with | ⟨0, _⟩ => rfl | ⟨1, _⟩ => rfl) (gW_injective _) (ix2 k j)

/-- The `[256, 6]` weights laid into a `[256, 128]` matrix, read at row `k` and a column `j < 6`: the weight `(k, j)`. -/
theorem padW6 (upd : S256x6.Idx → α) (k : Fin 256) (j : Fin 6) :
    Host.scatter scatter_S256x128_S1_S256x6_01_n_1_0 (fun _ b => b) x idx upd (ix2 k (Fin.castLE (by decide) j))
      = upd (ix2 k j) :=
  ScatterSet.scatter_pad_apply scatter_S256x128_S1_S256x6_01_n_1_0 x idx hidx upd (gW (by decide))
    (fun j' a => by match a with | ⟨0, _⟩ => rfl | ⟨1, _⟩ => rfl) (gW_injective _) (ix2 k j)

/-- The `[256, 21]` weights laid into a `[256, 128]` matrix, read at row `k` and a column `j < 21`: the weight `(k, j)`. -/
theorem padW21 (upd : S256x21.Idx → α) (k : Fin 256) (j : Fin 21) :
    Host.scatter scatter_S256x128_S1_S256x21_01_n_1_0 (fun _ b => b) x idx upd (ix2 k (Fin.castLE (by decide) j))
      = upd (ix2 k j) :=
  ScatterSet.scatter_pad_apply scatter_S256x128_S1_S256x21_01_n_1_0 x idx hidx upd (gW (by decide))
    (fun j' a => by match a with | ⟨0, _⟩ => rfl | ⟨1, _⟩ => rfl) (gW_injective _) (ix2 k j)

end W

/-! ## The padded biases -/

section B
variable (x : S128.Idx → α) (idx : IVec S1 32) (hidx : ∀ q, idx q = 0#32)
include hidx

/-- The length-2 bias laid into a length-128 vector, read at a position `j < 2`: the bias entry `j`. -/
theorem padB2 (upd : S2.Idx → α) (j : Fin 2) :
    Host.scatter scatter_S128_S1_S2_0_n_0_0 (fun _ b => b) x idx upd (ix1 (Fin.castLE (by decide) j))
      = upd (ix1 j) :=
  ScatterSet.scatter_pad_apply scatter_S128_S1_S2_0_n_0_0 x idx hidx upd (gB (by decide))
    (fun j' a => by match a with | ⟨0, _⟩ => rfl) (gB_injective _) (ix1 j)

/-- The length-6 bias laid into a length-128 vector, read at a position `j < 6`: the bias entry `j`. -/
theorem padB6 (upd : S6.Idx → α) (j : Fin 6) :
    Host.scatter scatter_S128_S1_S6_0_n_0_0 (fun _ b => b) x idx upd (ix1 (Fin.castLE (by decide) j))
      = upd (ix1 j) :=
  ScatterSet.scatter_pad_apply scatter_S128_S1_S6_0_n_0_0 x idx hidx upd (gB (by decide))
    (fun j' a => by match a with | ⟨0, _⟩ => rfl) (gB_injective _) (ix1 j)

/-- The length-21 bias laid into a length-128 vector, read at a position `j < 21`: the bias entry `j`. -/
theorem padB21 (upd : S21.Idx → α) (j : Fin 21) :
    Host.scatter scatter_S128_S1_S21_0_n_0_0 (fun _ b => b) x idx upd (ix1 (Fin.castLE (by decide) j))
      = upd (ix1 j) :=
  ScatterSet.scatter_pad_apply scatter_S128_S1_S21_0_n_0_0 x idx hidx upd (gB (by decide))
    (fun j' a => by match a with | ⟨0, _⟩ => rfl) (gB_injective _) (ix1 j)

end B

end Cert.KernelIdeal.Pad
-- ==== Proof.Stretch1.lean ====
/-
  The host operations before layer 0's region, read at the seven arrays the region takes.

  From any contents `V` of the buffers, the stretch leaves: the neighbourhood sum of the previous hidden array; matrix
  0 of each weight stack and row 0 of each bias stack (slices, reshapes, and a change of float format that is the
  identity on extended reals); and the head's weights [256, 2] and bias [2] laid into the corner of zero arrays
  [256, 128] and [128] — read here only at the 2 columns the head's result keeps.
-/
import proofs.«124818_j45870250721840_2_alg».proof.Proof.Fold0
import proofs.«124818_j45870250721840_2_alg».proof.Proof.Spmm
import proofs.«124818_j45870250721840_2_alg».proof.Proof.Slices
import proofs.«124818_j45870250721840_2_alg».proof.Proof.PadRead
import Idealize.ShloMosaic.Lib.StableHlo.Run

set_option maxRecDepth 16384
set_option maxHeartbeats 2000000

noncomputable section

namespace Cert.KernelIdeal.Stretch1

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

/-- A change of float format of an array is the identity on extended reals. -/
theorem truncf_id {s : Shape} {φ ψ : FTy} (x : FVec Ideal s φ) (h : ψ.bits < φ.bits) : truncf (F := Ideal) ψ x h = x := rfl

variable (V : Valuation τ sig (Elt Ideal))

/-- The neighbourhood sum of the previous hidden array. -/
theorem agg : (StableHlo.after hostOps1 V (Proc.devRef .tc main_v20) : S50000x256.Idx → EReal)
    = spmmK (V (Proc.devRef .tc main_arg1) : S2x800000.Idx → BitVec 32) (V (Proc.devRef .tc main_arg2) : S800000.Idx → EReal)
        (V (Proc.devRef .tc main_v2) : S50000x256.Idx → EReal) := by
  after_results_simp
  rfl

theorem wg : (StableHlo.after hostOps1 V (Proc.devRef .tc main_v35) : S256x256.Idx → EReal)
    = Gcn.mat3 (V (Proc.devRef .tc main_arg5) : S3x256x256.Idx → EReal) (0 : Fin 3) := by
  after_results_simp
  exact Slices.slice_mat _ 0 (by decide) slices_S3x256x256_S1x256x256_0_0_0 shapeCasts_S1x256x256_S256x256

theorem bg : (StableHlo.after hostOps1 V (Proc.devRef .tc main_v38) : S1x256.Idx → EReal)
    = Gcn.row2 (V (Proc.devRef .tc main_arg6) : S3x256.Idx → EReal) (0 : Fin 3) := by
  after_results_simp
  exact Slices.slice_row _ 0 (by decide) _ _ _

theorem w1 : (StableHlo.after hostOps1 V (Proc.devRef .tc main_v36) : S256x256.Idx → EReal)
    = Gcn.mat3 (V (Proc.devRef .tc main_arg7) : S3x256x256.Idx → EReal) (0 : Fin 3) := by
  after_results_simp
  exact Slices.slice_mat _ 0 (by decide) slices_S3x256x256_S1x256x256_0_0_0 shapeCasts_S1x256x256_S256x256

theorem b1 : (StableHlo.after hostOps1 V (Proc.devRef .tc main_v39) : S1x256.Idx → EReal)
    = Gcn.row2 (V (Proc.devRef .tc main_arg8) : S3x256.Idx → EReal) (0 : Fin 3) := by
  after_results_simp
  exact Slices.slice_row _ 0 (by decide) _ _ _

/-- The padded head weights, at a kept column. -/
theorem w2 (k : Fin 256) (j : Fin 2) :
    (StableHlo.after hostOps1 V (Proc.devRef .tc main_v37) : S256x128.Idx → EReal) (ix2 k (Fin.castLE (by decide) j))
    = (V (Proc.devRef .tc main_arg9) : S256x2.Idx → EReal) (ix2 k j) := by
  after_results_simp
  rw [truncf_id]
  exact Pad.padW2 _ _ (fun q => rfl) _ k j

/-- The padded head bias row, at a kept column. -/
theorem b2 (j : Fin 2) :
    (StableHlo.after hostOps1 V (Proc.devRef .tc main_v40) : S1x128.Idx → EReal) (ix2 (0 : Fin 1) (Fin.castLE (by decide) j))
    = (V (Proc.devRef .tc main_arg10) : S2.Idx → EReal) (ix1 j) := by
  after_results_simp
  exact (congrFun (Whole.reshape_row _ shapeCasts_S128_S1x128) _).trans (Pad.padB2 _ _ (fun q => rfl) _ j)

end Cert.KernelIdeal.Stretch1

end
-- ==== Proof.Stretch2.lean ====
/-
  The host operations before layer 1's region, read at the seven arrays the region takes.

  From any contents `V` of the buffers, the stretch leaves: the neighbourhood sum of the previous hidden array; matrix
  1 of each weight stack and row 1 of each bias stack (slices, reshapes, and a change of float format that is the
  identity on extended reals); and the head's weights [256, 6] and bias [6] laid into the corner of zero arrays
  [256, 128] and [128] — read here only at the 6 columns the head's result keeps.
-/
import proofs.«124818_j45870250721840_2_alg».proof.Proof.Fold0
import proofs.«124818_j45870250721840_2_alg».proof.Proof.Spmm
import proofs.«124818_j45870250721840_2_alg».proof.Proof.Slices
import proofs.«124818_j45870250721840_2_alg».proof.Proof.PadRead
import Idealize.ShloMosaic.Lib.StableHlo.Run

set_option maxRecDepth 16384
set_option maxHeartbeats 2000000

noncomputable section

namespace Cert.KernelIdeal.Stretch2

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

/-- A change of float format of an array is the identity on extended reals. -/
theorem truncf_id {s : Shape} {φ ψ : FTy} (x : FVec Ideal s φ) (h : ψ.bits < φ.bits) : truncf (F := Ideal) ψ x h = x := rfl

variable (V : Valuation τ sig (Elt Ideal))

/-- The neighbourhood sum of the previous hidden array. -/
theorem agg : (StableHlo.after hostOps2 V (Proc.devRef .tc main_v60) : S50000x256.Idx → EReal)
    = spmmK (V (Proc.devRef .tc main_arg1) : S2x800000.Idx → BitVec 32) (V (Proc.devRef .tc main_arg2) : S800000.Idx → EReal)
        (V (Proc.devRef .tc main_v41_0) : S50000x256.Idx → EReal) := by
  after_results_simp
  rfl

theorem wg : (StableHlo.after hostOps2 V (Proc.devRef .tc main_v75) : S256x256.Idx → EReal)
    = Gcn.mat3 (V (Proc.devRef .tc main_arg5) : S3x256x256.Idx → EReal) (1 : Fin 3) := by
  after_results_simp
  exact Slices.slice_mat _ 1 (by decide) slices_S3x256x256_S1x256x256_1_0_0 shapeCasts_S1x256x256_S256x256

theorem bg : (StableHlo.after hostOps2 V (Proc.devRef .tc main_v78) : S1x256.Idx → EReal)
    = Gcn.row2 (V (Proc.devRef .tc main_arg6) : S3x256.Idx → EReal) (1 : Fin 3) := by
  after_results_simp
  exact Slices.slice_row _ 1 (by decide) _ _ _

theorem w1 : (StableHlo.after hostOps2 V (Proc.devRef .tc main_v76) : S256x256.Idx → EReal)
    = Gcn.mat3 (V (Proc.devRef .tc main_arg7) : S3x256x256.Idx → EReal) (1 : Fin 3) := by
  after_results_simp
  exact Slices.slice_mat _ 1 (by decide) slices_S3x256x256_S1x256x256_1_0_0 shapeCasts_S1x256x256_S256x256

theorem b1 : (StableHlo.after hostOps2 V (Proc.devRef .tc main_v79) : S1x256.Idx → EReal)
    = Gcn.row2 (V (Proc.devRef .tc main_arg8) : S3x256.Idx → EReal) (1 : Fin 3) := by
  after_results_simp
  exact Slices.slice_row _ 1 (by decide) _ _ _

/-- The padded head weights, at a kept column. -/
theorem w2 (k : Fin 256) (j : Fin 6) :
    (StableHlo.after hostOps2 V (Proc.devRef .tc main_v77) : S256x128.Idx → EReal) (ix2 k (Fin.castLE (by decide) j))
    = (V (Proc.devRef .tc main_arg11) : S256x6.Idx → EReal) (ix2 k j) := by
  after_results_simp
  rw [truncf_id]
  exact Pad.padW6 _ _ (fun q => rfl) _ k j

/-- The padded head bias row, at a kept column. -/
theorem b2 (j : Fin 6) :
    (StableHlo.after hostOps2 V (Proc.devRef .tc main_v80) : S1x128.Idx → EReal) (ix2 (0 : Fin 1) (Fin.castLE (by decide) j))
    = (V (Proc.devRef .tc main_arg12) : S6.Idx → EReal) (ix1 j) := by
  after_results_simp
  exact (congrFun (Whole.reshape_row _ shapeCasts_S128_S1x128) _).trans (Pad.padB6 _ _ (fun q => rfl) _ j)

end Cert.KernelIdeal.Stretch2

end
-- ==== Proof.Stretch3.lean ====
/-
  The host operations before layer 2's region, read at the seven arrays the region takes.

  From any contents `V` of the buffers, the stretch leaves: the neighbourhood sum of the previous hidden array; matrix
  2 of each weight stack and row 2 of each bias stack (slices, reshapes, and a change of float format that is the
  identity on extended reals); and the head's weights [256, 21] and bias [21] laid into the corner of zero arrays
  [256, 128] and [128] — read here only at the 21 columns the head's result keeps.
-/
import proofs.«124818_j45870250721840_2_alg».proof.Proof.Fold0
import proofs.«124818_j45870250721840_2_alg».proof.Proof.Spmm
import proofs.«124818_j45870250721840_2_alg».proof.Proof.Slices
import proofs.«124818_j45870250721840_2_alg».proof.Proof.PadRead
import Idealize.ShloMosaic.Lib.StableHlo.Run

set_option maxRecDepth 16384
set_option maxHeartbeats 2000000

noncomputable section

namespace Cert.KernelIdeal.Stretch3

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

/-- A change of float format of an array is the identity on extended reals. -/
theorem truncf_id {s : Shape} {φ ψ : FTy} (x : FVec Ideal s φ) (h : ψ.bits < φ.bits) : truncf (F := Ideal) ψ x h = x := rfl

variable (V : Valuation τ sig (Elt Ideal))

/-- The neighbourhood sum of the previous hidden array. -/
theorem agg : (StableHlo.after hostOps3 V (Proc.devRef .tc main_v100) : S50000x256.Idx → EReal)
    = spmmK (V (Proc.devRef .tc main_arg1) : S2x800000.Idx → BitVec 32) (V (Proc.devRef .tc main_arg2) : S800000.Idx → EReal)
        (V (Proc.devRef .tc main_v81_0) : S50000x256.Idx → EReal) := by
  after_results_simp
  rfl

theorem wg : (StableHlo.after hostOps3 V (Proc.devRef .tc main_v115) : S256x256.Idx → EReal)
    = Gcn.mat3 (V (Proc.devRef .tc main_arg5) : S3x256x256.Idx → EReal) (2 : Fin 3) := by
  after_results_simp
  exact Slices.slice_mat _ 2 (by decide) slices_S3x256x256_S1x256x256_2_0_0 shapeCasts_S1x256x256_S256x256

theorem bg : (StableHlo.after hostOps3 V (Proc.devRef .tc main_v118) : S1x256.Idx → EReal)
    = Gcn.row2 (V (Proc.devRef .tc main_arg6) : S3x256.Idx → EReal) (2 : Fin 3) := by
  after_results_simp
  exact Slices.slice_row _ 2 (by decide) _ _ _

theorem w1 : (StableHlo.after hostOps3 V (Proc.devRef .tc main_v116) : S256x256.Idx → EReal)
    = Gcn.mat3 (V (Proc.devRef .tc main_arg7) : S3x256x256.Idx → EReal) (2 : Fin 3) := by
  after_results_simp
  exact Slices.slice_mat _ 2 (by decide) slices_S3x256x256_S1x256x256_2_0_0 shapeCasts_S1x256x256_S256x256

theorem b1 : (StableHlo.after hostOps3 V (Proc.devRef .tc main_v119) : S1x256.Idx → EReal)
    = Gcn.row2 (V (Proc.devRef .tc main_arg8) : S3x256.Idx → EReal) (2 : Fin 3) := by
  after_results_simp
  exact Slices.slice_row _ 2 (by decide) _ _ _

/-- The padded head weights, at a kept column. -/
theorem w2 (k : Fin 256) (j : Fin 21) :
    (StableHlo.after hostOps3 V (Proc.devRef .tc main_v117) : S256x128.Idx → EReal) (ix2 k (Fin.castLE (by decide) j))
    = (V (Proc.devRef .tc main_arg13) : S256x21.Idx → EReal) (ix2 k j) := by
  after_results_simp
  rw [truncf_id]
  exact Pad.padW21 _ _ (fun q => rfl) _ k j

/-- The padded head bias row, at a kept column. -/
theorem b2 (j : Fin 21) :
    (StableHlo.after hostOps3 V (Proc.devRef .tc main_v120) : S1x128.Idx → EReal) (ix2 (0 : Fin 1) (Fin.castLE (by decide) j))
    = (V (Proc.devRef .tc main_arg14) : S21.Idx → EReal) (ix1 j) := by
  after_results_simp
  exact (congrFun (Whole.reshape_row _ shapeCasts_S128_S1x128) _).trans (Pad.padB21 _ _ (fun q => rfl) _ j)

end Cert.KernelIdeal.Stretch3

end
-- ==== Proof.Tail.lean ====
/-
  The three results.

  Result l is the first n columns (n = 2, 6, 21) of layer l's head output [50000, 128], sliced by the first host
  operation after that layer's region; no later host operation writes it.
-/
import proofs.«124818_j45870250721840_2_alg».proof.Proof.Fold0
import proofs.«124818_j45870250721840_2_alg».proof.Proof.Slices
import Idealize.ShloMosaic.Lib.StableHlo.Run

set_option maxRecDepth 16384
set_option maxHeartbeats 2000000

noncomputable section

namespace Cert.KernelIdeal.Tail

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (V : Valuation τ sig (Elt Ideal))

theorem res0 (r : Fin 50000) (j : Fin 2) :
    (StableHlo.after hostOps2 V (Proc.devRef .tc main_v42) : S50000x2.Idx → EReal) (ix2 r j)
    = (V (Proc.devRef .tc main_v41_1) : S50000x128.Idx → EReal) (ix2 r (Fin.castLE (by decide) j)) := by
  after_results_simp
  exact Slices.head_cols (by decide) _ _ r j

theorem res1 (r : Fin 50000) (j : Fin 6) :
    (StableHlo.after hostOps3 V (Proc.devRef .tc main_v82) : S50000x6.Idx → EReal) (ix2 r j)
    = (V (Proc.devRef .tc main_v81_1) : S50000x128.Idx → EReal) (ix2 r (Fin.castLE (by decide) j)) := by
  after_results_simp
  exact Slices.head_cols (by decide) _ _ r j

theorem res2 (r : Fin 50000) (j : Fin 21) :
    (StableHlo.after hostOps4 V (Proc.devRef .tc main_v122) : S50000x21.Idx → EReal) (ix2 r j)
    = (V (Proc.devRef .tc main_v121_1) : S50000x128.Idx → EReal) (ix2 r (Fin.castLE (by decide) j)) := by
  after_results_simp
  exact Slices.head_cols (by decide) _ _ r j

theorem keep0_3 : StableHlo.after hostOps3 V (Proc.devRef .tc main_v42) = V (Proc.devRef .tc main_v42) := by
  after_results_simp

theorem keep0_4 : StableHlo.after hostOps4 V (Proc.devRef .tc main_v42) = V (Proc.devRef .tc main_v42) := by
  after_results_simp

theorem keep1_4 : StableHlo.after hostOps4 V (Proc.devRef .tc main_v82) = V (Proc.devRef .tc main_v82) := by
  after_results_simp

end Cert.KernelIdeal.Tail

end
-- ==== Proof.Chain.lean ====
/-
  The kernel's three results as functions of the argument arrays.

  Following the run: the input layer leaves `H0 = relu (features · W1 + b1)`; layer l takes the neighbourhood sum of
  the previous hidden array and leaves `O_l = relu (sum · Wg[l] + bg[l])` together with its head output, and result l
  is the first n columns of that head output.  Each stage is the region's whole-array function applied to what the
  host stretch before it left, and the argument arrays read along the way are the launch memory's.
-/
import proofs.«124818_j45870250721840_2_alg».proof.Proof.Keep
import proofs.«124818_j45870250721840_2_alg».proof.Proof.Region1
import proofs.«124818_j45870250721840_2_alg».proof.Proof.Region2
import proofs.«124818_j45870250721840_2_alg».proof.Proof.Region3
import proofs.«124818_j45870250721840_2_alg».proof.Proof.Stretch1
import proofs.«124818_j45870250721840_2_alg».proof.Proof.Stretch2
import proofs.«124818_j45870250721840_2_alg».proof.Proof.Stretch3
import proofs.«124818_j45870250721840_2_alg».proof.Proof.Tail

set_option maxRecDepth 16384
set_option maxHeartbeats 2000000

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The hidden array after the input layer. -/
def H0 (c : Dev nD) : S50000x256.Idx → EReal := Gcn.denseRelu (a0 m c) (a3 m c) (Gcn.row1 (a4 m c))
/-- The hidden array after layer 0: the rectified linear of the neighbourhood sum of `H0`. -/
def O0 (c : Dev nD) : S50000x256.Idx → EReal :=
  Gcn.denseRelu (spmmK (a1 m c) (a2 m c) (H0 m c)) (Gcn.mat3 (a5 m c) (0 : Fin 3)) (Gcn.row2 (a6 m c) (0 : Fin 3))
/-- The hidden array after layer 1. -/
def O1 (c : Dev nD) : S50000x256.Idx → EReal :=
  Gcn.denseRelu (spmmK (a1 m c) (a2 m c) (O0 m c)) (Gcn.mat3 (a5 m c) (1 : Fin 3)) (Gcn.row2 (a6 m c) (1 : Fin 3))
/-- The hidden array after layer 2. -/
def O2 (c : Dev nD) : S50000x256.Idx → EReal :=
  Gcn.denseRelu (spmmK (a1 m c) (a2 m c) (O1 m c)) (Gcn.mat3 (a5 m c) (2 : Fin 3)) (Gcn.row2 (a6 m c) (2 : Fin 3))

theorem prev0 (c : Dev nD) : (W2 m ρ c (Proc.devRef .tc main_v2) : S50000x256.Idx → EReal) = H0 m c := H0_eq m ρ c

/-! ## Layer 0 -/

theorem in1_0 (c : Dev nD) : (V3 m ρ c (Pipeline.arrRef spec1 0) : S50000x256.Idx → EReal) = spmmK (a1 m c) (a2 m c) (H0 m c) := by
  refine (Stretch1.agg (W2 m ρ c)).trans ?_
  rw [W2_arg1, W2_arg2, prev0]
theorem in1_1 (c : Dev nD) : (V3 m ρ c (Pipeline.arrRef spec1 1) : S256x256.Idx → EReal) = Gcn.mat3 (a5 m c) (0 : Fin 3) := by
  refine (Stretch1.wg (W2 m ρ c)).trans ?_
  rw [W2_arg5]
theorem in1_2 (c : Dev nD) : (V3 m ρ c (Pipeline.arrRef spec1 2) : S1x256.Idx → EReal) = Gcn.row2 (a6 m c) (0 : Fin 3) := by
  refine (Stretch1.bg (W2 m ρ c)).trans ?_
  rw [W2_arg6]
theorem in1_3 (c : Dev nD) : (V3 m ρ c (Pipeline.arrRef spec1 3) : S256x256.Idx → EReal) = Gcn.mat3 (a7 m c) (0 : Fin 3) := by
  refine (Stretch1.w1 (W2 m ρ c)).trans ?_
  rw [W2_arg7]
theorem in1_4 (c : Dev nD) : (V3 m ρ c (Pipeline.arrRef spec1 4) : S1x256.Idx → EReal) = Gcn.row2 (a8 m c) (0 : Fin 3) := by
  refine (Stretch1.b1 (W2 m ρ c)).trans ?_
  rw [W2_arg8]

/-- The head's padded weights and bias row, at the columns the result keeps, are the head's arguments. -/
theorem padW0 (c : Dev nD) (k : Fin 256) (j : Fin 2) :
    (V3 m ρ c (Pipeline.arrRef spec1 5) : S256x128.Idx → EReal) (ix2 k (Fin.castLE (by decide) j)) = a9 m c (ix2 k j) :=
  (Stretch1.w2 (W2 m ρ c) k j).trans (congrFun (W2_arg9 m ρ c) _)
theorem padB0 (c : Dev nD) (j : Fin 2) :
    (V3 m ρ c (Pipeline.arrRef spec1 6) : S1x128.Idx → EReal) (ix2 (0 : Fin 1) (Fin.castLE (by decide) j)) = a10 m c (ix1 j) :=
  (Stretch1.b2 (W2 m ρ c) j).trans (congrFun (W2_arg10 m ρ c) _)

/-- What the region leaves in its first output: the next hidden array. -/
theorem prev1 (c : Dev nD) : (W4 m ρ c (Proc.devRef .tc main_v41_0) : S50000x256.Idx → EReal) = O0 m c := by
  refine (W4_arr m ρ c 7).trans ((Region1.final7 (V3 m ρ) c).trans ?_)
  unfold Region1.Y O0
  rw [in1_0, in1_1, in1_2]

/-- What the region leaves in its second output: the head over the padded weights. -/
theorem head0 (c : Dev nD) : (W4 m ρ c (Proc.devRef .tc main_v41_1) : S50000x128.Idx → EReal)
    = Gcn.affine (Gcn.denseRelu (O0 m c) (Gcn.mat3 (a7 m c) (0 : Fin 3)) (Gcn.row2 (a8 m c) (0 : Fin 3)))
        (V3 m ρ c (Pipeline.arrRef spec1 5) : S256x128.Idx → EReal) (V3 m ρ c (Pipeline.arrRef spec1 6) : S1x128.Idx → EReal) := by
  refine (W4_arr m ρ c 8).trans ((Region1.final8 (V3 m ρ) c).trans ?_)
  unfold Region1.Hd Region1.Y O0
  rw [in1_0, in1_1, in1_2, in1_3, in1_4]

/-! ## Layer 1 -/

theorem in2_0 (c : Dev nD) : (V5 m ρ c (Pipeline.arrRef spec2 0) : S50000x256.Idx → EReal) = spmmK (a1 m c) (a2 m c) (O0 m c) := by
  refine (Stretch2.agg (W4 m ρ c)).trans ?_
  rw [W4_arg1, W4_arg2, prev1]
theorem in2_1 (c : Dev nD) : (V5 m ρ c (Pipeline.arrRef spec2 1) : S256x256.Idx → EReal) = Gcn.mat3 (a5 m c) (1 : Fin 3) := by
  refine (Stretch2.wg (W4 m ρ c)).trans ?_
  rw [W4_arg5]
theorem in2_2 (c : Dev nD) : (V5 m ρ c (Pipeline.arrRef spec2 2) : S1x256.Idx → EReal) = Gcn.row2 (a6 m c) (1 : Fin 3) := by
  refine (Stretch2.bg (W4 m ρ c)).trans ?_
  rw [W4_arg6]
theorem in2_3 (c : Dev nD) : (V5 m ρ c (Pipeline.arrRef spec2 3) : S256x256.Idx → EReal) = Gcn.mat3 (a7 m c) (1 : Fin 3) := by
  refine (Stretch2.w1 (W4 m ρ c)).trans ?_
  rw [W4_arg7]
theorem in2_4 (c : Dev nD) : (V5 m ρ c (Pipeline.arrRef spec2 4) : S1x256.Idx → EReal) = Gcn.row2 (a8 m c) (1 : Fin 3) := by
  refine (Stretch2.b1 (W4 m ρ c)).trans ?_
  rw [W4_arg8]

/-- The head's padded weights and bias row, at the columns the result keeps, are the head's arguments. -/
theorem padW1 (c : Dev nD) (k : Fin 256) (j : Fin 6) :
    (V5 m ρ c (Pipeline.arrRef spec2 5) : S256x128.Idx → EReal) (ix2 k (Fin.castLE (by decide) j)) = a11 m c (ix2 k j) :=
  (Stretch2.w2 (W4 m ρ c) k j).trans (congrFun (W4_arg11 m ρ c) _)
theorem padB1 (c : Dev nD) (j : Fin 6) :
    (V5 m ρ c (Pipeline.arrRef spec2 6) : S1x128.Idx → EReal) (ix2 (0 : Fin 1) (Fin.castLE (by decide) j)) = a12 m c (ix1 j) :=
  (Stretch2.b2 (W4 m ρ c) j).trans (congrFun (W4_arg12 m ρ c) _)

/-- What the region leaves in its first output: the next hidden array. -/
theorem prev2 (c : Dev nD) : (W6 m ρ c (Proc.devRef .tc main_v81_0) : S50000x256.Idx → EReal) = O1 m c := by
  refine (W6_arr m ρ c 7).trans ((Region2.final7 (V5 m ρ) c).trans ?_)
  unfold Region2.Y O1
  rw [in2_0, in2_1, in2_2]

/-- What the region leaves in its second output: the head over the padded weights. -/
theorem head1 (c : Dev nD) : (W6 m ρ c (Proc.devRef .tc main_v81_1) : S50000x128.Idx → EReal)
    = Gcn.affine (Gcn.denseRelu (O1 m c) (Gcn.mat3 (a7 m c) (1 : Fin 3)) (Gcn.row2 (a8 m c) (1 : Fin 3)))
        (V5 m ρ c (Pipeline.arrRef spec2 5) : S256x128.Idx → EReal) (V5 m ρ c (Pipeline.arrRef spec2 6) : S1x128.Idx → EReal) := by
  refine (W6_arr m ρ c 8).trans ((Region2.final8 (V5 m ρ) c).trans ?_)
  unfold Region2.Hd Region2.Y O1
  rw [in2_0, in2_1, in2_2, in2_3, in2_4]

/-! ## Layer 2 -/

theorem in3_0 (c : Dev nD) : (V7 m ρ c (Pipeline.arrRef spec3 0) : S50000x256.Idx → EReal) = spmmK (a1 m c) (a2 m c) (O1 m c) := by
  refine (Stretch3.agg (W6 m ρ c)).trans ?_
  rw [W6_arg1, W6_arg2, prev2]
theorem in3_1 (c : Dev nD) : (V7 m ρ c (Pipeline.arrRef spec3 1) : S256x256.Idx → EReal) = Gcn.mat3 (a5 m c) (2 : Fin 3) := by
  refine (Stretch3.wg (W6 m ρ c)).trans ?_
  rw [W6_arg5]
theorem in3_2 (c : Dev nD) : (V7 m ρ c (Pipeline.arrRef spec3 2) : S1x256.Idx → EReal) = Gcn.row2 (a6 m c) (2 : Fin 3) := by
  refine (Stretch3.bg (W6 m ρ c)).trans ?_
  rw [W6_arg6]
theorem in3_3 (c : Dev nD) : (V7 m ρ c (Pipeline.arrRef spec3 3) : S256x256.Idx → EReal) = Gcn.mat3 (a7 m c) (2 : Fin 3) := by
  refine (Stretch3.w1 (W6 m ρ c)).trans ?_
  rw [W6_arg7]
theorem in3_4 (c : Dev nD) : (V7 m ρ c (Pipeline.arrRef spec3 4) : S1x256.Idx → EReal) = Gcn.row2 (a8 m c) (2 : Fin 3) := by
  refine (Stretch3.b1 (W6 m ρ c)).trans ?_
  rw [W6_arg8]

/-- The head's padded weights and bias row, at the columns the result keeps, are the head's arguments. -/
theorem padW2 (c : Dev nD) (k : Fin 256) (j : Fin 21) :
    (V7 m ρ c (Pipeline.arrRef spec3 5) : S256x128.Idx → EReal) (ix2 k (Fin.castLE (by decide) j)) = a13 m c (ix2 k j) :=
  (Stretch3.w2 (W6 m ρ c) k j).trans (congrFun (W6_arg13 m ρ c) _)
theorem padB2 (c : Dev nD) (j : Fin 21) :
    (V7 m ρ c (Pipeline.arrRef spec3 6) : S1x128.Idx → EReal) (ix2 (0 : Fin 1) (Fin.castLE (by decide) j)) = a14 m c (ix1 j) :=
  (Stretch3.b2 (W6 m ρ c) j).trans (congrFun (W6_arg14 m ρ c) _)

/-- What the region leaves in its first output: the next hidden array. -/
theorem prev3 (c : Dev nD) : (W8 m ρ c (Proc.devRef .tc main_v121_0) : S50000x256.Idx → EReal) = O2 m c := by
  refine (W8_arr m ρ c 7).trans ((Region3.final7 (V7 m ρ) c).trans ?_)
  unfold Region3.Y O2
  rw [in3_0, in3_1, in3_2]

/-- What the region leaves in its second output: the head over the padded weights. -/
theorem head2 (c : Dev nD) : (W8 m ρ c (Proc.devRef .tc main_v121_1) : S50000x128.Idx → EReal)
    = Gcn.affine (Gcn.denseRelu (O2 m c) (Gcn.mat3 (a7 m c) (2 : Fin 3)) (Gcn.row2 (a8 m c) (2 : Fin 3)))
        (V7 m ρ c (Pipeline.arrRef spec3 5) : S256x128.Idx → EReal) (V7 m ρ c (Pipeline.arrRef spec3 6) : S1x128.Idx → EReal) := by
  refine (W8_arr m ρ c 8).trans ((Region3.final8 (V7 m ρ) c).trans ?_)
  unfold Region3.Hd Region3.Y O2
  rw [in3_0, in3_1, in3_2, in3_3, in3_4]

/-! ## The results -/

theorem res0_eq (c : Dev nD) (r : Fin 50000) (j : Fin 2) :
    (W9 m ρ c (Proc.devRef .tc main_v42) : S50000x2.Idx → EReal) (ix2 r j)
    = Gcn.affine (Gcn.denseRelu (O0 m c) (Gcn.mat3 (a7 m c) (0 : Fin 3)) (Gcn.row2 (a8 m c) (0 : Fin 3)))
        (V3 m ρ c (Pipeline.arrRef spec1 5) : S256x128.Idx → EReal) (V3 m ρ c (Pipeline.arrRef spec1 6) : S1x128.Idx → EReal) (ix2 r (Fin.castLE (by decide) j)) := by
  have e : W9 m ρ c (Proc.devRef .tc main_v42) = W5 m ρ c (Proc.devRef .tc main_v42) :=
    (Tail.keep0_4 (W8 m ρ c)).trans ((W8_of_ne m ρ c main_v42 (by decide)).trans ((Tail.keep0_3 (W6 m ρ c)).trans (W6_of_ne m ρ c main_v42 (by decide))))
  exact (congrFun e (ix2 r j)).trans ((Tail.res0 (W4 m ρ c) r j).trans (congrFun (head0 m ρ c) _))

theorem res1_eq (c : Dev nD) (r : Fin 50000) (j : Fin 6) :
    (W9 m ρ c (Proc.devRef .tc main_v82) : S50000x6.Idx → EReal) (ix2 r j)
    = Gcn.affine (Gcn.denseRelu (O1 m c) (Gcn.mat3 (a7 m c) (1 : Fin 3)) (Gcn.row2 (a8 m c) (1 : Fin 3)))
        (V5 m ρ c (Pipeline.arrRef spec2 5) : S256x128.Idx → EReal) (V5 m ρ c (Pipeline.arrRef spec2 6) : S1x128.Idx → EReal) (ix2 r (Fin.castLE (by decide) j)) := by
  have e : W9 m ρ c (Proc.devRef .tc main_v82) = W7 m ρ c (Proc.devRef .tc main_v82) :=
    (Tail.keep1_4 (W8 m ρ c)).trans (W8_of_ne m ρ c main_v82 (by decide))
  exact (congrFun e (ix2 r j)).trans ((Tail.res1 (W6 m ρ c) r j).trans (congrFun (head1 m ρ c) _))

theorem res2_eq (c : Dev nD) (r : Fin 50000) (j : Fin 21) :
    (W9 m ρ c (Proc.devRef .tc main_v122) : S50000x21.Idx → EReal) (ix2 r j)
    = Gcn.affine (Gcn.denseRelu (O2 m c) (Gcn.mat3 (a7 m c) (2 : Fin 3)) (Gcn.row2 (a8 m c) (2 : Fin 3)))
        (V7 m ρ c (Pipeline.arrRef spec3 5) : S256x128.Idx → EReal) (V7 m ρ c (Pipeline.arrRef spec3 6) : S1x128.Idx → EReal) (ix2 r (Fin.castLE (by decide) j)) :=
  (Tail.res2 (W8 m ρ c) r j).trans (congrFun (head2 m ρ c) _)

end Cert.KernelIdeal.Whole

end
-- ==== Proof.RefStages.lean ====
/-
  The reference program's dense stages, each read as one entry-by-entry formula over the extended reals.
  Between two neighbourhood sums the program is: a matrix product with one matrix of a stack, plus one row of a
  stack of biases broadcast over the rows, clamped below at zero; each layer's head is such a product and row
  without the clamp.  Operation by operation the program slices the stack (`[l:l+1]`), reshapes the slice away,
  broadcasts the bias twice, adds and takes the maximum with a broadcast zero; read at one entry `(p, q)` the
  index maps of these operations compose to "matrix `l`, row `k`, column `q`" and "bias row `l`, column `q`"
  (the reshape's `(k · 256 + q) / 256 % 256 = k` and `(k · 256 + q) % 256 = q` for `k, q < 256`).
  The neighbourhood sums themselves (`%21`, `%60`, `%99`) are not opened.
-/
import proofs.«124818_j45870250721840_2_alg».proof.Proof.Gen.ReferenceIdeal.Read
import proofs.«124818_j45870250721840_2_alg».proof.Proof.Spec

noncomputable section

open scoped BigOperators

namespace Cert.ReferenceIdeal.Stages

open Idealize.ShloMosaic Idealize.ShloMosaic.ValueIdx

/-- The input layer: `h0 = max (x0 · x3 + x4) 0`. -/
theorem s0 (x0 : (⟨S50000x128, .f32⟩ : BufTy).Contents (Elt Ideal)) (x3 : (⟨S128x256, .f32⟩ : BufTy).Contents (Elt Ideal)) (x4 : (⟨S256, .f32⟩ : BufTy).Contents (Elt Ideal)) :
    Read.val_main_v4 (F := Ideal) x0 x3 x4 = Gcn.denseRelu x0 x3 (Gcn.row1 x4) := by
  funext i
  obtain ⟨p, q, rfl⟩ : ∃ p q, i = ix2 p q := ⟨i 0, i 1, eq_ix2 i⟩
  rw [Read.val_main_v4_apply, Read.val_main_v3_apply, Read.val_main_v0_apply, Read.val_main_v2_apply, Read.val_main_v1_apply,
    Read.val_main_call0_v0_apply, Read.val_main_call0_cst_apply, Gcn.denseRelu_ix2]
  have el : ∀ k : Fin 128, Read.lidx_main_v0 (ix2 p q) k = ix2 p k := fun k => funext fun a => by
    match a with
    | ⟨0, _⟩ => rfl
    | ⟨1, _⟩ => rfl
  have er : ∀ k : Fin 128, Read.ridx_main_v0 (ix2 p q) k = ix2 k q := fun k => funext fun a => by
    match a with
    | ⟨0, _⟩ => rfl
    | ⟨1, _⟩ => rfl
  have eb : Read.idx_main_v1 (Read.idx_main_v2 (ix2 p q)) = ix1 q := funext fun a => by
    match a with
    | ⟨0, _⟩ => rfl
  simp only [el, er, eb, Ideal.maximumf_def, Ideal.addf_def, Ideal.ofBits_def, Ideal.ofBits_zero_f32]
  rfl

/-! ## Layer 0 -/

/-- Layer 0, first linear: `out_0 = max (A_0 · x5[0] + x6[0]) 0`, where `A_0` is the neighbourhood sum `%21` (left as it is). -/
theorem o0 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S3x256x256, .f32⟩ : BufTy).Contents (Elt Ideal)) (x6 : (⟨S3x256, .f32⟩ : BufTy).Contents (Elt Ideal)) :
    Read.val_main_v30 (F := Ideal) x0 x1 x2 x3 x4 x5 x6 = Gcn.denseRelu (Read.val_main_v21 (F := Ideal) x0 x1 x2 x3 x4) (Gcn.mat3 x5 0) (Gcn.row2 x6 0) := by
  funext i
  obtain ⟨p, q, rfl⟩ : ∃ p q, i = ix2 p q := ⟨i 0, i 1, eq_ix2 i⟩
  rw [Read.val_main_v30_apply, Read.val_main_v29_apply, Read.val_main_v24_apply, Read.val_main_v28_apply, Read.val_main_v27_apply,
    Read.val_main_v26_apply, Read.val_main_v25_apply, Read.val_main_call1_v0_apply, Read.val_main_call1_cst_apply, Gcn.denseRelu_ix2]
  simp only [Read.val_main_v23_apply, Read.val_main_v22_apply]
  have el : ∀ k : Fin 256, Read.lidx_main_v24 (ix2 p q) k = ix2 p k := fun k => funext fun a => by
    match a with
    | ⟨0, _⟩ => rfl
    | ⟨1, _⟩ => rfl
  have ew : ∀ k : Fin 256, Read.idx_main_v22 (Read.idx_main_v23 (Read.ridx_main_v24 (ix2 p q) k)) = ix3 (0 : Fin 3) k q :=
    fun k => funext fun a => Fin.ext (by
      have hk := k.isLt
      have hq := q.isLt
      match a with
      | ⟨0, _⟩ => rfl
      | ⟨1, _⟩ => show (k.val * 256 + q.val) / 256 % 256 = k.val; omega
      | ⟨2, _⟩ => show (k.val * 256 + q.val) % 256 = q.val; omega)
  have eb : Read.idx_main_v25 (Read.idx_main_v26 (Read.idx_main_v27 (Read.idx_main_v28 (ix2 p q)))) = ix2 (0 : Fin 3) q :=
    funext fun a => Fin.ext (by
      have hq := q.isLt
      match a with
      | ⟨0, _⟩ => rfl
      | ⟨1, _⟩ => show q.val % 256 = q.val; omega)
  simp only [el, ew, eb, Ideal.maximumf_def, Ideal.addf_def, Ideal.ofBits_def, Ideal.ofBits_zero_f32]
  rfl

/-- Layer 0, second linear: `hid_0 = max (out_0 · x7[0] + x8[0]) 0`, `out_0` the value `%30`. -/
theorem h0 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S3x256x256, .f32⟩ : BufTy).Contents (Elt Ideal)) (x6 : (⟨S3x256, .f32⟩ : BufTy).Contents (Elt Ideal)) (x7 : (⟨S3x256x256, .f32⟩ : BufTy).Contents (Elt Ideal)) (x8 : (⟨S3x256, .f32⟩ : BufTy).Contents (Elt Ideal)) :
    Read.val_main_v39 (F := Ideal) x0 x1 x2 x3 x4 x5 x6 x7 x8 = Gcn.denseRelu (Read.val_main_v30 (F := Ideal) x0 x1 x2 x3 x4 x5 x6) (Gcn.mat3 x7 0) (Gcn.row2 x8 0) := by
  funext i
  obtain ⟨p, q, rfl⟩ : ∃ p q, i = ix2 p q := ⟨i 0, i 1, eq_ix2 i⟩
  rw [Read.val_main_v39_apply, Read.val_main_v38_apply, Read.val_main_v33_apply, Read.val_main_v37_apply, Read.val_main_v36_apply,
    Read.val_main_v35_apply, Read.val_main_v34_apply, Read.val_main_call2_v0_apply, Read.val_main_call2_cst_apply, Gcn.denseRelu_ix2]
  simp only [Read.val_main_v32_apply, Read.val_main_v31_apply]
  have el : ∀ k : Fin 256, Read.lidx_main_v33 (ix2 p q) k = ix2 p k := fun k => funext fun a => by
    match a with
    | ⟨0, _⟩ => rfl
    | ⟨1, _⟩ => rfl
  have ew : ∀ k : Fin 256, Read.idx_main_v31 (Read.idx_main_v32 (Read.ridx_main_v33 (ix2 p q) k)) = ix3 (0 : Fin 3) k q :=
    fun k => funext fun a => Fin.ext (by
      have hk := k.isLt
      have hq := q.isLt
      match a with
      | ⟨0, _⟩ => rfl
      | ⟨1, _⟩ => show (k.val * 256 + q.val) / 256 % 256 = k.val; omega
      | ⟨2, _⟩ => show (k.val * 256 + q.val) % 256 = q.val; omega)
  have eb : Read.idx_main_v34 (Read.idx_main_v35 (Read.idx_main_v36 (Read.idx_main_v37 (ix2 p q)))) = ix2 (0 : Fin 3) q :=
    funext fun a => Fin.ext (by
      have hq := q.isLt
      match a with
      | ⟨0, _⟩ => rfl
      | ⟨1, _⟩ => show q.val % 256 = q.val; omega)
  simp only [el, ew, eb, Ideal.maximumf_def, Ideal.addf_def, Ideal.ofBits_def, Ideal.ofBits_zero_f32]
  rfl

/-- Layer 0's head at a column `j < 2`: `hid_0 · x9 + x10` there is `hid_0 · Wp + bp` at the same column, for any `[256, 128]` matrix and `[1, 128]` row that agree with `x9` and `x10` on the first 2 columns (the columns past them are never read). -/
theorem r0 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S3x256x256, .f32⟩ : BufTy).Contents (Elt Ideal)) (x6 : (⟨S3x256, .f32⟩ : BufTy).Contents (Elt Ideal)) (x7 : (⟨S3x256x256, .f32⟩ : BufTy).Contents (Elt Ideal)) (x8 : (⟨S3x256, .f32⟩ : BufTy).Contents (Elt Ideal)) (x9 : (⟨S256x2, .f32⟩ : BufTy).Contents (Elt Ideal)) (x10 : (⟨S2, .f32⟩ : BufTy).Contents (Elt Ideal))
    (Wp : (⟨2, ![256, 128]⟩ : Shape).Idx → EReal) (bp : (⟨2, ![1, 128]⟩ : Shape).Idx → EReal)
    (hW : ∀ (k : Fin 256) (j : Fin 2), Wp (ix2 k (Fin.castLE (by decide) j)) = x9 (ix2 k j))
    (hb : ∀ j : Fin 2, bp (ix2 (0 : Fin 1) (Fin.castLE (by decide) j)) = x10 (ix1 j))
    (r : Fin 50000) (j : Fin 2) :
    Read.val_main_v43 (F := Ideal) x0 x1 x2 x3 x4 x5 x6 x7 x8 x9 x10 (ix2 r j)
      = Gcn.affine (Gcn.denseRelu (Read.val_main_v30 (F := Ideal) x0 x1 x2 x3 x4 x5 x6) (Gcn.mat3 x7 0) (Gcn.row2 x8 0)) Wp bp
          (ix2 r (Fin.castLE (by decide) j)) := by
  rw [Gcn.affine_ix2, ← h0 x0 x1 x2 x3 x4 x5 x6 x7 x8, Read.val_main_v43_apply, Read.val_main_v40_apply,
    Read.val_main_v42_apply, Read.val_main_v41_apply]
  have el : ∀ k : Fin 256, Read.lidx_main_v40 (ix2 r j) k = ix2 r k := fun k => funext fun a => by
    match a with
    | ⟨0, _⟩ => rfl
    | ⟨1, _⟩ => rfl
  have er : ∀ k : Fin 256, Read.ridx_main_v40 (ix2 r j) k = ix2 k j := fun k => funext fun a => by
    match a with
    | ⟨0, _⟩ => rfl
    | ⟨1, _⟩ => rfl
  have eb : Read.idx_main_v41 (Read.idx_main_v42 (ix2 r j)) = ix1 j := funext fun a => by
    match a with
    | ⟨0, _⟩ => rfl
  simp only [el, er, eb, Ideal.addf_def, hW, hb]

/-! ## Layer 1 -/

/-- Layer 1, first linear: `out_1 = max (A_1 · x5[1] + x6[1]) 0`, where `A_1` is the neighbourhood sum `%60` (left as it is). -/
theorem o1 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S3x256x256, .f32⟩ : BufTy).Contents (Elt Ideal)) (x6 : (⟨S3x256, .f32⟩ : BufTy).Contents (Elt Ideal)) :
    Read.val_main_v69 (F := Ideal) x0 x1 x2 x3 x4 x5 x6 = Gcn.denseRelu (Read.val_main_v60 (F := Ideal) x0 x1 x2 x3 x4 x5 x6) (Gcn.mat3 x5 1) (Gcn.row2 x6 1) := by
  funext i
  obtain ⟨p, q, rfl⟩ : ∃ p q, i = ix2 p q := ⟨i 0, i 1, eq_ix2 i⟩
  rw [Read.val_main_v69_apply, Read.val_main_v68_apply, Read.val_main_v63_apply, Read.val_main_v67_apply, Read.val_main_v66_apply,
    Read.val_main_v65_apply, Read.val_main_v64_apply, Read.val_main_call3_v0_apply, Read.val_main_call3_cst_apply, Gcn.denseRelu_ix2]
  simp only [Read.val_main_v62_apply, Read.val_main_v61_apply]
  have el : ∀ k : Fin 256, Read.lidx_main_v63 (ix2 p q) k = ix2 p k := fun k => funext fun a => by
    match a with
    | ⟨0, _⟩ => rfl
    | ⟨1, _⟩ => rfl
  have ew : ∀ k : Fin 256, Read.idx_main_v61 (Read.idx_main_v62 (Read.ridx_main_v63 (ix2 p q) k)) = ix3 (1 : Fin 3) k q :=
    fun k => funext fun a => Fin.ext (by
      have hk := k.isLt
      have hq := q.isLt
      match a with
      | ⟨0, _⟩ => rfl
      | ⟨1, _⟩ => show (k.val * 256 + q.val) / 256 % 256 = k.val; omega
      | ⟨2, _⟩ => show (k.val * 256 + q.val) % 256 = q.val; omega)
  have eb : Read.idx_main_v64 (Read.idx_main_v65 (Read.idx_main_v66 (Read.idx_main_v67 (ix2 p q)))) = ix2 (1 : Fin 3) q :=
    funext fun a => Fin.ext (by
      have hq := q.isLt
      match a with
      | ⟨0, _⟩ => rfl
      | ⟨1, _⟩ => show q.val % 256 = q.val; omega)
  simp only [el, ew, eb, Ideal.maximumf_def, Ideal.addf_def, Ideal.ofBits_def, Ideal.ofBits_zero_f32]
  rfl

/-- Layer 1, second linear: `hid_1 = max (out_1 · x7[1] + x8[1]) 0`, `out_1` the value `%69`. -/
theorem h1 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S3x256x256, .f32⟩ : BufTy).Contents (Elt Ideal)) (x6 : (⟨S3x256, .f32⟩ : BufTy).Contents (Elt Ideal)) (x7 : (⟨S3x256x256, .f32⟩ : BufTy).Contents (Elt Ideal)) (x8 : (⟨S3x256, .f32⟩ : BufTy).Contents (Elt Ideal)) :
    Read.val_main_v78 (F := Ideal) x0 x1 x2 x3 x4 x5 x6 x7 x8 = Gcn.denseRelu (Read.val_main_v69 (F := Ideal) x0 x1 x2 x3 x4 x5 x6) (Gcn.mat3 x7 1) (Gcn.row2 x8 1) := by
  funext i
  obtain ⟨p, q, rfl⟩ : ∃ p q, i = ix2 p q := ⟨i 0, i 1, eq_ix2 i⟩
  rw [Read.val_main_v78_apply, Read.val_main_v77_apply, Read.val_main_v72_apply, Read.val_main_v76_apply, Read.val_main_v75_apply,
    Read.val_main_v74_apply, Read.val_main_v73_apply, Read.val_main_call4_v0_apply, Read.val_main_call4_cst_apply, Gcn.denseRelu_ix2]
  simp only [Read.val_main_v71_apply, Read.val_main_v70_apply]
  have el : ∀ k : Fin 256, Read.lidx_main_v72 (ix2 p q) k = ix2 p k := fun k => funext fun a => by
    match a with
    | ⟨0, _⟩ => rfl
    | ⟨1, _⟩ => rfl
  have ew : ∀ k : Fin 256, Read.idx_main_v70 (Read.idx_main_v71 (Read.ridx_main_v72 (ix2 p q) k)) = ix3 (1 : Fin 3) k q :=
    fun k => funext fun a => Fin.ext (by
      have hk := k.isLt
      have hq := q.isLt
      match a with
      | ⟨0, _⟩ => rfl
      | ⟨1, _⟩ => show (k.val * 256 + q.val) / 256 % 256 = k.val; omega
      | ⟨2, _⟩ => show (k.val * 256 + q.val) % 256 = q.val; omega)
  have eb : Read.idx_main_v73 (Read.idx_main_v74 (Read.idx_main_v75 (Read.idx_main_v76 (ix2 p q)))) = ix2 (1 : Fin 3) q :=
    funext fun a => Fin.ext (by
      have hq := q.isLt
      match a with
      | ⟨0, _⟩ => rfl
      | ⟨1, _⟩ => show q.val % 256 = q.val; omega)
  simp only [el, ew, eb, Ideal.maximumf_def, Ideal.addf_def, Ideal.ofBits_def, Ideal.ofBits_zero_f32]
  rfl

/-- Layer 1's head at a column `j < 6`: `hid_1 · x11 + x12` there is `hid_1 · Wp + bp` at the same column, for any `[256, 128]` matrix and `[1, 128]` row that agree with `x11` and `x12` on the first 6 columns (the columns past them are never read). -/
theorem r1 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S3x256x256, .f32⟩ : BufTy).Contents (Elt Ideal)) (x6 : (⟨S3x256, .f32⟩ : BufTy).Contents (Elt Ideal)) (x7 : (⟨S3x256x256, .f32⟩ : BufTy).Contents (Elt Ideal)) (x8 : (⟨S3x256, .f32⟩ : BufTy).Contents (Elt Ideal)) (x11 : (⟨S256x6, .f32⟩ : BufTy).Contents (Elt Ideal)) (x12 : (⟨S6, .f32⟩ : BufTy).Contents (Elt Ideal))
    (Wp : (⟨2, ![256, 128]⟩ : Shape).Idx → EReal) (bp : (⟨2, ![1, 128]⟩ : Shape).Idx → EReal)
    (hW : ∀ (k : Fin 256) (j : Fin 6), Wp (ix2 k (Fin.castLE (by decide) j)) = x11 (ix2 k j))
    (hb : ∀ j : Fin 6, bp (ix2 (0 : Fin 1) (Fin.castLE (by decide) j)) = x12 (ix1 j))
    (r : Fin 50000) (j : Fin 6) :
    Read.val_main_v82 (F := Ideal) x0 x1 x2 x3 x4 x5 x6 x7 x8 x11 x12 (ix2 r j)
      = Gcn.affine (Gcn.denseRelu (Read.val_main_v69 (F := Ideal) x0 x1 x2 x3 x4 x5 x6) (Gcn.mat3 x7 1) (Gcn.row2 x8 1)) Wp bp
          (ix2 r (Fin.castLE (by decide) j)) := by
  rw [Gcn.affine_ix2, ← h1 x0 x1 x2 x3 x4 x5 x6 x7 x8, Read.val_main_v82_apply, Read.val_main_v79_apply,
    Read.val_main_v81_apply, Read.val_main_v80_apply]
  have el : ∀ k : Fin 256, Read.lidx_main_v79 (ix2 r j) k = ix2 r k := fun k => funext fun a => by
    match a with
    | ⟨0, _⟩ => rfl
    | ⟨1, _⟩ => rfl
  have er : ∀ k : Fin 256, Read.ridx_main_v79 (ix2 r j) k = ix2 k j := fun k => funext fun a => by
    match a with
    | ⟨0, _⟩ => rfl
    | ⟨1, _⟩ => rfl
  have eb : Read.idx_main_v80 (Read.idx_main_v81 (ix2 r j)) = ix1 j := funext fun a => by
    match a with
    | ⟨0, _⟩ => rfl
  simp only [el, er, eb, Ideal.addf_def, hW, hb]

/-! ## Layer 2 -/

/-- Layer 2, first linear: `out_2 = max (A_2 · x5[2] + x6[2]) 0`, where `A_2` is the neighbourhood sum `%99` (left as it is). -/
theorem o2 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S3x256x256, .f32⟩ : BufTy).Contents (Elt Ideal)) (x6 : (⟨S3x256, .f32⟩ : BufTy).Contents (Elt Ideal)) :
    Read.val_main_v108 (F := Ideal) x0 x1 x2 x3 x4 x5 x6 = Gcn.denseRelu (Read.val_main_v99 (F := Ideal) x0 x1 x2 x3 x4 x5 x6) (Gcn.mat3 x5 2) (Gcn.row2 x6 2) := by
  funext i
  obtain ⟨p, q, rfl⟩ : ∃ p q, i = ix2 p q := ⟨i 0, i 1, eq_ix2 i⟩
  rw [Read.val_main_v108_apply, Read.val_main_v107_apply, Read.val_main_v102_apply, Read.val_main_v106_apply, Read.val_main_v105_apply,
    Read.val_main_v104_apply, Read.val_main_v103_apply, Read.val_main_call5_v0_apply, Read.val_main_call5_cst_apply, Gcn.denseRelu_ix2]
  simp only [Read.val_main_v101_apply, Read.val_main_v100_apply]
  have el : ∀ k : Fin 256, Read.lidx_main_v102 (ix2 p q) k = ix2 p k := fun k => funext fun a => by
    match a with
    | ⟨0, _⟩ => rfl
    | ⟨1, _⟩ => rfl
  have ew : ∀ k : Fin 256, Read.idx_main_v100 (Read.idx_main_v101 (Read.ridx_main_v102 (ix2 p q) k)) = ix3 (2 : Fin 3) k q :=
    fun k => funext fun a => Fin.ext (by
      have hk := k.isLt
      have hq := q.isLt
      match a with
      | ⟨0, _⟩ => rfl
      | ⟨1, _⟩ => show (k.val * 256 + q.val) / 256 % 256 = k.val; omega
      | ⟨2, _⟩ => show (k.val * 256 + q.val) % 256 = q.val; omega)
  have eb : Read.idx_main_v103 (Read.idx_main_v104 (Read.idx_main_v105 (Read.idx_main_v106 (ix2 p q)))) = ix2 (2 : Fin 3) q :=
    funext fun a => Fin.ext (by
      have hq := q.isLt
      match a with
      | ⟨0, _⟩ => rfl
      | ⟨1, _⟩ => show q.val % 256 = q.val; omega)
  simp only [el, ew, eb, Ideal.maximumf_def, Ideal.addf_def, Ideal.ofBits_def, Ideal.ofBits_zero_f32]
  rfl

/-- Layer 2, second linear: `hid_2 = max (out_2 · x7[2] + x8[2]) 0`, `out_2` the value `%108`. -/
theorem h2 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S3x256x256, .f32⟩ : BufTy).Contents (Elt Ideal)) (x6 : (⟨S3x256, .f32⟩ : BufTy).Contents (Elt Ideal)) (x7 : (⟨S3x256x256, .f32⟩ : BufTy).Contents (Elt Ideal)) (x8 : (⟨S3x256, .f32⟩ : BufTy).Contents (Elt Ideal)) :
    Read.val_main_v117 (F := Ideal) x0 x1 x2 x3 x4 x5 x6 x7 x8 = Gcn.denseRelu (Read.val_main_v108 (F := Ideal) x0 x1 x2 x3 x4 x5 x6) (Gcn.mat3 x7 2) (Gcn.row2 x8 2) := by
  funext i
  obtain ⟨p, q, rfl⟩ : ∃ p q, i = ix2 p q := ⟨i 0, i 1, eq_ix2 i⟩
  rw [Read.val_main_v117_apply, Read.val_main_v116_apply, Read.val_main_v111_apply, Read.val_main_v115_apply, Read.val_main_v114_apply,
    Read.val_main_v113_apply, Read.val_main_v112_apply, Read.val_main_call6_v0_apply, Read.val_main_call6_cst_apply, Gcn.denseRelu_ix2]
  simp only [Read.val_main_v110_apply, Read.val_main_v109_apply]
  have el : ∀ k : Fin 256, Read.lidx_main_v111 (ix2 p q) k = ix2 p k := fun k => funext fun a => by
    match a with
    | ⟨0, _⟩ => rfl
    | ⟨1, _⟩ => rfl
  have ew : ∀ k : Fin 256, Read.idx_main_v109 (Read.idx_main_v110 (Read.ridx_main_v111 (ix2 p q) k)) = ix3 (2 : Fin 3) k q :=
    fun k => funext fun a => Fin.ext (by
      have hk := k.isLt
      have hq := q.isLt
      match a with
      | ⟨0, _⟩ => rfl
      | ⟨1, _⟩ => show (k.val * 256 + q.val) / 256 % 256 = k.val; omega
      | ⟨2, _⟩ => show (k.val * 256 + q.val) % 256 = q.val; omega)
  have eb : Read.idx_main_v112 (Read.idx_main_v113 (Read.idx_main_v114 (Read.idx_main_v115 (ix2 p q)))) = ix2 (2 : Fin 3) q :=
    funext fun a => Fin.ext (by
      have hq := q.isLt
      match a with
      | ⟨0, _⟩ => rfl
      | ⟨1, _⟩ => show q.val % 256 = q.val; omega)
  simp only [el, ew, eb, Ideal.maximumf_def, Ideal.addf_def, Ideal.ofBits_def, Ideal.ofBits_zero_f32]
  rfl

/-- Layer 2's head at a column `j < 21`: `hid_2 · x13 + x14` there is `hid_2 · Wp + bp` at the same column, for any `[256, 128]` matrix and `[1, 128]` row that agree with `x13` and `x14` on the first 21 columns (the columns past them are never read). -/
theorem r2 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S3x256x256, .f32⟩ : BufTy).Contents (Elt Ideal)) (x6 : (⟨S3x256, .f32⟩ : BufTy).Contents (Elt Ideal)) (x7 : (⟨S3x256x256, .f32⟩ : BufTy).Contents (Elt Ideal)) (x8 : (⟨S3x256, .f32⟩ : BufTy).Contents (Elt Ideal)) (x13 : (⟨S256x21, .f32⟩ : BufTy).Contents (Elt Ideal)) (x14 : (⟨S21, .f32⟩ : BufTy).Contents (Elt Ideal))
    (Wp : (⟨2, ![256, 128]⟩ : Shape).Idx → EReal) (bp : (⟨2, ![1, 128]⟩ : Shape).Idx → EReal)
    (hW : ∀ (k : Fin 256) (j : Fin 21), Wp (ix2 k (Fin.castLE (by decide) j)) = x13 (ix2 k j))
    (hb : ∀ j : Fin 21, bp (ix2 (0 : Fin 1) (Fin.castLE (by decide) j)) = x14 (ix1 j))
    (r : Fin 50000) (j : Fin 21) :
    Read.val_main_v121 (F := Ideal) x0 x1 x2 x3 x4 x5 x6 x7 x8 x13 x14 (ix2 r j)
      = Gcn.affine (Gcn.denseRelu (Read.val_main_v108 (F := Ideal) x0 x1 x2 x3 x4 x5 x6) (Gcn.mat3 x7 2) (Gcn.row2 x8 2)) Wp bp
          (ix2 r (Fin.castLE (by decide) j)) := by
  rw [Gcn.affine_ix2, ← h2 x0 x1 x2 x3 x4 x5 x6 x7 x8, Read.val_main_v121_apply, Read.val_main_v118_apply,
    Read.val_main_v120_apply, Read.val_main_v119_apply]
  have el : ∀ k : Fin 256, Read.lidx_main_v118 (ix2 r j) k = ix2 r k := fun k => funext fun a => by
    match a with
    | ⟨0, _⟩ => rfl
    | ⟨1, _⟩ => rfl
  have er : ∀ k : Fin 256, Read.ridx_main_v118 (ix2 r j) k = ix2 k j := fun k => funext fun a => by
    match a with
    | ⟨0, _⟩ => rfl
    | ⟨1, _⟩ => rfl
  have eb : Read.idx_main_v119 (Read.idx_main_v120 (ix2 r j)) = ix1 j := funext fun a => by
    match a with
    | ⟨0, _⟩ => rfl
  simp only [el, er, eb, Ideal.addf_def, hW, hb]

end Cert.ReferenceIdeal.Stages

end
-- ==== Proof.Bridge.lean ====
/-
  The two programs compute the same three arrays.

  The reference's stages are read against the same named hidden arrays as the kernel's run: its input layer is
  `H0`; its neighbourhood sums are the very host operations the kernel's program applies, so equal hidden arrays
  give equal sums; each of its layers' first linears gives `O_l`; and its heads are the kernel's heads, because the
  kernel's padded head weights and bias agree with the reference's on the columns that are kept, and the padding
  columns are never read.
-/
import proofs.«124818_j45870250721840_2_alg».proof.Proof.Chain
import proofs.«124818_j45870250721840_2_alg».proof.Proof.RefStages

set_option maxRecDepth 16384
set_option maxHeartbeats 2000000

noncomputable section

namespace Cert.KernelIdeal.Whole

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The reference's hidden arrays -/

theorem refH0 (c : Dev nD) : Cert.ReferenceIdeal.Read.val_main_v4 (F := Ideal) (a0 m c) (a3 m c) (a4 m c) = H0 m c := by
  unfold H0
  exact Cert.ReferenceIdeal.Stages.s0 _ _ _

theorem refAgg0 (c : Dev nD) : Cert.ReferenceIdeal.Read.val_main_v21 (F := Ideal) (a0 m c) (a1 m c) (a2 m c) (a3 m c) (a4 m c) = spmmK (a1 m c) (a2 m c) (H0 m c) := by
  have e : Cert.ReferenceIdeal.Read.val_main_v21 (F := Ideal) (a0 m c) (a1 m c) (a2 m c) (a3 m c) (a4 m c)
      = spmmK (a1 m c) (a2 m c) (Cert.ReferenceIdeal.Read.val_main_v4 (F := Ideal) (a0 m c) (a3 m c) (a4 m c)) := rfl
  rw [e, refH0]

theorem refO0 (c : Dev nD) : Cert.ReferenceIdeal.Read.val_main_v30 (F := Ideal) (a0 m c) (a1 m c) (a2 m c) (a3 m c) (a4 m c) (a5 m c) (a6 m c) = O0 m c := by
  unfold O0
  rw [Cert.ReferenceIdeal.Stages.o0, refAgg0]

theorem refAgg1 (c : Dev nD) : Cert.ReferenceIdeal.Read.val_main_v60 (F := Ideal) (a0 m c) (a1 m c) (a2 m c) (a3 m c) (a4 m c) (a5 m c) (a6 m c) = spmmK (a1 m c) (a2 m c) (O0 m c) := by
  have e : Cert.ReferenceIdeal.Read.val_main_v60 (F := Ideal) (a0 m c) (a1 m c) (a2 m c) (a3 m c) (a4 m c) (a5 m c) (a6 m c)
      = spmmK (a1 m c) (a2 m c) (Cert.ReferenceIdeal.Read.val_main_v30 (F := Ideal) (a0 m c) (a1 m c) (a2 m c) (a3 m c) (a4 m c) (a5 m c) (a6 m c)) := rfl
  rw [e, refO0]

theorem refO1 (c : Dev nD) : Cert.ReferenceIdeal.Read.val_main_v69 (F := Ideal) (a0 m c) (a1 m c) (a2 m c) (a3 m c) (a4 m c) (a5 m c) (a6 m c) = O1 m c := by
  unfold O1
  rw [Cert.ReferenceIdeal.Stages.o1, refAgg1]

theorem refAgg2 (c : Dev nD) : Cert.ReferenceIdeal.Read.val_main_v99 (F := Ideal) (a0 m c) (a1 m c) (a2 m c) (a3 m c) (a4 m c) (a5 m c) (a6 m c) = spmmK (a1 m c) (a2 m c) (O1 m c) := by
  have e : Cert.ReferenceIdeal.Read.val_main_v99 (F := Ideal) (a0 m c) (a1 m c) (a2 m c) (a3 m c) (a4 m c) (a5 m c) (a6 m c)
      = spmmK (a1 m c) (a2 m c) (Cert.ReferenceIdeal.Read.val_main_v69 (F := Ideal) (a0 m c) (a1 m c) (a2 m c) (a3 m c) (a4 m c) (a5 m c) (a6 m c)) := rfl
  rw [e, refO1]

theorem refO2 (c : Dev nD) : Cert.ReferenceIdeal.Read.val_main_v108 (F := Ideal) (a0 m c) (a1 m c) (a2 m c) (a3 m c) (a4 m c) (a5 m c) (a6 m c) = O2 m c := by
  unfold O2
  rw [Cert.ReferenceIdeal.Stages.o2, refAgg2]

/-! ## The three results -/

theorem out0 (c : Dev nD) : (W9 m ρ c (Proc.devRef .tc main_v42) : S50000x2.Idx → EReal)
    = Cert.ReferenceIdeal.Read.val_main_v43 (F := Ideal) (a0 m c) (a1 m c) (a2 m c) (a3 m c) (a4 m c) (a5 m c) (a6 m c) (a7 m c) (a8 m c) (a9 m c) (a10 m c) := by
  funext i
  obtain ⟨r, j, rfl⟩ : ∃ (r : Fin 50000) (j : Fin 2), i = ix2 r j := ⟨i 0, i 1, eq_ix2 i⟩
  refine (res0_eq m ρ c r j).trans ?_
  rw [Cert.ReferenceIdeal.Stages.r0 (a0 m c) (a1 m c) (a2 m c) (a3 m c) (a4 m c) (a5 m c) (a6 m c) (a7 m c) (a8 m c) (a9 m c) (a10 m c) (V3 m ρ c (Pipeline.arrRef spec1 5)) (V3 m ρ c (Pipeline.arrRef spec1 6))
    (padW0 m ρ c) (padB0 m ρ c) r j, refO0]

theorem out1 (c : Dev nD) : (W9 m ρ c (Proc.devRef .tc main_v82) : S50000x6.Idx → EReal)
    = Cert.ReferenceIdeal.Read.val_main_v82 (F := Ideal) (a0 m c) (a1 m c) (a2 m c) (a3 m c) (a4 m c) (a5 m c) (a6 m c) (a7 m c) (a8 m c) (a11 m c) (a12 m c) := by
  funext i
  obtain ⟨r, j, rfl⟩ : ∃ (r : Fin 50000) (j : Fin 6), i = ix2 r j := ⟨i 0, i 1, eq_ix2 i⟩
  refine (res1_eq m ρ c r j).trans ?_
  rw [Cert.ReferenceIdeal.Stages.r1 (a0 m c) (a1 m c) (a2 m c) (a3 m c) (a4 m c) (a5 m c) (a6 m c) (a7 m c) (a8 m c) (a11 m c) (a12 m c) (V5 m ρ c (Pipeline.arrRef spec2 5)) (V5 m ρ c (Pipeline.arrRef spec2 6))
    (padW1 m ρ c) (padB1 m ρ c) r j, refO1]

theorem out2 (c : Dev nD) : (W9 m ρ c (Proc.devRef .tc main_v122) : S50000x21.Idx → EReal)
    = Cert.ReferenceIdeal.Read.val_main_v121 (F := Ideal) (a0 m c) (a1 m c) (a2 m c) (a3 m c) (a4 m c) (a5 m c) (a6 m c) (a7 m c) (a8 m c) (a13 m c) (a14 m c) := by
  funext i
  obtain ⟨r, j, rfl⟩ : ∃ (r : Fin 50000) (j : Fin 21), i = ix2 r j := ⟨i 0, i 1, eq_ix2 i⟩
  refine (res2_eq m ρ c r j).trans ?_
  rw [Cert.ReferenceIdeal.Stages.r2 (a0 m c) (a1 m c) (a2 m c) (a3 m c) (a4 m c) (a5 m c) (a6 m c) (a7 m c) (a8 m c) (a13 m c) (a14 m c) (V7 m ρ c (Pipeline.arrRef spec3 5)) (V7 m ρ c (Pipeline.arrRef spec3 6))
    (padW2 m ρ c) (padB2 m ρ c) r j, refO2]

end Cert.KernelIdeal.Whole

end
-- ==== Proof.lean ====
/-
  The certificate of a three-layer graph convolution network's forward pass.

  The kernel's program computes, on a TPU, `H = relu (X · W1 + b1)` in one pipelined region, and then three times:
  the neighbourhood sum `A[d] = Σ_{edges e into d} weight[e] · H[src[e]]` on the host, and in one pipelined region
  `H := relu (A · Wg + bg)`, `h = relu (H · Wm1 + bm1)` and the head `h · Wm2 + bm2`, whose weights and bias are
  zero-padded from n to 128 columns before the region and whose result is cut back to n columns after it
  (n = 2, 6, 21).  The reference computes the same network with whole-array operations.

  At the ideal instance a change of float format is the identity, each matrix product is the exact sum over the
  shared axis, and the rectifier is `max · 0`; the two programs then differ only in that the kernel works on row
  tiles of 2000 rows — every stage acts on rows independently, and the 25 tiles cover the 50000 rows — and in the
  padding columns, which multiply nothing that is kept.  The neighbourhood sums are the same host operations in both
  programs, applied to equal hidden arrays.  No finiteness of the inputs is used.

  The frames of the two kernel programs are the generated frame certificates; the reference's frame and values are
  its generated run; the kernel's values are read off the run of its chain of regions and host stretches.
-/
import proofs.«124818_j45870250721840_2_alg».proof.Defs
import proofs.«124818_j45870250721840_2_alg».proof.Proof.Gen.Kernel
import proofs.«124818_j45870250721840_2_alg».proof.Proof.Gen.Kernel.Skeleton
import proofs.«124818_j45870250721840_2_alg».proof.Proof.Gen.Kernel.Launch
import proofs.«124818_j45870250721840_2_alg».proof.Proof.Gen.Kernel.Points
import proofs.«124818_j45870250721840_2_alg».proof.Proof.Gen.Kernel.Frame
import proofs.«124818_j45870250721840_2_alg».proof.Proof.Gen.KernelIdeal
import proofs.«124818_j45870250721840_2_alg».proof.Proof.Gen.KernelIdeal.Skeleton
import proofs.«124818_j45870250721840_2_alg».proof.Proof.Gen.KernelIdeal.Launch
import proofs.«124818_j45870250721840_2_alg».proof.Proof.Gen.KernelIdeal.Points
import proofs.«124818_j45870250721840_2_alg».proof.Proof.Gen.KernelIdeal.Frame
import proofs.«124818_j45870250721840_2_alg».proof.Proof.Gen.ReferenceIdeal
import proofs.«124818_j45870250721840_2_alg».proof.Proof.Gen.Pre_finite_inputs
import proofs.«124818_j45870250721840_2_alg».proof.Proof.Gen.ReferenceIdeal.Run
import proofs.«124818_j45870250721840_2_alg».proof.Proof.Gen.ReferenceIdeal.Read
import proofs.«124818_j45870250721840_2_alg».proof.Proof.Bridge
import Idealize.ShloMosaic.Adequacy
import Idealize.ShloMosaic.Init

set_option maxRecDepth 16384
set_option maxHeartbeats 2000000

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation of the kernel. -/
theorem preserves : Cert.preserves_Kernel_KernelIdeal := trivial

/-- Both programs end with the same three arrays: the kernel's run leaves each result at the contents its chain of
    regions and host stretches computes, the reference's run at its composed term, and those are equal functions
    of arguments that agree. -/
theorem algebraic : Cert.algebraic_KernelIdeal_ReferenceIdeal := by
  intro m ρ m' ρ' _ hagree
  refine ⟨fun c => Cert.KernelIdeal.Gen.W9 m ρ c (Proc.devRef .tc Cert.KernelIdeal.main_v42), fun c => Cert.KernelIdeal.Gen.W9 m ρ c (Proc.devRef .tc Cert.KernelIdeal.main_v82),
    fun c => Cert.KernelIdeal.Gen.W9 m ρ c (Proc.devRef .tc Cert.KernelIdeal.main_v122), ?_, ?_⟩
  · exact (θ_run Cert.KernelIdeal.defs _ _).mono (fun r h c =>
      ⟨h c _ (Cert.KernelIdeal.Gen.mem_uc Cert.KernelIdeal.main_v42 (by decide)),
       h c _ (Cert.KernelIdeal.Gen.mem_uc Cert.KernelIdeal.main_v82 (by decide)),
       h c _ (Cert.KernelIdeal.Gen.mem_uc Cert.KernelIdeal.main_v122 (by decide)),
       (h c _ (Cert.KernelIdeal.Gen.mem_uc Cert.KernelIdeal.main_arg0 (by decide))).trans (Cert.KernelIdeal.Gen.W9_main_arg0 m ρ c),
       (h c _ (Cert.KernelIdeal.Gen.mem_uc Cert.KernelIdeal.main_arg1 (by decide))).trans (Cert.KernelIdeal.Gen.W9_main_arg1 m ρ c),
       (h c _ (Cert.KernelIdeal.Gen.mem_uc Cert.KernelIdeal.main_arg2 (by decide))).trans (Cert.KernelIdeal.Gen.W9_main_arg2 m ρ c),
       (h c _ (Cert.KernelIdeal.Gen.mem_uc Cert.KernelIdeal.main_arg3 (by decide))).trans (Cert.KernelIdeal.Gen.W9_main_arg3 m ρ c),
       (h c _ (Cert.KernelIdeal.Gen.mem_uc Cert.KernelIdeal.main_arg4 (by decide))).trans (Cert.KernelIdeal.Gen.W9_main_arg4 m ρ c),
       (h c _ (Cert.KernelIdeal.Gen.mem_uc Cert.KernelIdeal.main_arg5 (by decide))).trans (Cert.KernelIdeal.Gen.W9_main_arg5 m ρ c),
       (h c _ (Cert.KernelIdeal.Gen.mem_uc Cert.KernelIdeal.main_arg6 (by decide))).trans (Cert.KernelIdeal.Gen.W9_main_arg6 m ρ c),
       (h c _ (Cert.KernelIdeal.Gen.mem_uc Cert.KernelIdeal.main_arg7 (by decide))).trans (Cert.KernelIdeal.Gen.W9_main_arg7 m ρ c),
       (h c _ (Cert.KernelIdeal.Gen.mem_uc Cert.KernelIdeal.main_arg8 (by decide))).trans (Cert.KernelIdeal.Gen.W9_main_arg8 m ρ c),
       (h c _ (Cert.KernelIdeal.Gen.mem_uc Cert.KernelIdeal.main_arg9 (by decide))).trans (Cert.KernelIdeal.Gen.W9_main_arg9 m ρ c),
       (h c _ (Cert.KernelIdeal.Gen.mem_uc Cert.KernelIdeal.main_arg10 (by decide))).trans (Cert.KernelIdeal.Gen.W9_main_arg10 m ρ c),
       (h c _ (Cert.KernelIdeal.Gen.mem_uc Cert.KernelIdeal.main_arg11 (by decide))).trans (Cert.KernelIdeal.Gen.W9_main_arg11 m ρ c),
       (h c _ (Cert.KernelIdeal.Gen.mem_uc Cert.KernelIdeal.main_arg12 (by decide))).trans (Cert.KernelIdeal.Gen.W9_main_arg12 m ρ c),
       (h c _ (Cert.KernelIdeal.Gen.mem_uc Cert.KernelIdeal.main_arg13 (by decide))).trans (Cert.KernelIdeal.Gen.W9_main_arg13 m ρ c),
       (h c _ (Cert.KernelIdeal.Gen.mem_uc Cert.KernelIdeal.main_arg14 (by decide))).trans (Cert.KernelIdeal.Gen.W9_main_arg14 m ρ c)⟩) (Cert.KernelIdeal.Whole.run_all m ρ)
  · refine (θ_run Cert.ReferenceIdeal.defs _ _).mono (fun r h c => ?_) (Cert.ReferenceIdeal.Value.run (F := Ideal) m' ρ')
    obtain ⟨h0, h1, h2, hargs⟩ := h c
    obtain ⟨g0, g1, g2, g3, g4, g5, g6, g7, g8, g9, g10, g11, g12, g13, g14⟩ := hagree c
    refine ⟨h0.trans ?_, h1.trans ?_, h2.trans ?_, hargs⟩
    · refine (Cert.ReferenceIdeal.Read.val_main_v43_eq _ _ _ _ _ _ _ _ _ _ _).trans ?_
      rw [g0, g1, g2, g3, g4, g5, g6, g7, g8, g9, g10]
      exact (Cert.KernelIdeal.Whole.out0 m ρ c).symm
    · refine (Cert.ReferenceIdeal.Read.val_main_v82_eq m' c).trans ?_
      rw [g0, g1, g2, g3, g4, g5, g6, g7, g8, g11, g12]
      exact (Cert.KernelIdeal.Whole.out1 m ρ c).symm
    · refine (Cert.ReferenceIdeal.Read.val_main_v121_eq m' c).trans ?_
      rw [g0, g1, g2, g3, g4, g5, g6, g7, g8, g13, g14]
      exact (Cert.KernelIdeal.Whole.out2 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
